-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8x128 : Shape := ⟨3, ![16384, 8, 128]⟩
abbrev S128x64 : Shape := ⟨2, ![128, 64]⟩
abbrev S64 : Shape := ⟨1, ![64]⟩
abbrev S64x96 : Shape := ⟨2, ![64, 96]⟩
abbrev S96 : Shape := ⟨1, ![96]⟩
abbrev S96x128 : Shape := ⟨2, ![96, 128]⟩
abbrev S128 : Shape := ⟨1, ![128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384x8x128 : S_.BroadcastsInDim S16384x8x128 (![] : Fin 0 → Fin S16384x8x128.rank)
  reducesTo_S16384x8x128_S_d0_1_2 : S16384x8x128.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S32x1 .f32) (main_arg12 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg11
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x64 .f32) (main_arg8 : FVec F S64 .f32) (main_arg9 : FVec F S64x32 .f32) (main_arg10 : FVec F S32 .f32) (main_arg11 : FVec F S32x1 .f32) (main_arg12 : FVec F S1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S96 .f32) (main_arg5 : FVec F S96x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x128 .f32 := Host.absf main_arg5
  let main_cst_8 : FVec F S_ .f32 := constant S_ .f32 0x7F800000#32
  let main_v25 : FVec F S96x128 .f32 := broadcastInDim S96x128 ![] bcast_S_S96x128 main_cst_8
  let main_v26 : IVec S96x128 1 := cmpf .olt main_v24 main_v25
  let main_c_9 : IVec S_ 1 := constantI S_ 1 1#1
  let main_v27 : IVec S_ 1 := (fun x v => Host.reduce IntOp.andi x v reducesTo_S96x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x8x128 .f32) (main_arg1 : FVec F S128x64 .f32) (main_arg2 : FVec F S64 .f32) (main_arg3 : FVec F S64x96 .f32) (main_arg4 : FVec F S96 .f32) (main_arg5 : FVec F S96x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_c : IVec S_ 1 := constantI S_ 1 1#1
  let main_v3 : IVec S_ 1 := (fun x v => Host.reduce IntOp.andi x v reducesTo_S16384x8x128_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x96 .f32 := Host.absf main_arg3
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg4 main_arg5 main_arg6 main_arg7 main_arg8 main_arg9 main_arg10 main_arg11 main_arg12 main_v13 main_v16
-- ==== Kernel.lean ====
abbrev S16384x8x128 : Shape := ⟨3, ![16384, 8, 128]⟩
abbrev S128x64 : Shape := ⟨2, ![128, 64]⟩
abbrev S64 : Shape := ⟨1, ![64]⟩
abbrev S64x96 : Shape := ⟨2, ![64, 96]⟩
abbrev S96 : Shape := ⟨1, ![96]⟩
abbrev S96x128 : Shape := ⟨2, ![96, 128]⟩
abbrev S128 : Shape := ⟨1, ![128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S8x8 : Shape := ⟨2, ![8, 8]⟩
abbrev S1x64 : Shape := ⟨2, ![1, 64]⟩
abbrev S1x96 : Shape := ⟨2, ![1, 96]⟩
abbrev S1x128 : Shape := ⟨2, ![1, 128]⟩
abbrev S1x32 : Shape := ⟨2, ![1, 32]⟩
abbrev S1x1 : Shape := ⟨2, ![1, 1]⟩
abbrev S16384x1 : Shape := ⟨2, ![16384, 1]⟩
abbrev S512x8x128 : Shape := ⟨3, ![512, 8, 128]⟩
abbrev S512x1 : Shape := ⟨2, ![512, 1]⟩
abbrev S4096x128 : Shape := ⟨2, ![4096, 128]⟩
abbrev S4096x64 : Shape := ⟨2, ![4096, 64]⟩
abbrev S512x8x64 : Shape := ⟨3, ![512, 8, 64]⟩
abbrev S8x1 : Shape := ⟨2, ![8, 1]⟩
abbrev S1x8x1 : Shape := ⟨3, ![1, 8, 1]⟩
abbrev S512x1x64 : Shape := ⟨3, ![512, 1, 64]⟩
abbrev S1x1x64 : Shape := ⟨3, ![1, 1, 64]⟩
abbrev S4096x96 : Shape := ⟨2, ![4096, 96]⟩
abbrev S512x8x96 : Shape := ⟨3, ![512, 8, 96]⟩
abbrev S512x1x96 : Shape := ⟨3, ![512, 1, 96]⟩
abbrev S4096x32 : Shape := ⟨2, ![4096, 32]⟩
abbrev S512x8x32 : Shape := ⟨3, ![512, 8, 32]⟩
abbrev S1x1x32 : Shape := ⟨3, ![1, 1, 32]⟩
abbrev S512x8 : Shape := ⟨2, ![512, 8]⟩
abbrev S512 : Shape := ⟨1, ![512]⟩

abbrev nBuf : Space → Nat
  | .hbm => 22
  | .vmem => 17
  | .smem => 0
  | _ => 0

abbrev bufTy : (tb : Table) → Fin (tcTables nBuf tb) → BufTy
  | .hbm, ⟨0, _⟩ => ⟨S16384x8x128, .f32⟩
  | .hbm, ⟨1, _⟩ => ⟨S128x64, .f32⟩
  | .hbm, ⟨2, _⟩ => ⟨S64, .f32⟩
  | .hbm, ⟨3, _⟩ => ⟨S64x96, .f32⟩
  | .hbm, ⟨4, _⟩ => ⟨S96, .f32⟩
  | .hbm, ⟨5, _⟩ => ⟨S96x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S8x8, .f32⟩
  | .hbm, ⟨14, _⟩ => ⟨S1x64, .f32⟩
  | .hbm, ⟨15, _⟩ => ⟨S1x96, .f32⟩
  | .hbm, ⟨16, _⟩ => ⟨S1x128, .f32⟩
  | .hbm, ⟨17, _⟩ => ⟨S1x64, .f32⟩
  | .hbm, ⟨18, _⟩ => ⟨S1x32, .f32⟩
  | .hbm, ⟨19, _⟩ => ⟨S1x32, .f32⟩
  | .hbm, ⟨20, _⟩ => ⟨S1x1, .f32⟩
  | .hbm, ⟨21, _⟩ => ⟨S16384x1, .f32⟩
  | .local _ .vmem, ⟨0, _⟩ => ⟨S512x8x128, .f32⟩
  | .local _ .vmem, ⟨1, _⟩ => ⟨S512x8x128, .f32⟩
  | .local _ .vmem, ⟨2, _⟩ => ⟨S8x8, .f32⟩
  | .local _ .vmem, ⟨3, _⟩ => ⟨S128x64, .f32⟩
  | .local _ .vmem, ⟨4, _⟩ => ⟨S1x64, .f32⟩
  | .local _ .vmem, ⟨5, _⟩ => ⟨S64x96, .f32⟩
  | .local _ .vmem, ⟨6, _⟩ => ⟨S1x96, .f32⟩
  | .local _ .vmem, ⟨7, _⟩ => ⟨S96x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S64x32, .f32⟩
  | .local _ .vmem, ⟨12, _⟩ => ⟨S1x32, .f32⟩
  | .local _ .vmem, ⟨13, _⟩ => ⟨S1x32, .f32⟩
  | .local _ .vmem, ⟨14, _⟩ => ⟨S1x1, .f32⟩
  | .local _ .vmem, ⟨15, _⟩ => ⟨S512x1, .f32⟩
  | .local _ .vmem, ⟨16, _⟩ => ⟨S512x1, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S64_S1x64 : S64.ShapeCasts S1x64
  shapeCasts_S96_S1x96 : S96.ShapeCasts S1x96
  shapeCasts_S128_S1x128 : S128.ShapeCasts S1x128
  shapeCasts_S32_S1x32 : S32.ShapeCasts S1x32
  shapeCasts_S32x1_S1x32 : S32x1.ShapeCasts S1x32
  shapeCasts_S1_S1x1 : S1.ShapeCasts S1x1
  inb_S8x8_S8x8_0_0 : ∀ a, (![0, 0] : Fin 2 → Nat) a + S8x8.size a ≤ S8x8.size a
  h_S8x8 : 0 < S8x8.numel
  inb_S512x8x128_S512x8x128_0_0_0 : ∀ a, (![0, 0, 0] : Fin 3 → Nat) a + S512x8x128.size a ≤ S512x8x128.size a
  h_S512x8x128 : 0 < S512x8x128.numel
  shapeCasts_S512x8x128_S4096x128 : S512x8x128.ShapeCasts S4096x128
  inb_S128x64_S128x64_0_0 : ∀ a, (![0, 0] : Fin 2 → Nat) a + S128x64.size a ≤ S128x64.size a
  h_S128x64 : 0 < S128x64.numel
  shapeCasts_S4096x64_S512x8x64 : S4096x64.ShapeCasts S512x8x64
  slices_S8x8_o0_0_S8x1 : S8x8.Slices ![0, 0] S8x1
  shapeCasts_S8x1_S1x8x1 : S8x1.ShapeCasts S1x8x1
  slices_S512x8x64_o0_0_0_S512x1x64 : S512x8x64.Slices ![0, 0, 0] S512x1x64
  broadcasts_S1x8x1_S512x8x64 : S1x8x1.Broadcasts S512x8x64
  broadcasts_S512x1x64_S512x8x64 : S512x1x64.Broadcasts S512x8x64
  slices_S8x8_o0_1_S8x1 : S8x8.Slices ![0, 1] S8x1
  slices_S512x8x64_o0_1_0_S512x1x64 : S512x8x64.Slices ![0, 1, 0] S512x1x64
  slices_S8x8_o0_2_S8x1 : S8x8.Slices ![0, 2] S8x1
  slices_S512x8x64_o0_2_0_S512x1x64 : S512x8x64.Slices ![0, 2, 0] S512x1x64
  slices_S8x8_o0_3_S8x1 : S8x8.Slices ![0, 3] S8x1
  slices_S512x8x64_o0_3_0_S512x1x64 : S512x8x64.Slices ![0, 3, 0] S512x1x64
  slices_S8x8_o0_4_S8x1 : S8x8.Slices ![0, 4] S8x1
  slices_S512x8x64_o0_4_0_S512x1x64 : S512x8x64.Slices ![0, 4, 0] S512x1x64
  slices_S8x8_o0_5_S8x1 : S8x8.Slices ![0, 5] S8x1
  slices_S512x8x64_o0_5_0_S512x1x64 : S512x8x64.Slices ![0, 5, 0] S512x1x64
  slices_S8x8_o0_6_S8x1 : S8x8.Slices ![0, 6] S8x1
  slices_S512x8x64_o0_6_0_S512x1x64 : S512x8x64.Slices ![0, 6, 0] S512x1x64
  slices_S8x8_o0_7_S8x1 : S8x8.Slices ![0, 7] S8x1
  slices_S512x8x64_o0_7_0_S512x1x64 : S512x8x64.Slices ![0, 7, 0] S512x1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S512x8x64 : S1x1x64.Broadcasts S512x8x64
  shapeCasts_S512x8x64_S4096x64 : S512x8x64.ShapeCasts S4096x64
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4096x96 : S1x96.Broadcasts S4096x96
  shapeCasts_S4096x96_S512x8x96 : S4096x96.ShapeCasts S512x8x96
  slices_S512x8x96_o0_0_0_S512x1x96 : S512x8x96.Slices ![0, 0, 0] S512x1x96
  broadcasts_S1x8x1_S512x8x96 : S1x8x1.Broadcasts S512x8x96
  broadcasts_S512x1x96_S512x8x96 : S512x1x96.Broadcasts S512x8x96
  slices_S512x8x96_o0_1_0_S512x1x96 : S512x8x96.Slices ![0, 1, 0] S512x1x96
  slices_S512x8x96_o0_2_0_S512x1x96 : S512x8x96.Slices ![0, 2, 0] S512x1x96
  slices_S512x8x96_o0_3_0_S512x1x96 : S512x8x96.Slices ![0, 3, 0] S512x1x96
  slices_S512x8x96_o0_4_0_S512x1x96 : S512x8x96.Slices ![0, 4, 0] S512x1x96
  slices_S512x8x96_o0_5_0_S512x1x96 : S512x8x96.Slices ![0, 5, 0] S512x1x96
  slices_S512x8x96_o0_6_0_S512x1x96 : S512x8x96.Slices ![0, 6, 0] S512x1x96
  slices_S512x8x96_o0_7_0_S512x1x96 : S512x8x96.Slices ![0, 7, 0] S512x1x96
  shapeCasts_S512x8x96_S4096x96 : S512x8x96.ShapeCasts S4096x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  broadcasts_S1x64_S4096x64 : S1x64.Broadcasts S4096x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  shapeCasts_S4096x32_S512x8x32 : S4096x32.ShapeCasts S512x8x32
  shapeCasts_S1x32_S1x1x32 : S1x32.ShapeCasts S1x1x32
  broadcasts_S1x1x32_S512x8x32 : S1x1x32.Broadcasts S512x8x32
  reduces_S512x8x32_S512x8 : S512x8x32.Reduces [2] S512x8
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S512x8_S512 : S512x8.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S4096x128_S128x64_S4096x64_1_0_0_1_n_n_wf : DotDims.WF S4096x128 S128x64 S4096x64 [1] [0] [0] [1] [] []
  dot_S4096x64_S64x96_S4096x96_1_0_0_1_n_n_wf : DotDims.WF S4096x64 S64x96 S4096x96 [1] [0] [0] [1] [] []
  dot_S4096x96_S96x128_S4096x128_1_0_0_1_n_n_wf : DotDims.WF S4096x96 S96x128 S4096x128 [1] [0] [0] [1] [] []
  dot_S4096x64_S64x32_S4096x32_1_0_0_1_n_n_wf : DotDims.WF S4096x64 S64x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x128.size a ≤ S16384x8x128.size a
  hwx0_0 : ∀ i : grid0.Coords, EltTy.bits .f32 = 32 ∨ (Rect.block (s := S16384x8x128) S512x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x96.size a ≤ S64x96.size a
  hwx0_4 : ∀ i : grid0.Coords, EltTy.bits .f32 = 32 ∨ (Rect.block (s := S64x96) S64x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x128.size a ≤ S96x128.size a
  hwx0_6 : ∀ i : grid0.Coords, EltTy.bits .f32 = 32 ∨ (Rect.block (s := S96x128) S96x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x32.size a ≤ S64x32.size a
  hwx0_10 : ∀ i : grid0.Coords, EltTy.bits .f32 = 32 ∨ (Rect.block (s := S64x32) S64x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S16384x1.size a
  hwx0_14 : ∀ i : grid0.Coords, EltTy.bits .f32 = 32 ∨ (Rect.block (s := S16384x1) S512x1.size (cc0_transform_14 i) (hinb0_14 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x96_S4096x96_1_0_0_1_n_n : DotDims S4096x64 S64x96 S4096x96 where
  lhsContracting := [1]
  rhsContracting := [0]
  lhsNonContracting := [0]
  rhsNonContracting := [1]
  lhsBatch := []
  rhsBatch := []
  wf := dot_S4096x64_S64x96_S4096x96_1_0_0_1_n_n_wf
def dot_S4096x96_S96x128_S4096x128_1_0_0_1_n_n : DotDims S4096x96 S96x128 S4096x128 where
  lhsContracting := [1]
  rhsContracting := [0]
  lhsNonContracting := [0]
  rhsNonContracting := [1]
  lhsBatch := []
  rhsBatch := []
  wf := dot_S4096x96_S96x128_S4096x128_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

abbrev win0_0 : Pipeline.Window sig grid0 :=
  Pipeline.Window.ofSpec (Memref.whole main_arg0) S512x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S96x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S512x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x8x128 : Shape := ⟨3, ![16384, 8, 128]⟩
abbrev S128x64 : Shape := ⟨2, ![128, 64]⟩
abbrev S64 : Shape := ⟨1, ![64]⟩
abbrev S64x96 : Shape := ⟨2, ![64, 96]⟩
abbrev S96 : Shape := ⟨1, ![96]⟩
abbrev S96x128 : Shape := ⟨2, ![96, 128]⟩
abbrev S128 : Shape := ⟨1, ![128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S34 : Shape := ⟨1, ![34]⟩
abbrev S16384x8x64 : Shape := ⟨3, ![16384, 8, 64]⟩
abbrev S_ : Shape := ⟨0, ![]⟩
abbrev S34x1 : Shape := ⟨2, ![34, 1]⟩
abbrev S1x1 : Shape := ⟨2, ![1, 1]⟩
abbrev S16384x34x64 : Shape := ⟨3, ![16384, 34, 64]⟩
abbrev S1x34x1 : Shape := ⟨3, ![1, 34, 1]⟩
abbrev S1x1x64 : Shape := ⟨3, ![1, 1, 64]⟩
abbrev S16384x8x96 : Shape := ⟨3, ![16384, 8, 96]⟩
abbrev S16384x34x96 : Shape := ⟨3, ![16384, 34, 96]⟩
abbrev S1x1x96 : Shape := ⟨3, ![1, 1, 96]⟩
abbrev S16384x34x128 : Shape := ⟨3, ![16384, 34, 128]⟩
abbrev S1x1x128 : Shape := ⟨3, ![1, 1, 128]⟩
abbrev S16384x8x32 : Shape := ⟨3, ![16384, 8, 32]⟩
abbrev S1x1x32 : Shape := ⟨3, ![1, 1, 32]⟩
abbrev S16384x8x1 : Shape := ⟨3, ![16384, 8, 1]⟩
abbrev S1x1x1 : Shape := ⟨3, ![1, 1, 1]⟩
abbrev S16384x1 : Shape := ⟨2, ![16384, 1]⟩

abbrev nBuf : Space → Nat
  | .hbm => 168
  | .vmem => 0
  | .smem => 0
  | _ => 0

abbrev hbmTy0_0 (i : Nat) : BufTy := match i % 128 with
  | 0 => ⟨S16384x8x128, .f32⟩
  | 1 => ⟨S128x64, .f32⟩
  | 2 => ⟨S64, .f32⟩
  | 3 => ⟨S64x96, .f32⟩
  | 4 => ⟨S96, .f32⟩
  | 5 => ⟨S96x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S34, .i32⟩
  | 14 => ⟨S34, .f32⟩
  | 15 => ⟨S34, .i32⟩
  | 16 => ⟨S16384x8x64, .f32⟩
  | 17 => ⟨S_, .i32⟩
  | 18 => ⟨S34, .i32⟩
  | 19 => ⟨S34, .i1⟩
  | 20 => ⟨S_, .i32⟩
  | 21 => ⟨S34, .i32⟩
  | 22 => ⟨S34, .i32⟩
  | 23 => ⟨S34, .i32⟩
  | 24 => ⟨S34x1, .i32⟩
  | 25 => ⟨S1, .i32⟩
  | 26 => ⟨S_, .i32⟩
  | 27 => ⟨S34x1, .i32⟩
  | 28 => ⟨S34x1, .i1⟩
  | 29 => ⟨S1x1, .i32⟩
  | 30 => ⟨S34x1, .i32⟩
  | 31 => ⟨S34x1, .i1⟩
  | 32 => ⟨S34x1, .i1⟩
  | 33 => ⟨S_, .i1⟩
  | 34 => ⟨S34, .i1⟩
  | 35 => ⟨S16384x34x64, .f32⟩
  | 36 => ⟨S16384x34x64, .i1⟩
  | 37 => ⟨S_, .f32⟩
  | 38 => ⟨S16384x34x64, .f32⟩
  | 39 => ⟨S16384x34x64, .f32⟩
  | 40 => ⟨S1x34x1, .f32⟩
  | 41 => ⟨S16384x34x64, .f32⟩
  | 42 => ⟨S16384x34x64, .f32⟩
  | 43 => ⟨S_, .f32⟩
  | 44 => ⟨S16384x8x64, .f32⟩
  | 45 => ⟨S_, .i32⟩
  | 46 => ⟨S34, .i32⟩
  | 47 => ⟨S34, .i1⟩
  | 48 => ⟨S_, .i32⟩
  | 49 => ⟨S34, .i32⟩
  | 50 => ⟨S34, .i32⟩
  | 51 => ⟨S34, .i32⟩
  | 52 => ⟨S34x1, .i32⟩
  | 53 => ⟨S16384x8x64, .f32⟩
  | 54 => ⟨S1x1x64, .f32⟩
  | 55 => ⟨S16384x8x64, .f32⟩
  | 56 => ⟨S16384x8x64, .f32⟩
  | 57 => ⟨S_, .f32⟩
  | 58 => ⟨S16384x8x64, .f32⟩
  | 59 => ⟨S16384x8x64, .f32⟩
  | 60 => ⟨S16384x8x96, .f32⟩
  | 61 => ⟨S_, .i32⟩
  | 62 => ⟨S34, .i32⟩
  | 63 => ⟨S34, .i1⟩
  | 64 => ⟨S_, .i32⟩
  | 65 => ⟨S34, .i32⟩
  | 66 => ⟨S34, .i32⟩
  | 67 => ⟨S34, .i32⟩
  | 68 => ⟨S34x1, .i32⟩
  | 69 => ⟨S1, .i32⟩
  | 70 => ⟨S_, .i32⟩
  | 71 => ⟨S34x1, .i32⟩
  | 72 => ⟨S34x1, .i1⟩
  | 73 => ⟨S1x1, .i32⟩
  | 74 => ⟨S34x1, .i32⟩
  | 75 => ⟨S34x1, .i1⟩
  | 76 => ⟨S34x1, .i1⟩
  | 77 => ⟨S_, .i1⟩
  | 78 => ⟨S34, .i1⟩
  | 79 => ⟨S16384x34x96, .f32⟩
  | 80 => ⟨S16384x34x96, .i1⟩
  | 81 => ⟨S_, .f32⟩
  | 82 => ⟨S16384x34x96, .f32⟩
  | 83 => ⟨S16384x34x96, .f32⟩
  | 84 => ⟨S1x34x1, .f32⟩
  | 85 => ⟨S16384x34x96, .f32⟩
  | 86 => ⟨S16384x34x96, .f32⟩
  | 87 => ⟨S_, .f32⟩
  | 88 => ⟨S16384x8x96, .f32⟩
  | 89 => ⟨S_, .i32⟩
  | 90 => ⟨S34, .i32⟩
  | 91 => ⟨S34, .i1⟩
  | 92 => ⟨S_, .i32⟩
  | 93 => ⟨S34, .i32⟩
  | 94 => ⟨S34, .i32⟩
  | 95 => ⟨S34, .i32⟩
  | 96 => ⟨S34x1, .i32⟩
  | 97 => ⟨S16384x8x96, .f32⟩
  | 98 => ⟨S1x1x96, .f32⟩
  | 99 => ⟨S16384x8x96, .f32⟩
  | 100 => ⟨S16384x8x96, .f32⟩
  | 101 => ⟨S_, .f32⟩
  | 102 => ⟨S16384x8x96, .f32⟩
  | 103 => ⟨S16384x8x96, .f32⟩
  | 104 => ⟨S16384x8x128, .f32⟩
  | 105 => ⟨S_, .i32⟩
  | 106 => ⟨S34, .i32⟩
  | 107 => ⟨S34, .i1⟩
  | 108 => ⟨S_, .i32⟩
  | 109 => ⟨S34, .i32⟩
  | 110 => ⟨S34, .i32⟩
  | 111 => ⟨S34, .i32⟩
  | 112 => ⟨S34x1, .i32⟩
  | 113 => ⟨S1, .i32⟩
  | 114 => ⟨S_, .i32⟩
  | 115 => ⟨S34x1, .i32⟩
  | 116 => ⟨S34x1, .i1⟩
  | 117 => ⟨S1x1, .i32⟩
  | 118 => ⟨S34x1, .i32⟩
  | 119 => ⟨S34x1, .i1⟩
  | 120 => ⟨S34x1, .i1⟩
  | 121 => ⟨S_, .i1⟩
  | 122 => ⟨S34, .i1⟩
  | 123 => ⟨S16384x34x128, .f32⟩
  | 124 => ⟨S16384x34x128, .i1⟩
  | 125 => ⟨S_, .f32⟩
  | 126 => ⟨S16384x34x128, .f32⟩
  | 127 => ⟨S16384x34x128, .f32⟩
  | _ => ⟨S16384x8x128, .f32⟩

abbrev hbmTy0_1 (i : Nat) : BufTy := match i % 128 with
  | 0 => ⟨S1x34x1, .f32⟩
  | 1 => ⟨S16384x34x128, .f32⟩
  | 2 => ⟨S16384x34x128, .f32⟩
  | 3 => ⟨S_, .f32⟩
  | 4 => ⟨S16384x8x128, .f32⟩
  | 5 => ⟨S_, .i32⟩
  | 6 => ⟨S34, .i32⟩
  | 7 => ⟨S34, .i1⟩
  | 8 => ⟨S_, .i32⟩
  | 9 => ⟨S34, .i32⟩
  | 10 => ⟨S34, .i32⟩
  | 11 => ⟨S34, .i32⟩
  | 12 => ⟨S34x1, .i32⟩
  | 13 => ⟨S16384x8x128, .f32⟩
  | 14 => ⟨S1x1x128, .f32⟩
  | 15 => ⟨S16384x8x128, .f32⟩
  | 16 => ⟨S16384x8x128, .f32⟩
  | 17 => ⟨S_, .f32⟩
  | 18 => ⟨S16384x8x128, .f32⟩
  | 19 => ⟨S16384x8x128, .f32⟩
  | 20 => ⟨S16384x8x64, .f32⟩
  | 21 => ⟨S1x1x64, .f32⟩
  | 22 => ⟨S16384x8x64, .f32⟩
  | 23 => ⟨S16384x8x64, .f32⟩
  | 24 => ⟨S_, .f32⟩
  | 25 => ⟨S16384x8x64, .f32⟩
  | 26 => ⟨S16384x8x64, .f32⟩
  | 27 => ⟨S16384x8x32, .f32⟩
  | 28 => ⟨S1x1x32, .f32⟩
  | 29 => ⟨S16384x8x32, .f32⟩
  | 30 => ⟨S16384x8x32, .f32⟩
  | 31 => ⟨S_, .f32⟩
  | 32 => ⟨S16384x8x32, .f32⟩
  | 33 => ⟨S16384x8x32, .f32⟩
  | 34 => ⟨S16384x8x1, .f32⟩
  | 35 => ⟨S1x1x1, .f32⟩
  | 36 => ⟨S16384x8x1, .f32⟩
  | 37 => ⟨S16384x8x1, .f32⟩
  | 38 => ⟨S_, .f32⟩
  | 39 => ⟨S16384x1, .f32⟩
  | _ => ⟨S16384x8x128, .f32⟩

abbrev hbmTy (i : Nat) : BufTy := match i / 128 with
  | 0 => hbmTy0_0 i
  | 1 => hbmTy0_1 i
  | _ => ⟨S16384x8x128, .f32⟩

abbrev bufTy : (tb : Table) → Fin (tcTables nBuf tb) → BufTy
  | .hbm, ⟨i, _⟩ => hbmTy i
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_c_0 : Ref sig .tc := ⟨.hbm, 15, rfl⟩
abbrev main_v0 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_c_2 : Ref sig .tc := ⟨.hbm, 45, rfl⟩
abbrev main_v6 : Ref sig .tc := ⟨.hbm, 46, rfl⟩
abbrev main_v7 : Ref sig .tc := ⟨.hbm, 47, rfl⟩
abbrev main_c_3 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_call1_cst : Ref sig .tc := ⟨.hbm, 57, rfl⟩
abbrev main_call1_v0 : Ref sig .tc := ⟨.hbm, 58, rfl⟩
abbrev main_v16 : Ref sig .tc := ⟨.hbm, 59, rfl⟩
abbrev main_v17 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_cst_4 : Ref sig .tc := ⟨.hbm, 87, rfl⟩
abbrev main_v22 : Ref sig .tc := ⟨.hbm, 88, rfl⟩
abbrev main_c_5 : Ref sig .tc := ⟨.hbm, 89, rfl⟩
abbrev main_v23 : Ref sig .tc := ⟨.hbm, 90, rfl⟩
abbrev main_v24 : Ref sig .tc := ⟨.hbm, 91, rfl⟩
abbrev main_c_6 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_call3_cst : Ref sig .tc := ⟨.hbm, 101, rfl⟩
abbrev main_call3_v0 : Ref sig .tc := ⟨.hbm, 102, rfl⟩
abbrev main_v33 : Ref sig .tc := ⟨.hbm, 103, rfl⟩
abbrev main_v34 : Ref sig .tc := ⟨.hbm, 104, rfl⟩
abbrev main_call4_c : Ref sig .tc := ⟨.hbm, 105, rfl⟩
abbrev main_call4_v0 : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_c_1 : Ref sig .tc := ⟨.hbm, 113, rfl⟩
abbrev main_call4_c_2 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_3 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_call4_cst : Ref sig .tc := ⟨.hbm, 125, rfl⟩
abbrev main_call4_v15 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_cst_7 : Ref sig .tc := ⟨.hbm, 131, rfl⟩
abbrev main_v39 : Ref sig .tc := ⟨.hbm, 132, rfl⟩
abbrev main_c_8 : Ref sig .tc := ⟨.hbm, 133, rfl⟩
abbrev main_v40 : Ref sig .tc := ⟨.hbm, 134, rfl⟩
abbrev main_v41 : Ref sig .tc := ⟨.hbm, 135, rfl⟩
abbrev main_c_9 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_call5_cst : Ref sig .tc := ⟨.hbm, 145, rfl⟩
abbrev main_call5_v0 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_call6_cst : Ref sig .tc := ⟨.hbm, 152, rfl⟩
abbrev main_call6_v0 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_call7_cst : Ref sig .tc := ⟨.hbm, 159, rfl⟩
abbrev main_call7_v0 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_cst_10 : Ref sig .tc := ⟨.hbm, 166, rfl⟩
abbrev main_v65 : Ref sig .tc := ⟨.hbm, 167, rfl⟩

abbrev nD : Nat := 1
abbrev τ : Topo := Topo.v7x

variable {F : FTy → Type} [FloatOps F]

class Facts₀ : Prop where
  bcast_S_S34 : S_.BroadcastsInDim S34 (![] : Fin 0 → Fin S34.rank)
  bcast_S34_S34x1_0 : S34.BroadcastsInDim S34x1 (![0] : Fin 1 → Fin S34x1.rank)
  bcast_S_S34x1 : S_.BroadcastsInDim S34x1 (![] : Fin 0 → Fin S34x1.rank)
  bcast_S1_S1x1_1 : S1.BroadcastsInDim S1x1 (![1] : Fin 1 → Fin S1x1.rank)
  bcast_S1x1_S34x1_0_1 : S1x1.BroadcastsInDim S34x1 (![0, 1] : Fin 2 → Fin S34x1.rank)
  reducesTo_S34x1_S34_d1 : S34x1.ReducesTo [1] S34
  h_S_ : 0 < S_.numel
  bcast_S34_S16384x34x64_1 : S34.BroadcastsInDim S16384x34x64 (![1] : Fin 1 → Fin S16384x34x64.rank)
  bcast_S_S16384x34x64 : S_.BroadcastsInDim S16384x34x64 (![] : Fin 0 → Fin S16384x34x64.rank)
  bcast_S34_S1x34x1_1 : S34.BroadcastsInDim S1x34x1 (![1] : Fin 1 → Fin S1x34x1.rank)
  bcast_S1x34x1_S16384x34x64_0_1_2 : S1x34x1.BroadcastsInDim S16384x34x64 (![0, 1, 2] : Fin 3 → Fin S16384x34x64.rank)
  bcast_S_S16384x8x64 : S_.BroadcastsInDim S16384x8x64 (![] : Fin 0 → Fin S16384x8x64.rank)
  bcast_S64_S1x1x64_2 : S64.BroadcastsInDim S1x1x64 (![2] : Fin 1 → Fin S1x1x64.rank)
  bcast_S1x1x64_S16384x8x64_0_1_2 : S1x1x64.BroadcastsInDim S16384x8x64 (![0, 1, 2] : Fin 3 → Fin S16384x8x64.rank)
  bcast_S34_S16384x34x96_1 : S34.BroadcastsInDim S16384x34x96 (![1] : Fin 1 → Fin S16384x34x96.rank)
  bcast_S_S16384x34x96 : S_.BroadcastsInDim S16384x34x96 (![] : Fin 0 → Fin S16384x34x96.rank)
  bcast_S1x34x1_S16384x34x96_0_1_2 : S1x34x1.BroadcastsInDim S16384x34x96 (![0, 1, 2] : Fin 3 → Fin S16384x34x96.rank)
  bcast_S_S16384x8x96 : S_.BroadcastsInDim S16384x8x96 (![] : Fin 0 → Fin S16384x8x96.rank)
  bcast_S96_S1x1x96_2 : S96.BroadcastsInDim S1x1x96 (![2] : Fin 1 → Fin S1x1x96.rank)
  bcast_S1x1x96_S16384x8x96_0_1_2 : S1x1x96.BroadcastsInDim S16384x8x96 (![0, 1, 2] : Fin 3 → Fin S16384x8x96.rank)
  bcast_S34_S16384x34x128_1 : S34.BroadcastsInDim S16384x34x128 (![1] : Fin 1 → Fin S16384x34x128.rank)
  bcast_S_S16384x34x128 : S_.BroadcastsInDim S16384x34x128 (![] : Fin 0 → Fin S16384x34x128.rank)
  bcast_S1x34x1_S16384x34x128_0_1_2 : S1x34x1.BroadcastsInDim S16384x34x128 (![0, 1, 2] : Fin 3 → Fin S16384x34x128.rank)
  bcast_S_S16384x8x128 : S_.BroadcastsInDim S16384x8x128 (![] : Fin 0 → Fin S16384x8x128.rank)
  bcast_S128_S1x1x128_2 : S128.BroadcastsInDim S1x1x128 (![2] : Fin 1 → Fin S1x1x128.rank)
  bcast_S1x1x128_S16384x8x128_0_1_2 : S1x1x128.BroadcastsInDim S16384x8x128 (![0, 1, 2] : Fin 3 → Fin S16384x8x128.rank)
  bcast_S32_S1x1x32_2 : S32.BroadcastsInDim S1x1x32 (![2] : Fin 1 → Fin S1x1x32.rank)
  bcast_S1x1x32_S16384x8x32_0_1_2 : S1x1x32.BroadcastsInDim S16384x8x32 (![0, 1, 2] : Fin 3 → Fin S16384x8x32.rank)
  bcast_S_S16384x8x32 : S_.BroadcastsInDim S16384x8x32 (![] : Fin 0 → Fin S16384x8x32.rank)
  bcast_S1_S1x1x1_2 : S1.BroadcastsInDim S1x1x1 (![2] : Fin 1 → Fin S1x1x1.rank)
  bcast_S1x1x1_S16384x8x1_0_1_2 : S1x1x1.BroadcastsInDim S16384x8x1 (![0, 1, 2] : Fin 3 → Fin S16384x8x1.rank)
  reducesTo_S16384x8x1_S16384x1_d1 : S16384x8x1.ReducesTo [1] S16384x1
  dot_S16384x8x128_S128x64_S16384x8x64_2_0_01_1_n_n_wf : DotDims.WF S16384x8x128 S128x64 S16384x8x64 [2] [0] [0, 1] [1] [] []
  gather_S16384x8x64_S34x1_S16384x34x64_02_1_n_n_1_1_16384164_wf : GatherDims.WF S16384x8x64 S34x1 S16384x34x64 [0, 2] [1] [] [1] [] 1 ![16384, 1, 64]
  scatter_S16384x8x64_S34x1_S16384x34x64_02_1_1_1_wf : ScatterDims.WF S16384x8x64 S34x1 S16384x34x64 [0, 2] [1] [1] 1
  dot_S16384x8x64_S64x96_S16384x8x96_2_0_01_1_n_n_wf : DotDims.WF S16384x8x64 S64x96 S16384x8x96 [2] [0] [0, 1] [1] [] []
  gather_S16384x8x96_S34x1_S16384x34x96_02_1_n_n_1_1_16384196_wf : GatherDims.WF S16384x8x96 S34x1 S16384x34x96 [0, 2] [1] [] [1] [] 1 ![16384, 1, 96]
  scatter_S16384x8x96_S34x1_S16384x34x96_02_1_1_1_wf : ScatterDims.WF S16384x8x96 S34x1 S16384x34x96 [0, 2] [1] [1] 1
  dot_S16384x8x96_S96x128_S16384x8x128_2_0_01_1_n_n_wf : DotDims.WF S16384x8x96 S96x128 S16384x8x128 [2] [0] [0, 1] [1] [] []
  gather_S16384x8x128_S34x1_S16384x34x128_02_1_n_n_1_1_163841128_wf : GatherDims.WF S16384x8x128 S34x1 S16384x34x128 [0, 2] [1] [] [1] [] 1 ![16384, 1, 128]
  scatter_S16384x8x128_S34x1_S16384x34x128_02_1_1_1_wf : ScatterDims.WF S16384x8x128 S34x1 S16384x34x128 [0, 2] [1] [1] 1
  dot_S16384x8x64_S64x32_S16384x8x32_2_0_01_1_n_n_wf : DotDims.WF S16384x8x64 S64x32 S16384x8x32 [2] [0] [0, 1] [1] [] []
  dot_S16384x8x32_S32x1_S16384x8x1_2_0_01_1_n_n_wf : DotDims.WF S16384x8x32 S32x1 S16384x8x1 [2] [0] [0, 1] [1] [] []

variable [Facts₀]

def dot_S16384x8x128_S128x64_S16384x8x64_2_0_01_1_n_n : DotDims S16384x8x128 S128x64 S16384x8x64 where
  lhsContracting := [2]
  rhsContracting := [0]
  lhsNonContracting := [0, 1]
  rhsNonContracting := [1]
  lhsBatch := []
  rhsBatch := []
  wf := dot_S16384x8x128_S128x64_S16384x8x64_2_0_01_1_n_n_wf
def gather_S16384x8x64_S34x1_S16384x34x64_02_1_n_n_1_1_16384164 : GatherDims S16384x8x64 S34x1 S16384x34x64 where
  offsetDims := [0, 2]
  collapsedSliceDims := [1]
  operandBatchingDims := []
  startIndicesBatchingDims := []
  startIndexMap := [1]
  indexVectorDim := 1
  sliceSizes := ![16384, 1, 64]
  wf := gather_S16384x8x64_S34x1_S16384x34x64_02_1_n_n_1_1_16384164_wf
def scatter_S16384x8x64_S34x1_S16384x34x64_02_1_1_1 : ScatterDims S16384x8x64 S34x1 S16384x34x64 where
  updateWindowDims := [0, 2]
  insertedWindowDims := [1]
  scatterDimsToOperandDims := [1]
  indexVectorDim := 1
  wf := scatter_S16384x8x64_S34x1_S16384x34x64_02_1_1_1_wf
def dot_S16384x8x64_S64x96_S16384x8x96_2_0_01_1_n_n : DotDims S16384x8x64 S64x96 S16384x8x96 where
  lhsContracting := [2]
  rhsContracting := [0]
  lhsNonContracting := [0, 1]
  rhsNonContracting := [1]
  lhsBatch := []
  rhsBatch := []
  wf := dot_S16384x8x64_S64x96_S16384x8x96_2_0_01_1_n_n_wf
def gather_S16384x8x96_S34x1_S16384x34x96_02_1_n_n_1_1_16384196 : GatherDims S16384x8x96 S34x1 S16384x34x96 where
  offsetDims := [0, 2]
  collapsedSliceDims := [1]
  operandBatchingDims := []
  startIndicesBatchingDims := []
  startIndexMap := [1]
  indexVectorDim := 1
  sliceSizes := ![16384, 1, 96]
  wf := gather_S16384x8x96_S34x1_S16384x34x96_02_1_n_n_1_1_16384196_wf
def scatter_S16384x8x96_S34x1_S16384x34x96_02_1_1_1 : ScatterDims S16384x8x96 S34x1 S16384x34x96 where
  updateWindowDims := [0, 2]
  insertedWindowDims := [1]
  scatterDimsToOperandDims := [1]
  indexVectorDim := 1
  wf := scatter_S16384x8x96_S34x1_S16384x34x96_02_1_1_1_wf
def dot_S16384x8x96_S96x128_S16384x8x128_2_0_01_1_n_n : DotDims S16384x8x96 S96x128 S16384x8x128 where
  lhsContracting := [2]
  rhsContracting := [0]
  lhsNonContracting := [0, 1]
  rhsNonContracting := [1]
  lhsBatch := []
  rhsBatch := []
  wf := dot_S16384x8x96_S96x128_S16384x8x128_2_0_01_1_n_n_wf
def gather_S16384x8x128_S34x1_S16384x34x128_02_1_n_n_1_1_163841128 : GatherDims S16384x8x128 S34x1 S16384x34x128 where
  offsetDims := [0, 2]
  collapsedSliceDims := [1]
  operandBatchingDims := []
  startIndicesBatchingDims := []
  startIndexMap := [1]
  indexVectorDim := 1
  sliceSizes := ![16384, 1, 128]
  wf := gather_S16384x8x128_S34x1_S16384x34x128_02_1_n_n_1_1_163841128_wf
def scatter_S16384x8x128_S34x1_S16384x34x128_02_1_1_1 : ScatterDims S16384x8x128 S34x1 S16384x34x128 where
  updateWindowDims := [0, 2]
  insertedWindowDims := [1]
  scatterDimsToOperandDims := [1]
  indexVectorDim := 1
  wf := scatter_S16384x8x128_S34x1_S16384x34x128_02_1_1_1_wf
def dot_S16384x8x64_S64x32_S16384x8x32_2_0_01_1_n_n : DotDims S16384x8x64 S64x32 S16384x8x32 where
  lhsContracting := [2]
  rhsContracting := [0]
  lhsNonContracting := [0, 1]
  rhsNonContracting := [1]
  lhsBatch := []
  rhsBatch := []
  wf := dot_S16384x8x64_S64x32_S16384x8x32_2_0_01_1_n_n_wf
def dot_S16384x8x32_S32x1_S16384x8x1_2_0_01_1_n_n : DotDims S16384x8x32 S32x1 S16384x8x1 where
  lhsContracting := [2]
  rhsContracting := [0]
  lhsNonContracting := [0, 1]
  rhsNonContracting := [1]
  lhsBatch := []
  rhsBatch := []
  wf := dot_S16384x8x32_S32x1_S16384x8x1_2_0_01_1_n_n_wf

class Facts : Prop extends Facts₀ where

variable [Facts]
-- ==== Proof.Spec.lean ====
/-
  The graph network of this certificate on ONE batch element, as plain functions on the extended reals.

  A batch element is eight node rows. A graph layer mixes the node rows by the normalised adjacency of a fixed graph on
  the eight nodes and projects the channels by a weight matrix; the two programs do these two steps in different orders
  and spell the mixing differently:
  * mix: row n of the mixed rows is the sum over the eight nodes m of A(n, m) times row m — a product with the
    8 x 8 matrix A (zero where there is no edge);
  * agg: row n is zero plus the sum, over the 34 directed edges e that end in n (self-loops included), of row src(e)
    times the edge's weight.
  layerA projects first and mixes after; layerB mixes first and projects after. After three graph layers come two
  rectified dense layers, a score per node (a product with one column, plus a constant) and the maximum of the eight
  scores. netK is the arrangement mix/layerA, layerB, layerB; netR the arrangement agg/layerA three times.
  outK and outR are these on every batch element of the argument arrays.
  Nothing here mentions a program.
-/
import Mathlib.Data.EReal.Basic
import Mathlib.Data.EReal.Operations
import Mathlib.Algebra.BigOperators.Fin
import Idealize.ShloMosaic.PureOps.Ideal
import Idealize.ShloMosaic.Lib.ValueIdx

noncomputable section

namespace Cert.Gcn

open Idealize.ShloMosaic Idealize.ShloMosaic.ValueIdx
open scoped BigOperators

/-- The rectifier. -/
def reluE (x : EReal) : EReal := max x 0

/-! ## The graph -/

/-- The node an edge leaves. -/
def srcTab : Fin 34 → Fin 8 :=
  ![3, 0, 3, 1, 3, 2, 3, 7, 7, 4, 7, 5, 7, 6, 0, 1, 1, 6, 6, 4, 4, 5, 5, 2, 2, 0, 0, 1, 2, 3, 4, 5, 6, 7]

/-- The node an edge enters. -/
def dstTab : Fin 34 → Fin 8 :=
  ![0, 3, 1, 3, 2, 3, 7, 3, 4, 7, 5, 7, 6, 7, 1, 0, 6, 1, 4, 6, 5, 4, 2, 5, 0, 2, 0, 1, 2, 3, 4, 5, 6, 7]

/-- The single-precision word of an edge's weight. -/
def normW : Fin 34 → BitVec 32 :=
  ![0x3E64F92E#32, 0x3E64F92E#32, 0x3E64F92E#32, 0x3E64F92E#32, 0x3E64F92E#32, 0x3E64F92E#32, 0x3E4CCCCC#32, 0x3E4CCCCC#32,
    0x3E64F92E#32, 0x3E64F92E#32, 0x3E64F92E#32, 0x3E64F92E#32, 0x3E64F92E#32, 0x3E64F92E#32, 0x3E800000#32, 0x3E800000#32,
    0x3E800000#32, 0x3E800000#32, 0x3E800000#32, 0x3E800000#32, 0x3E800000#32, 0x3E800000#32, 0x3E800000#32, 0x3E800000#32,
    0x3E800000#32, 0x3E800000#32, 0x3E800000#32, 0x3E800000#32, 0x3E800000#32, 0x3E4CCCCC#32, 0x3E800000#32, 0x3E800000#32,
    0x3E800000#32, 0x3E4CCCCC#32]

/-- The single-precision words of the 8 x 8 matrix: entry (n, m) is the weight of the edge from m to n, zero without one. -/
def adjW : Fin 8 → Fin 8 → BitVec 32 :=
  ![![0x3E800000#32, 0x3E800000#32, 0x3E800000#32, 0x3E64F92E#32, 0x00000000#32, 0x00000000#32, 0x00000000#32, 0x00000000#32],
    ![0x3E800000#32, 0x3E800000#32, 0x00000000#32, 0x3E64F92E#32, 0x00000000#32, 0x00000000#32, 0x3E800000#32, 0x00000000#32],
    ![0x3E800000#32, 0x00000000#32, 0x3E800000#32, 0x3E64F92E#32, 0x00000000#32, 0x3E800000#32, 0x00000000#32, 0x00000000#32],
    ![0x3E64F92E#32, 0x3E64F92E#32, 0x3E64F92E#32, 0x3E4CCCCC#32, 0x00000000#32, 0x00000000#32, 0x00000000#32, 0x3E4CCCCC#32],
    ![0x00000000#32, 0x00000000#32, 0x00000000#32, 0x00000000#32, 0x3E800000#32, 0x3E800000#32, 0x3E800000#32, 0x3E64F92E#32],
    ![0x00000000#32, 0x00000000#32, 0x3E800000#32, 0x00000000#32, 0x3E800000#32, 0x3E800000#32, 0x00000000#32, 0x3E64F92E#32],
    ![0x00000000#32, 0x3E800000#32, 0x00000000#32, 0x00000000#32, 0x3E800000#32, 0x00000000#32, 0x3E800000#32, 0x3E64F92E#32],
    ![0x00000000#32, 0x00000000#32, 0x00000000#32, 0x3E4CCCCC#32, 0x3E64F92E#32, 0x3E64F92E#32, 0x3E64F92E#32, 0x3E4CCCCC#32]]

/-- An edge's weight as an extended real. -/
def normE (e : Fin 34) : EReal := Ideal.ofBits .f32 (normW e)

/-- The matrix's entry as an extended real. -/
def adjE (n m : Fin 8) : EReal := Ideal.ofBits .f32 (adjW n m)

/-! ## The two spellings of node mixing -/

/-- Mixing by a matrix: entry n is the sum over the nodes m of A(n, m) * h(m). -/
def mix (A : Fin 8 → Fin 8 → EReal) (h : Fin 8 → EReal) (n : Fin 8) : EReal := ∑ m : Fin 8, A n m * h m

/-- Aggregating over edges: entry n is zero plus the sum over the edges e into n of h(src e) * weight(e). -/
def agg (h : Fin 8 → EReal) (n : Fin 8) : EReal :=
  0 + ∑ e ∈ (Finset.univ : Finset (Fin 34)).filter (fun e => dstTab e = n), h (srcTab e) * normE e

/-! ## Layers -/

/-- A graph layer that projects the channels first and mixes the nodes after, rectified. -/
def layerA (op : (Fin 8 → EReal) → Fin 8 → EReal) {K N : ℕ} (h : Fin 8 → Fin K → EReal) (W : Fin K → Fin N → EReal)
    (b : Fin N → EReal) : Fin 8 → Fin N → EReal :=
  fun n d => reluE (op (fun m => ∑ k : Fin K, h m k * W k d) n + b d)

/-- A graph layer that mixes the nodes first and projects the channels after, rectified. -/
def layerB (op : (Fin 8 → EReal) → Fin 8 → EReal) {K N : ℕ} (h : Fin 8 → Fin K → EReal) (W : Fin K → Fin N → EReal)
    (b : Fin N → EReal) : Fin 8 → Fin N → EReal :=
  fun n d => reluE ((∑ k : Fin K, op (fun m => h m k) n * W k d) + b d)

/-- A rectified dense layer on each node row. -/
def denseRelu {K N : ℕ} (h : Fin 8 → Fin K → EReal) (W : Fin K → Fin N → EReal) (b : Fin N → EReal) :
    Fin 8 → Fin N → EReal :=
  fun n d => reluE ((∑ k : Fin K, h n k * W k d) + b d)

/-- A score per node: the row against one column, plus a constant. -/
def score {K : ℕ} (h : Fin 8 → Fin K → EReal) (r : Fin K → EReal) (c : EReal) : Fin 8 → EReal :=
  fun n => (∑ k : Fin K, h n k * r k) + c

/-- The maximum of the eight scores (from minus infinity). -/
def pool (s : Fin 8 → EReal) : EReal := (Finset.univ : Finset (Fin 8)).fold max ⊥ s

/-- The head after the graph layers: two rectified dense layers, the score, the maximum over the nodes. -/
def head (h : Fin 8 → Fin 128 → EReal) (R0 : Fin 128 → Fin 64 → EReal) (rb0 : Fin 64 → EReal)
    (R1 : Fin 64 → Fin 32 → EReal) (rb1 : Fin 32 → EReal) (r2 : Fin 32 → EReal) (c2 : EReal) : EReal :=
  pool (score (denseRelu (denseRelu h R0 rb0) R1 rb1) r2 c2)

/-- The network with the nodes mixed by the matrix: project-then-mix in the first layer, mix-then-project after. -/
def netK (x : Fin 8 → Fin 128 → EReal) (W0 : Fin 128 → Fin 64 → EReal) (b0 : Fin 64 → EReal)
    (W1 : Fin 64 → Fin 96 → EReal) (b1 : Fin 96 → EReal) (W2 : Fin 96 → Fin 128 → EReal) (b2 : Fin 128 → EReal)
    (R0 : Fin 128 → Fin 64 → EReal) (rb0 : Fin 64 → EReal) (R1 : Fin 64 → Fin 32 → EReal) (rb1 : Fin 32 → EReal)
    (r2 : Fin 32 → EReal) (c2 : EReal) : EReal :=
  head (layerB (mix adjE) (layerB (mix adjE) (layerA (mix adjE) x W0 b0) W1 b1) W2 b2) R0 rb0 R1 rb1 r2 c2

/-- The network with the nodes aggregated over edges, project-then-aggregate in every layer. -/
def netR (x : Fin 8 → Fin 128 → EReal) (W0 : Fin 128 → Fin 64 → EReal) (b0 : Fin 64 → EReal)
    (W1 : Fin 64 → Fin 96 → EReal) (b1 : Fin 96 → EReal) (W2 : Fin 96 → Fin 128 → EReal) (b2 : Fin 128 → EReal)
    (R0 : Fin 128 → Fin 64 → EReal) (rb0 : Fin 64 → EReal) (R1 : Fin 64 → Fin 32 → EReal) (rb1 : Fin 32 → EReal)
    (r2 : Fin 32 → EReal) (c2 : EReal) : EReal :=
  head (layerA agg (layerA agg (layerA agg x W0 b0) W1 b1) W2 b2) R0 rb0 R1 rb1 r2 c2

/-! ## On the argument arrays -/

/-- The result array, batch element by batch element, in the matrix arrangement. -/
def outK (a0 : (⟨3, ![16384, 8, 128]⟩ : Shape).Idx → EReal) (a1 : (⟨2, ![128, 64]⟩ : Shape).Idx → EReal)
    (a2 : (⟨1, ![64]⟩ : Shape).Idx → EReal) (a3 : (⟨2, ![64, 96]⟩ : Shape).Idx → EReal)
    (a4 : (⟨1, ![96]⟩ : Shape).Idx → EReal) (a5 : (⟨2, ![96, 128]⟩ : Shape).Idx → EReal)
    (a6 : (⟨1, ![128]⟩ : Shape).Idx → EReal) (a7 : (⟨2, ![128, 64]⟩ : Shape).Idx → EReal)
    (a8 : (⟨1, ![64]⟩ : Shape).Idx → EReal) (a9 : (⟨2, ![64, 32]⟩ : Shape).Idx → EReal)
    (a10 : (⟨1, ![32]⟩ : Shape).Idx → EReal) (a11 : (⟨2, ![32, 1]⟩ : Shape).Idx → EReal)
    (a12 : (⟨1, ![1]⟩ : Shape).Idx → EReal) : (⟨2, ![16384, 1]⟩ : Shape).Idx → EReal :=
  fun i => netK (fun n k => a0 (ix3 (i 0) n k)) (fun k d => a1 (ix2 k d)) (fun d => a2 (ix1 d))
    (fun k d => a3 (ix2 k d)) (fun d => a4 (ix1 d)) (fun k d => a5 (ix2 k d)) (fun d => a6 (ix1 d))
    (fun k d => a7 (ix2 k d)) (fun d => a8 (ix1 d)) (fun k d => a9 (ix2 k d)) (fun d => a10 (ix1 d))
    (fun k => a11 (ix2 k (0 : Fin 1))) (a12 (ix1 (0 : Fin 1)))

/-- The result array, batch element by batch element, in the edge arrangement. -/
def outR (a0 : (⟨3, ![16384, 8, 128]⟩ : Shape).Idx → EReal) (a1 : (⟨2, ![128, 64]⟩ : Shape).Idx → EReal)
    (a2 : (⟨1, ![64]⟩ : Shape).Idx → EReal) (a3 : (⟨2, ![64, 96]⟩ : Shape).Idx → EReal)
    (a4 : (⟨1, ![96]⟩ : Shape).Idx → EReal) (a5 : (⟨2, ![96, 128]⟩ : Shape).Idx → EReal)
    (a6 : (⟨1, ![128]⟩ : Shape).Idx → EReal) (a7 : (⟨2, ![128, 64]⟩ : Shape).Idx → EReal)
    (a8 : (⟨1, ![64]⟩ : Shape).Idx → EReal) (a9 : (⟨2, ![64, 32]⟩ : Shape).Idx → EReal)
    (a10 : (⟨1, ![32]⟩ : Shape).Idx → EReal) (a11 : (⟨2, ![32, 1]⟩ : Shape).Idx → EReal)
    (a12 : (⟨1, ![1]⟩ : Shape).Idx → EReal) : (⟨2, ![16384, 1]⟩ : Shape).Idx → EReal :=
  fun i => netR (fun n k => a0 (ix3 (i 0) n k)) (fun k d => a1 (ix2 k d)) (fun d => a2 (ix1 d))
    (fun k d => a3 (ix2 k d)) (fun d => a4 (ix1 d)) (fun k d => a5 (ix2 k d)) (fun d => a6 (ix1 d))
    (fun k d => a7 (ix2 k d)) (fun d => a8 (ix1 d)) (fun k d => a9 (ix2 k d)) (fun d => a10 (ix1 d))
    (fun k => a11 (ix2 k (0 : Fin 1))) (a12 (ix1 (0 : Fin 1)))

end Cert.Gcn

end
-- ==== Proof.LibNodeMix.lean ====
/-
  GENERAL LEMMAS: the layouts of a node-mixing step on a [B, N, C] array (B batch elements, N nodes, C channels), read
  at an index given by coordinates. Nothing here mentions a program; every extent is arbitrary.

  * coefBcast_apply, coefCol_apply, nodeBcast_apply, nodeCut_apply: the four single steps below.
  * coef_apply: column m of an [N, M] matrix, cast to [1, N, 1] and laid over B batch elements and C channels, reads at
    (b, n, c) the matrix at (n, m).
  * nodeRow_apply: node row m of a [B, M, C] array, cut out as [B, 1, C] and laid over N nodes, reads at (b, n, c) the
    array at (b, m, c).
  * mixTerm_apply: the product of the two, A(n, m) * h(b, m, c) — one term of the node mixing.
  * rows_split_apply / rows_merge_apply: the B * N rows of a matrix regrouped as B groups of N and back: row b * N + n is
    member n of group b, because both arrays list their entries in the same row-major order.
  * bias3_apply: a one-row matrix [1, C] cast to [1, 1, C] and laid over B batch elements and N nodes reads its row at c.
  * laneSum3_apply: a float sum over the channel axis of a [B, N, C] array, read at (b, n), is the sum of the C entries.
  * cell_apply: the one entry of a [1, 1] matrix.
-/
import Idealize.ShloMosaic.Lib.Pipeline.Value
import Idealize.ShloMosaic.Lib.ValueLayout
import Idealize.ShloMosaic.Lib.ValueIdx
import Idealize.ShloMosaic.PureOps.Ideal.Laws

noncomputable section

namespace Cert.LibNodeMix

open Idealize.ShloMosaic Idealize.ShloMosaic.ValueIdx
open scoped BigOperators

variable {α : Type}

/-- A [1, N, 1] array laid over B batch elements and C channels reads, at (b, n, c), its entry (0, n, 0). -/
theorem coefBcast_apply {B N C : ℕ} (v : (⟨3, ![1, N, 1]⟩ : Shape).Idx → α)
    (hb : (⟨3, ![1, N, 1]⟩ : Shape).Broadcasts ⟨3, ![B, N, C]⟩) (b : Fin B) (n : Fin N) (c : Fin C) :
    broadcastTo ⟨3, ![B, N, C]⟩ v hb (ix3 b n c) = v (ix3 (0 : Fin 1) n (0 : Fin 1)) := by
  refine broadcastTo_apply v hb (ix3 b n c) (ix3 (0 : Fin 1) n (0 : Fin 1)) fun ax => ?_
  match ax with
  | ⟨0, _⟩ => rfl
  | ⟨1, _⟩ =>
    show n.val = if N = 1 then 0 else n.val
    split
    · have := n.isLt; omega
    · rfl
  | ⟨2, _⟩ => rfl

/-- Column m of a matrix, cast to [1, N, 1], reads at (0, n, 0) the matrix at (n, m). -/
theorem coefCol_apply {N M : ℕ} (a : (⟨2, ![N, M]⟩ : Shape).Idx → α) (m : ℕ)
    (hs : (⟨2, ![N, M]⟩ : Shape).Slices ![0, m] ⟨2, ![N, 1]⟩) (hc : (⟨2, ![N, 1]⟩ : Shape).ShapeCasts ⟨3, ![1, N, 1]⟩)
    (n : Fin N) (m' : Fin M) (hm : m'.val = m) :
    shapeCast ⟨3, ![1, N, 1]⟩ (extractStridedSlice ⟨2, ![N, 1]⟩ ![0, m] a hs) hc (ix3 (0 : Fin 1) n (0 : Fin 1)) = a (ix2 n m') := by
  refine (shapeCast_apply _ hc (ix3 (0 : Fin 1) n (0 : Fin 1)) (ix2 n (0 : Fin 1)) ?_).trans ?_
  · rw [Shape.rowMajor_val_two, Shape.rowMajor_val_three]
    show n.val * 1 + 0 = (0 * N + n.val) * 1 + 0
    omega
  exact slice2_axis1_apply m a hs n (0 : Fin 1) m' (by rw [hm]; rfl)

/-- Column m of a matrix, as a [1, N, 1] array laid over B batch elements and C channels, reads at (b, n, c) the matrix
    at (n, m). -/
theorem coef_apply {B N M C : ℕ} (a : (⟨2, ![N, M]⟩ : Shape).Idx → α) (m : ℕ)
    (hs : (⟨2, ![N, M]⟩ : Shape).Slices ![0, m] ⟨2, ![N, 1]⟩) (hc : (⟨2, ![N, 1]⟩ : Shape).ShapeCasts ⟨3, ![1, N, 1]⟩)
    (hb : (⟨3, ![1, N, 1]⟩ : Shape).Broadcasts ⟨3, ![B, N, C]⟩) (b : Fin B) (n : Fin N) (c : Fin C) (m' : Fin M)
    (hm : m'.val = m) :
    broadcastTo ⟨3, ![B, N, C]⟩ (shapeCast ⟨3, ![1, N, 1]⟩ (extractStridedSlice ⟨2, ![N, 1]⟩ ![0, m] a hs) hc) hb (ix3 b n c)
      = a (ix2 n m') :=
  (coefBcast_apply _ hb b n c).trans (coefCol_apply a m hs hc n m' hm)

/-- A [B, 1, C] array laid over N nodes reads, at (b, n, c), its entry (b, 0, c). -/
theorem nodeBcast_apply {B N C : ℕ} (v : (⟨3, ![B, 1, C]⟩ : Shape).Idx → α)
    (hb : (⟨3, ![B, 1, C]⟩ : Shape).Broadcasts ⟨3, ![B, N, C]⟩) (b : Fin B) (n : Fin N) (c : Fin C) :
    broadcastTo ⟨3, ![B, N, C]⟩ v hb (ix3 b n c) = v (ix3 b (0 : Fin 1) c) := by
  refine broadcastTo_apply v hb (ix3 b n c) (ix3 b (0 : Fin 1) c) fun ax => ?_
  match ax with
  | ⟨0, _⟩ =>
    show b.val = if B = 1 then 0 else b.val
    split
    · have := b.isLt; omega
    · rfl
  | ⟨1, _⟩ => rfl
  | ⟨2, _⟩ =>
    show c.val = if C = 1 then 0 else c.val
    split
    · have := c.isLt; omega
    · rfl

/-- Node row m of an array, cut out as [B, 1, C], reads at (b, 0, c) the array at (b, m, c). -/
theorem nodeCut_apply {B M C : ℕ} (h : (⟨3, ![B, M, C]⟩ : Shape).Idx → α) (m : ℕ)
    (hs : (⟨3, ![B, M, C]⟩ : Shape).Slices ![0, m, 0] ⟨3, ![B, 1, C]⟩) (b : Fin B) (c : Fin C) (m' : Fin M) (hm : m'.val = m) :
    extractStridedSlice ⟨3, ![B, 1, C]⟩ ![0, m, 0] h hs (ix3 b (0 : Fin 1) c) = h (ix3 b m' c) :=
  slice3_axis1_apply m h hs b (0 : Fin 1) c m' (by rw [hm]; rfl)

/-- Node row m of an array, as a [B, 1, C] array laid over N nodes, reads at (b, n, c) the array at (b, m, c). -/
theorem nodeRow_apply {B N M C : ℕ} (h : (⟨3, ![B, M, C]⟩ : Shape).Idx → α) (m : ℕ)
    (hs : (⟨3, ![B, M, C]⟩ : Shape).Slices ![0, m, 0] ⟨3, ![B, 1, C]⟩)
    (hb : (⟨3, ![B, 1, C]⟩ : Shape).Broadcasts ⟨3, ![B, N, C]⟩) (b : Fin B) (n : Fin N) (c : Fin C) (m' : Fin M)
    (hm : m'.val = m) :
    broadcastTo ⟨3, ![B, N, C]⟩ (extractStridedSlice ⟨3, ![B, 1, C]⟩ ![0, m, 0] h hs) hb (ix3 b n c) = h (ix3 b m' c) :=
  (nodeBcast_apply _ hb b n c).trans (nodeCut_apply h m hs b c m' hm)

/-- One term of the node mixing at (b, n, c): A(n, m) * h(b, m, c). -/
theorem mixTerm_apply {B N M C : ℕ} {φ : FTy} (a : FVec Ideal ⟨2, ![N, M]⟩ φ) (h : FVec Ideal ⟨3, ![B, M, C]⟩ φ) (m : ℕ)
    (hsa : (⟨2, ![N, M]⟩ : Shape).Slices ![0, m] ⟨2, ![N, 1]⟩) (hc : (⟨2, ![N, 1]⟩ : Shape).ShapeCasts ⟨3, ![1, N, 1]⟩)
    (hba : (⟨3, ![1, N, 1]⟩ : Shape).Broadcasts ⟨3, ![B, N, C]⟩)
    (hsh : (⟨3, ![B, M, C]⟩ : Shape).Slices ![0, m, 0] ⟨3, ![B, 1, C]⟩)
    (hbh : (⟨3, ![B, 1, C]⟩ : Shape).Broadcasts ⟨3, ![B, N, C]⟩) (b : Fin B) (n : Fin N) (c : Fin C) (m' : Fin M)
    (hm : m'.val = m) :
    mulf (broadcastTo ⟨3, ![B, N, C]⟩ (shapeCast ⟨3, ![1, N, 1]⟩ (extractStridedSlice ⟨2, ![N, 1]⟩ ![0, m] a hsa) hc) hba)
        (broadcastTo ⟨3, ![B, N, C]⟩ (extractStridedSlice ⟨3, ![B, 1, C]⟩ ![0, m, 0] h hsh) hbh) (ix3 b n c)
      = a (ix2 n m') * h (ix3 b m' c) := by
  show _ * _ = _
  rw [coef_apply a m hsa hc hba b n c m' hm, nodeRow_apply h m hsh hbh b n c m' hm]

/-- The rows of a matrix regrouped as B groups of N: entry (b, n, c) of the regrouped array is row b * N + n. -/
theorem rows_split_apply {R B N C : ℕ} (x : (⟨2, ![R, C]⟩ : Shape).Idx → α)
    (h : (⟨2, ![R, C]⟩ : Shape).ShapeCasts ⟨3, ![B, N, C]⟩) (b : Fin B) (n : Fin N) (c : Fin C) (r : Fin R)
    (hr : r.val = b.val * N + n.val) : shapeCast ⟨3, ![B, N, C]⟩ x h (ix3 b n c) = x (ix2 r c) :=
  shapeCast_apply x h _ _ (by
    rw [Shape.rowMajor_val_two, Shape.rowMajor_val_three]
    show r.val * C + c.val = (b.val * N + n.val) * C + c.val
    rw [hr])

/-- B groups of N rows listed again as one matrix: row b * N + n is member n of group b. -/
theorem rows_merge_apply {R B N C : ℕ} (y : (⟨3, ![B, N, C]⟩ : Shape).Idx → α)
    (h : (⟨3, ![B, N, C]⟩ : Shape).ShapeCasts ⟨2, ![R, C]⟩) (b : Fin B) (n : Fin N) (c : Fin C) (r : Fin R)
    (hr : r.val = b.val * N + n.val) : shapeCast ⟨2, ![R, C]⟩ y h (ix2 r c) = y (ix3 b n c) :=
  shapeCast_apply y h _ _ (by
    rw [Shape.rowMajor_val_two, Shape.rowMajor_val_three]
    show (b.val * N + n.val) * C + c.val = r.val * C + c.val
    rw [hr])

/-- A one-row matrix cast to its own shape, then to [1, 1, C], and laid over B batch elements and N nodes reads, at
    (b, n, c), its row at c. -/
theorem bias3_apply {B N C : ℕ} (x : (⟨2, ![1, C]⟩ : Shape).Idx → α) (h1 : (⟨2, ![1, C]⟩ : Shape).ShapeCasts ⟨2, ![1, C]⟩)
    (h2 : (⟨2, ![1, C]⟩ : Shape).ShapeCasts ⟨3, ![1, 1, C]⟩) (hb : (⟨3, ![1, 1, C]⟩ : Shape).Broadcasts ⟨3, ![B, N, C]⟩)
    (b : Fin B) (n : Fin N) (c : Fin C) :
    broadcastTo ⟨3, ![B, N, C]⟩ (shapeCast ⟨3, ![1, 1, C]⟩ (shapeCast ⟨2, ![1, C]⟩ x h1) h2) hb (ix3 b n c)
      = x (ix2 (0 : Fin 1) c) := by
  refine (broadcastTo_apply _ hb (ix3 b n c) (ix3 (0 : Fin 1) (0 : Fin 1) c) fun ax => ?_).trans ?_
  · match ax with
    | ⟨0, _⟩ => rfl
    | ⟨1, _⟩ => rfl
    | ⟨2, _⟩ =>
      show c.val = if C = 1 then 0 else c.val
      split
      · have := c.isLt; omega
      · rfl
  refine (shapeCast_apply _ h2 (ix3 (0 : Fin 1) (0 : Fin 1) c) (ix2 (0 : Fin 1) c) ?_).trans ?_
  · rw [Shape.rowMajor_val_two, Shape.rowMajor_val_three]
    show 0 * C + c.val = (0 * 1 + 0) * C + c.val
    omega
  rw [shapeCast_self]

/-- Over (b, n) of a [B, N, C] array, the index with channel k put back on the summed axis is (b, n, k). -/
theorem lift3 {B N C : ℕ} (h : Shape.Reduces ⟨3, ![B, N, C]⟩ [2] ⟨2, ![B, N]⟩) (b : Fin B) (n : Fin N) (k : Fin C) :
    h.lift (ix2 b n) k = ix3 b n k := by
  funext c
  refine Fin.ext ?_
  match c with
  | ⟨0, _⟩ => rfl
  | ⟨1, _⟩ => rfl
  | ⟨2, _⟩ => rfl

/-- A float sum over the channel axis of a [B, N, C] array, read at (b, n) at the exact instance: the sum of the C
    entries (b, n, k). -/
theorem laneSum3_apply {B N C : ℕ} (v : FVec Ideal ⟨3, ![B, N, C]⟩ .f32) (h : Shape.Reduces ⟨3, ![B, N, C]⟩ [2] ⟨2, ![B, N]⟩)
    (hφ : FKind.Formats .f32) (hacc : (0x00000000#32 : BitVec 32) = FKind.add.neutral .f32 hφ) (b : Fin B) (n : Fin N) :
    multiReduction .add [2] ⟨2, ![B, N]⟩ v 0x00000000#32 h hφ hacc (ix2 b n) = ∑ k : Fin C, v (ix3 b n k) :=
  (Ideal.multiReduction_add_single v 0x00000000#32 h hφ hacc (ix2 b n)).trans
    (Finset.sum_congr rfl fun k _ => congrArg v (lift3 h b n k))

end Cert.LibNodeMix

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«129694_g13082470383675_cont_sun_m_1195_7_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«129694_g13082470383675_cont_sun_m_1195_7_alg».proof.Proof.LibMatmulRows
import proofs.«129694_g13082470383675_cont_sun_m_1195_7_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«129694_g13082470383675_cont_sun_m_1195_7_alg».proof.Proof.LibMatmulRows
import proofs.«129694_g13082470383675_cont_sun_m_1195_7_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibOneBit.lean ====
/-
  GENERAL LEMMAS: a one-bit comparison result read as a number, and two f32 words on the extended reals. Nothing here
  mentions a program.

  * widened_signed: a one-bit word widened with zeros to 32 bits and read as a signed integer is the bit read as a natural
    number (0 or 1) — a kernel's mask (extend, then convert signed) against a host's (convert the bit unsigned).
  * cmp_one_eq_une: on the extended reals nothing is unordered, so "ordered and not equal" and "unordered or not equal"
    are the same comparison.
  * max_negInf_word: the f32 word of minus infinity is the least extended real, so a maximum met with it is unchanged.
  * zero_word: the f32 word of zero is the extended real zero.
-/
import Idealize.ShloMosaic.PureOps.Ideal
import Idealize.ShloMosaic.PureOps.Ideal.Laws

noncomputable section

namespace Cert.LibOneBit

open Idealize.ShloMosaic

/-- A one-bit word widened to 32 bits and read as a signed integer is the bit. -/
theorem widened_signed (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- Ordered-not-equal and unordered-or-not-equal are one comparison of extended reals. -/
theorem cmp_one_eq_une (x y : EReal) : Ideal.cmp .one x y = Ideal.cmp .une x y := rfl

/-- Minus infinity is the least extended real, so meeting it by max changes nothing. -/
theorem max_negInf_word (y : EReal) : max (Ideal.ofBits .f32 0xFF800000#32) y = y := by
  simp [Ideal.ofBits, Ideal.ieee]

/-- The f32 word of zero is the extended real zero. -/
theorem zero_word : Ideal.ofBits .f32 0x00000000#32 = (0 : EReal) := Ideal.ofBits_zero_f32

end Cert.LibOneBit

end
-- ==== Proof.PayA.lean ====
/-
  The kernel body's first graph layer, read at an index of its block of 512 batch elements.

  The body lists the block's 512 x 8 node rows as one matrix of 4096 rows: row 8 b + n is node n of batch element b. The
  first layer multiplies the rows by the weights, then mixes the eight node rows of each batch element by the 8 x 8 matrix
  (eight products of a column of the matrix, laid over the batch and the channels, with one node row, laid over the nodes,
  added up left to right), adds the bias row and rectifies. At (b, n, d) that is
  max (sum over m of A(n, m) * (sum over k of x(b, m, k) * W(k, d)) + bias(d), 0): the specification's layerA with mix.
-/
import proofs.«129694_g13082470383675_cont_sun_m_1195_7_alg».proof.Proof.Gen.KernelIdeal.Skeleton
import proofs.«129694_g13082470383675_cont_sun_m_1195_7_alg».proof.Proof.Spec
import proofs.«129694_g13082470383675_cont_sun_m_1195_7_alg».proof.Proof.LibNodeMix
import proofs.«129694_g13082470383675_cont_sun_m_1195_7_alg».proof.Proof.LibPlainDot
import proofs.«129694_g13082470383675_cont_sun_m_1195_7_alg».proof.Proof.LibRowBias
import proofs.«129694_g13082470383675_cont_sun_m_1195_7_alg».proof.Proof.LibOneBit

noncomputable section

namespace Cert.KernelIdeal.Pay

open Idealize.ShloMosaic Idealize.ShloMosaic.ValueIdx Cert.KernelIdeal Cert.KernelIdeal.Gen Cert.Gcn Cert.LibNodeMix
open Cert.KernelIdeal.Facts₀ Cert.KernelIdeal.Facts
open scoped BigOperators

variable [Cert.KernelIdeal.Facts]

/-- Row 8 b + n of the 4096 rows: node n of batch element b. -/
def rowOf (b : Fin 512) (n : Fin 8) : Fin 4096 := ⟨b.val * 8 + n.val, by have := b.isLt; have := n.isLt; omega⟩

/-- The block's rows against the weights, regrouped by batch element: entry (b, n, d) is row (b, n) against column d. -/
theorem pay2_apply (v1 : Vec Ideal S512x8x128 .f32) (v3 : Vec Ideal S128x64 .f32) (b : Fin 512) (n : Fin 8) (d : Fin 64) :
    k0_pay2 (F := Ideal) v1 v3 (ix3 b n d) = ∑ k : Fin 128, v1 (ix3 b n k) * v3 (ix2 k d) := by
  unfold k0_pay2
  refine (rows_split_apply _ _ b n d (rowOf b n) rfl).trans ?_
  refine (Cert.LibPlainDot.matmul_plain (R := 4096) (K := 128) (N := 64) _ v3 (rowOf b n) d).trans ?_
  exact Finset.sum_congr rfl fun k _ =>
    congrArg (· * v3 (ix2 k d)) (rows_merge_apply v1 _ b n k (rowOf b n) rfl)

/-- The first six terms of the first mixing. -/
theorem pay3_apply (v0 : Vec Ideal S8x8 .f32) (v1 : Vec Ideal S512x8x128 .f32) (v3 : Vec Ideal S128x64 .f32)
    (b : Fin 512) (n : Fin 8) (d : Fin 64) :
    k0_pay3 (F := Ideal) v0 v1 v3 (ix3 b n d)
      = v0 (ix2 n 0) * k0_pay2 (F := Ideal) v1 v3 (ix3 b 0 d) + v0 (ix2 n 1) * k0_pay2 (F := Ideal) v1 v3 (ix3 b 1 d)
        + v0 (ix2 n 2) * k0_pay2 (F := Ideal) v1 v3 (ix3 b 2 d) + v0 (ix2 n 3) * k0_pay2 (F := Ideal) v1 v3 (ix3 b 3 d)
        + v0 (ix2 n 4) * k0_pay2 (F := Ideal) v1 v3 (ix3 b 4 d) + v0 (ix2 n 5) * k0_pay2 (F := Ideal) v1 v3 (ix3 b 5 d) := by
  unfold k0_pay3
  refine congrArg₂ (· + ·) (congrArg₂ (· + ·) (congrArg₂ (· + ·) (congrArg₂ (· + ·) (congrArg₂ (· + ·) ?_ ?_) ?_) ?_) ?_) ?_
  · exact mixTerm_apply v0 (k0_pay2 (F := Ideal) v1 v3) 0 _ _ _ _ _ b n d (0 : Fin 8) rfl
  · exact mixTerm_apply v0 (k0_pay2 (F := Ideal) v1 v3) 1 _ _ _ _ _ b n d (1 : Fin 8) rfl
  · exact mixTerm_apply v0 (k0_pay2 (F := Ideal) v1 v3) 2 _ _ _ _ _ b n d (2 : Fin 8) rfl
  · exact mixTerm_apply v0 (k0_pay2 (F := Ideal) v1 v3) 3 _ _ _ _ _ b n d (3 : Fin 8) rfl
  · exact mixTerm_apply v0 (k0_pay2 (F := Ideal) v1 v3) 4 _ _ _ _ _ b n d (4 : Fin 8) rfl
  · exact mixTerm_apply v0 (k0_pay2 (F := Ideal) v1 v3) 5 _ _ _ _ _ b n d (5 : Fin 8) rfl

/-- Node row 6 of the projected rows. -/
theorem pay4_apply (v1 : Vec Ideal S512x8x128 .f32) (v3 : Vec Ideal S128x64 .f32) (b : Fin 512) (d : Fin 64) :
    k0_pay4 (F := Ideal) v1 v3 (ix3 b (0 : Fin 1) d) = k0_pay2 (F := Ideal) v1 v3 (ix3 b 6 d) := by
  unfold k0_pay4
  exact nodeCut_apply (k0_pay2 (F := Ideal) v1 v3) 6 _ b d (6 : Fin 8) rfl

/-- Column 6 of the matrix laid over the block. -/
theorem pay5_apply (v0 : Vec Ideal S8x8 .f32) (b : Fin 512) (n : Fin 8) (d : Fin 64) :
    k0_pay5 (F := Ideal) v0 (ix3 b n d) = v0 (ix2 n 6) := by
  unfold k0_pay5
  exact coef_apply v0 6 _ _ _ b n d (6 : Fin 8) rfl

/-- The last two terms of the first mixing, the bias row and the rectifier, over whatever the earlier pieces hold. -/
theorem pay6_apply (v0 : Vec Ideal S8x8 .f32) (v5 v46 : FVec Ideal S512x8x64 .f32) (v49 : FVec Ideal S512x1x64 .f32)
    (v50 : FVec Ideal S512x8x64 .f32) (v61 : Vec Ideal S1x64 .f32) (b : Fin 512) (n : Fin 8) (d : Fin 64) :
    k0_pay6 (F := Ideal) v0 v5 v46 v49 v50 v61 (ix3 b n d)
      = reluE (v46 (ix3 b n d) + v50 (ix3 b n d) * v49 (ix3 b (0 : Fin 1) d) + v0 (ix2 n 7) * v5 (ix3 b 7 d)
          + v61 (ix2 (0 : Fin 1) d)) := by
  unfold k0_pay6 reluE
  refine congrArg₂ max (congrArg₂ (· + ·) (congrArg₂ (· + ·) (congrArg₂ (· + ·) rfl (congrArg₂ (· * ·) rfl ?_)) ?_) ?_) ?_
  · exact nodeBcast_apply v49 _ b n d
  · exact mixTerm_apply v0 v5 7 _ _ _ _ _ b n d (7 : Fin 8) rfl
  · exact bias3_apply v61 _ _ _ b n d
  · exact Cert.LibOneBit.zero_word

/-- The first graph layer of the block, as the body computes it. -/
def layer1 (v0 : Vec Ideal S8x8 .f32) (v1 : Vec Ideal S512x8x128 .f32) (v3 : Vec Ideal S128x64 .f32) (v61 : Vec Ideal S1x64 .f32) :
    FVec Ideal S512x8x64 .f32 :=
  k0_pay6 (F := Ideal) v0 (k0_pay2 v1 v3) (k0_pay3 v0 v1 v3) (k0_pay4 v1 v3) (k0_pay5 v0) v61

/-- The first graph layer at (b, n, d): the specification's project-then-mix layer on batch element b. -/
theorem layer1_apply (v0 : Vec Ideal S8x8 .f32) (v1 : Vec Ideal S512x8x128 .f32) (v3 : Vec Ideal S128x64 .f32)
    (v61 : Vec Ideal S1x64 .f32) (b : Fin 512) (n : Fin 8) (d : Fin 64) :
    layer1 v0 v1 v3 v61 (ix3 b n d)
      = layerA (mix fun n m => v0 (ix2 n m)) (fun n k => v1 (ix3 b n k)) (fun k d => v3 (ix2 k d))
          (fun d => v61 (ix2 (0 : Fin 1) d)) n d := by
  unfold layer1 layerA mix
  rw [pay6_apply, pay3_apply, pay5_apply, pay4_apply, Fin.sum_univ_eight]
  simp only [pay2_apply]

end Cert.KernelIdeal.Pay

end
-- ==== Proof.PayB.lean ====
/-
  The kernel body's second graph layer, read at an index of its block.

  The second layer mixes the eight node rows of each batch element first (the same eight products added left to right, on
  the first layer's rows), lists the 512 x 8 mixed rows as 4096 rows, multiplies them by the weights, adds the bias row
  and rectifies, and regroups the rows by batch element. At (b, n, d) that is
  max (sum over k of (sum over m of A(n, m) * L(b, m, k)) * W(k, d) + bias(d), 0): the specification's layerB with mix.
-/
import proofs.«129694_g13082470383675_cont_sun_m_1195_7_alg».proof.Proof.Gen.KernelIdeal.Skeleton
import proofs.«129694_g13082470383675_cont_sun_m_1195_7_alg».proof.Proof.Spec
import proofs.«129694_g13082470383675_cont_sun_m_1195_7_alg».proof.Proof.LibNodeMix
import proofs.«129694_g13082470383675_cont_sun_m_1195_7_alg».proof.Proof.LibPlainDot
import proofs.«129694_g13082470383675_cont_sun_m_1195_7_alg».proof.Proof.LibRowBias
import proofs.«129694_g13082470383675_cont_sun_m_1195_7_alg».proof.Proof.LibOneBit
import proofs.«129694_g13082470383675_cont_sun_m_1195_7_alg».proof.Proof.PayA

noncomputable section

namespace Cert.KernelIdeal.Pay

open Idealize.ShloMosaic Idealize.ShloMosaic.ValueIdx Cert.KernelIdeal Cert.KernelIdeal.Gen Cert.Gcn Cert.LibNodeMix
open Cert.KernelIdeal.Facts₀ Cert.KernelIdeal.Facts
open scoped BigOperators

variable [Cert.KernelIdeal.Facts]

/-- The first five terms of the second mixing, on the first layer's rows. -/
theorem pay7_apply (v0 : Vec Ideal S8x8 .f32) (v5 v46 : FVec Ideal S512x8x64 .f32) (v49 : FVec Ideal S512x1x64 .f32)
    (v50 : FVec Ideal S512x8x64 .f32) (v61 : Vec Ideal S1x64 .f32) (b : Fin 512) (n : Fin 8) (d : Fin 64) :
    k0_pay7 (F := Ideal) v0 v5 v46 v49 v50 v61 (ix3 b n d)
      = v0 (ix2 n 0) * k0_pay6 (F := Ideal) v0 v5 v46 v49 v50 v61 (ix3 b 0 d)
        + v0 (ix2 n 1) * k0_pay6 (F := Ideal) v0 v5 v46 v49 v50 v61 (ix3 b 1 d)
        + v0 (ix2 n 2) * k0_pay6 (F := Ideal) v0 v5 v46 v49 v50 v61 (ix3 b 2 d)
        + v0 (ix2 n 3) * k0_pay6 (F := Ideal) v0 v5 v46 v49 v50 v61 (ix3 b 3 d)
        + v0 (ix2 n 4) * k0_pay6 (F := Ideal) v0 v5 v46 v49 v50 v61 (ix3 b 4 d) := by
  unfold k0_pay7
  refine congrArg₂ (· + ·) (congrArg₂ (· + ·) (congrArg₂ (· + ·) (congrArg₂ (· + ·) ?_ ?_) ?_) ?_) ?_
  · exact mixTerm_apply v0 (k0_pay6 (F := Ideal) v0 v5 v46 v49 v50 v61) 0 _ _ _ _ _ b n d (0 : Fin 8) rfl
  · exact mixTerm_apply v0 (k0_pay6 (F := Ideal) v0 v5 v46 v49 v50 v61) 1 _ _ _ _ _ b n d (1 : Fin 8) rfl
  · exact mixTerm_apply v0 (k0_pay6 (F := Ideal) v0 v5 v46 v49 v50 v61) 2 _ _ _ _ _ b n d (2 : Fin 8) rfl
  · exact mixTerm_apply v0 (k0_pay6 (F := Ideal) v0 v5 v46 v49 v50 v61) 3 _ _ _ _ _ b n d (3 : Fin 8) rfl
  · exact mixTerm_apply v0 (k0_pay6 (F := Ideal) v0 v5 v46 v49 v50 v61) 4 _ _ _ _ _ b n d (4 : Fin 8) rfl

/-- The sixth term of the second mixing. -/
theorem pay8_apply (v0 : Vec Ideal S8x8 .f32) (v5 v46 : FVec Ideal S512x8x64 .f32) (v49 : FVec Ideal S512x1x64 .f32)
    (v50 : FVec Ideal S512x8x64 .f32) (v61 : Vec Ideal S1x64 .f32) (b : Fin 512) (n : Fin 8) (d : Fin 64) :
    k0_pay8 (F := Ideal) v0 v5 v46 v49 v50 v61 (ix3 b n d)
      = v0 (ix2 n 5) * k0_pay6 (F := Ideal) v0 v5 v46 v49 v50 v61 (ix3 b 5 d) := by
  unfold k0_pay8
  exact mixTerm_apply v0 (k0_pay6 (F := Ideal) v0 v5 v46 v49 v50 v61) 5 _ _ _ _ _ b n d (5 : Fin 8) rfl

/-- The last two terms of the second mixing, the product with the weights, the bias row and the rectifier, over whatever
    the earlier pieces hold. -/
theorem pay9_apply (v0 : Vec Ideal S8x8 .f32) (v67 v101 v107 : FVec Ideal S512x8x64 .f32) (v124 : Vec Ideal S64x96 .f32)
    (v126 : Vec Ideal S1x96 .f32) (b : Fin 512) (n : Fin 8) (d : Fin 96) :
    k0_pay9 (F := Ideal) v0 v67 v101 v107 v124 v126 (ix3 b n d)
      = reluE ((∑ k : Fin 64, (v101 (ix3 b n k) + v107 (ix3 b n k) + v0 (ix2 n 6) * v67 (ix3 b 6 k)
          + v0 (ix2 n 7) * v67 (ix3 b 7 k)) * v124 (ix2 k d)) + v126 (ix2 (0 : Fin 1) d)) := by
  unfold k0_pay9 reluE
  refine (rows_split_apply _ _ b n d (rowOf b n) rfl).trans ?_
  refine congrArg₂ max (congrArg₂ (· + ·) ?_ ?_) Cert.LibOneBit.zero_word
  · refine (Cert.LibPlainDot.matmul_plain (R := 4096) (K := 64) (N := 96) _ v124 (rowOf b n) d).trans ?_
    refine Finset.sum_congr rfl fun k _ => congrArg (· * v124 (ix2 k d)) ?_
    refine (rows_merge_apply _ _ b n k (rowOf b n) rfl).trans ?_
    refine congrArg₂ (· + ·) (congrArg₂ (· + ·) rfl ?_) ?_
    · exact mixTerm_apply v0 v67 6 _ _ _ _ _ b n k (6 : Fin 8) rfl
    · exact mixTerm_apply v0 v67 7 _ _ _ _ _ b n k (7 : Fin 8) rfl
  · exact Cert.LibRowBias.bias_block v126 _ _ (rowOf b n) d

/-- The second graph layer of the block, as the body computes it from the first layer's pieces. -/
def layer2 (v0 : Vec Ideal S8x8 .f32) (v5 v46 : FVec Ideal S512x8x64 .f32) (v49 : FVec Ideal S512x1x64 .f32)
    (v50 : FVec Ideal S512x8x64 .f32) (v61 : Vec Ideal S1x64 .f32) (v124 : Vec Ideal S64x96 .f32) (v126 : Vec Ideal S1x96 .f32) :
    FVec Ideal S512x8x96 .f32 :=
  k0_pay9 (F := Ideal) v0 (k0_pay6 v0 v5 v46 v49 v50 v61) (k0_pay7 v0 v5 v46 v49 v50 v61) (k0_pay8 v0 v5 v46 v49 v50 v61) v124 v126

/-- The second graph layer at (b, n, d): the specification's mix-then-project layer on the first layer's rows of batch
    element b. -/
theorem layer2_apply (v0 : Vec Ideal S8x8 .f32) (v5 v46 : FVec Ideal S512x8x64 .f32) (v49 : FVec Ideal S512x1x64 .f32)
    (v50 : FVec Ideal S512x8x64 .f32) (v61 : Vec Ideal S1x64 .f32) (v124 : Vec Ideal S64x96 .f32) (v126 : Vec Ideal S1x96 .f32)
    (b : Fin 512) (n : Fin 8) (d : Fin 96) :
    layer2 v0 v5 v46 v49 v50 v61 v124 v126 (ix3 b n d)
      = layerB (mix fun n m => v0 (ix2 n m)) (fun m k => k0_pay6 (F := Ideal) v0 v5 v46 v49 v50 v61 (ix3 b m k))
          (fun k d => v124 (ix2 k d)) (fun d => v126 (ix2 (0 : Fin 1) d)) n d := by
  unfold layer2 layerB mix
  rw [pay9_apply]
  simp only [pay7_apply, pay8_apply, Fin.sum_univ_eight]

end Cert.KernelIdeal.Pay

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«129694_g13082470383675_cont_sun_m_1195_7_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.PayC.lean ====
/-
  The rest of the kernel body, read at an index of its block: the third graph layer, the two rectified dense layers, and
  the score with its maximum over the eight nodes.

  The third layer mixes the node rows of the second layer's result (four terms, then four more), lists the rows as 4096,
  multiplies by the weights, adds the bias row and rectifies; two more products with a bias row follow, the first
  rectified. The last piece adds the second bias row, rectifies, regroups the 4096 rows by batch element, multiplies each
  row entry by entry with one row of 32 numbers and sums the 32 products, adds one number, and takes the maximum over
  the eight nodes of each batch element, starting from minus infinity.
-/
import proofs.«129694_g13082470383675_cont_sun_m_1195_7_alg».proof.Proof.Gen.KernelIdeal.Skeleton
import proofs.«129694_g13082470383675_cont_sun_m_1195_7_alg».proof.Proof.Spec
import proofs.«129694_g13082470383675_cont_sun_m_1195_7_alg».proof.Proof.LibNodeMix
import proofs.«129694_g13082470383675_cont_sun_m_1195_7_alg».proof.Proof.LibPlainDot
import proofs.«129694_g13082470383675_cont_sun_m_1195_7_alg».proof.Proof.LibRowBias
import proofs.«129694_g13082470383675_cont_sun_m_1195_7_alg».proof.Proof.LibOneBit
import proofs.«129694_g13082470383675_cont_sun_m_1195_7_alg».proof.Proof.PayA
import proofs.«129694_g13082470383675_cont_sun_m_1195_7_alg».proof.Proof.LibLaneMax

noncomputable section

namespace Cert.KernelIdeal.Pay

open Idealize.ShloMosaic Idealize.ShloMosaic.ValueIdx Cert.KernelIdeal Cert.KernelIdeal.Gen Cert.Gcn Cert.LibNodeMix
open Cert.KernelIdeal.Facts₀ Cert.KernelIdeal.Facts
open scoped BigOperators

variable [Cert.KernelIdeal.Facts]

/-- The first four terms of the third mixing, on the second layer's rows. -/
theorem pay10_apply (v0 : Vec Ideal S8x8 .f32) (v67 v101 v107 : FVec Ideal S512x8x64 .f32) (v124 : Vec Ideal S64x96 .f32)
    (v126 : Vec Ideal S1x96 .f32) (b : Fin 512) (n : Fin 8) (d : Fin 96) :
    k0_pay10 (F := Ideal) v0 v67 v101 v107 v124 v126 (ix3 b n d)
      = v0 (ix2 n 0) * k0_pay9 (F := Ideal) v0 v67 v101 v107 v124 v126 (ix3 b 0 d)
        + v0 (ix2 n 1) * k0_pay9 (F := Ideal) v0 v67 v101 v107 v124 v126 (ix3 b 1 d)
        + v0 (ix2 n 2) * k0_pay9 (F := Ideal) v0 v67 v101 v107 v124 v126 (ix3 b 2 d)
        + v0 (ix2 n 3) * k0_pay9 (F := Ideal) v0 v67 v101 v107 v124 v126 (ix3 b 3 d) := by
  unfold k0_pay10
  refine congrArg₂ (· + ·) (congrArg₂ (· + ·) (congrArg₂ (· + ·) ?_ ?_) ?_) ?_
  · exact mixTerm_apply v0 (k0_pay9 (F := Ideal) v0 v67 v101 v107 v124 v126) 0 _ _ _ _ _ b n d (0 : Fin 8) rfl
  · exact mixTerm_apply v0 (k0_pay9 (F := Ideal) v0 v67 v101 v107 v124 v126) 1 _ _ _ _ _ b n d (1 : Fin 8) rfl
  · exact mixTerm_apply v0 (k0_pay9 (F := Ideal) v0 v67 v101 v107 v124 v126) 2 _ _ _ _ _ b n d (2 : Fin 8) rfl
  · exact mixTerm_apply v0 (k0_pay9 (F := Ideal) v0 v67 v101 v107 v124 v126) 3 _ _ _ _ _ b n d (3 : Fin 8) rfl

/-- Column 4 of the matrix as a [1, 8, 1] array. -/
theorem pay11_apply (v0 : Vec Ideal S8x8 .f32) (n : Fin 8) :
    k0_pay11 (F := Ideal) v0 (ix3 (0 : Fin 1) n (0 : Fin 1)) = v0 (ix2 n 4) := by
  unfold k0_pay11
  exact coefCol_apply v0 4 _ _ n (4 : Fin 8) rfl

/-- The last four terms of the third mixing, then three products with a bias row, the first two rectified, over whatever
    the earlier pieces hold; read at row (b, n) of the 4096. -/
theorem pay12_apply (v0 : Vec Ideal S8x8 .f32) (v132 v159 : FVec Ideal S512x8x96 .f32) (v161 : FVec Ideal S1x8x1 .f32)
    (v189 : Vec Ideal S96x128 .f32) (v191 : Vec Ideal S1x128 .f32) (v197 : Vec Ideal S128x64 .f32) (v199 : Vec Ideal S1x64 .f32)
    (v205 : Vec Ideal S64x32 .f32) (b : Fin 512) (n : Fin 8) (q : Fin 32) :
    k0_pay12 (F := Ideal) v0 v132 v159 v161 v189 v191 v197 v199 v205 (ix2 (rowOf b n) q)
      = ∑ k2 : Fin 64, reluE ((∑ k1 : Fin 128, reluE ((∑ k : Fin 96,
            (v159 (ix3 b n k) + v161 (ix3 (0 : Fin 1) n (0 : Fin 1)) * v132 (ix3 b 4 k) + v0 (ix2 n 5) * v132 (ix3 b 5 k)
              + v0 (ix2 n 6) * v132 (ix3 b 6 k) + v0 (ix2 n 7) * v132 (ix3 b 7 k)) * v189 (ix2 k k1))
          + v191 (ix2 (0 : Fin 1) k1)) * v197 (ix2 k1 k2)) + v199 (ix2 (0 : Fin 1) k2)) * v205 (ix2 k2 q) := by
  unfold k0_pay12 reluE
  refine (Cert.LibPlainDot.matmul_plain (R := 4096) (K := 64) (N := 32) _ v205 (rowOf b n) q).trans ?_
  refine Finset.sum_congr rfl fun k2 _ => congrArg (· * v205 (ix2 k2 q)) ?_
  refine congrArg₂ max (congrArg₂ (· + ·) ?_ (Cert.LibRowBias.bias_block v199 _ _ (rowOf b n) k2)) Cert.LibOneBit.zero_word
  refine (Cert.LibPlainDot.matmul_plain (R := 4096) (K := 128) (N := 64) _ v197 (rowOf b n) k2).trans ?_
  refine Finset.sum_congr rfl fun k1 _ => congrArg (· * v197 (ix2 k1 k2)) ?_
  refine congrArg₂ max (congrArg₂ (· + ·) ?_ (Cert.LibRowBias.bias_block v191 _ _ (rowOf b n) k1)) Cert.LibOneBit.zero_word
  refine (Cert.LibPlainDot.matmul_plain (R := 4096) (K := 96) (N := 128) _ v189 (rowOf b n) k1).trans ?_
  refine Finset.sum_congr rfl fun k _ => congrArg (· * v189 (ix2 k k1)) ?_
  refine (rows_merge_apply _ _ b n k (rowOf b n) rfl).trans ?_
  refine congrArg₂ (· + ·) (congrArg₂ (· + ·) (congrArg₂ (· + ·) (congrArg₂ (· + ·) rfl ?_) ?_) ?_) ?_
  · exact congrArg₂ (· * ·) (coefBcast_apply v161 _ b n k) (nodeRow_apply v132 4 _ _ b n k (4 : Fin 8) rfl)
  · exact mixTerm_apply v0 v132 5 _ _ _ _ _ b n k (5 : Fin 8) rfl
  · exact mixTerm_apply v0 v132 6 _ _ _ _ _ b n k (6 : Fin 8) rfl
  · exact mixTerm_apply v0 v132 7 _ _ _ _ _ b n k (7 : Fin 8) rfl

/-- The f32 word of minus infinity is the least extended real. -/
theorem negInf_word : Ideal.ofBits .f32 0xFF800000#32 = (⊥ : EReal) := by
  simp [Ideal.ofBits, Ideal.ieee]

/-- The last piece: the second dense layer's bias and rectifier, the score of each node, the maximum over the nodes. -/
theorem pay1_apply (v206 : FVec Ideal S4096x32 .f32) (v207 v214 : Vec Ideal S1x32 .f32) (v220 : Vec Ideal S1x1 .f32)
    (p : Fin 512) (u : Fin 1) :
    k0_pay1 (F := Ideal) v206 v207 v214 v220 (ix2 p u)
      = Cert.Gcn.pool (score (fun n k => reluE (v206 (ix2 (rowOf p n) k) + v207 (ix2 (0 : Fin 1) k)))
          (fun k => v214 (ix2 (0 : Fin 1) k)) (v220 (ix2 (0 : Fin 1) (0 : Fin 1)))) := by
  unfold k0_pay1 Cert.Gcn.pool score reluE
  refine (Cert.LibLayout.shapeCast_a_a1_apply _ _ p u).trans ?_
  refine (Cert.LibLaneMax.laneMax_apply _ 0xFF800000#32 _ _ _ p).trans ?_
  rw [negInf_word]
  refine congrArg (fun f => Finset.fold max (⊥ : EReal) f (Finset.univ : Finset (Fin 8))) (funext fun n => ?_)
  refine congrArg₂ (· + ·) ((laneSum3_apply _ _ _ _ p n).trans (Finset.sum_congr rfl fun k _ => ?_)) ?_
  · refine congrArg₂ (· * ·) ((rows_split_apply _ _ p n k (rowOf p n) rfl).trans ?_) (bias3_apply v214 _ _ _ p n k)
    exact congrArg₂ max (congrArg₂ (· + ·) rfl (Cert.LibRowBias.bias_block v207 _ _ (rowOf p n) k)) Cert.LibOneBit.zero_word
  · exact congrArg v220 (funext fun a => Fin.ext (by match a with | ⟨0, _⟩ => rfl | ⟨1, _⟩ => rfl))

end Cert.KernelIdeal.Pay

end
-- ==== Proof.PayAll.lean ====
/-
  The kernel body's result at an index of its block: for batch element p of the block, the specification's network in the
  matrix arrangement (project-then-mix in the first graph layer, mix-then-project in the other two, two rectified dense
  layers, the score, the maximum over the eight nodes) of that batch element's eight rows, with the matrix, the weights and
  the bias rows read off the body's other operands.
-/
import proofs.«129694_g13082470383675_cont_sun_m_1195_7_alg».proof.Proof.Gen.KernelIdeal.Skeleton
import proofs.«129694_g13082470383675_cont_sun_m_1195_7_alg».proof.Proof.Spec
import proofs.«129694_g13082470383675_cont_sun_m_1195_7_alg».proof.Proof.LibNodeMix
import proofs.«129694_g13082470383675_cont_sun_m_1195_7_alg».proof.Proof.LibPlainDot
import proofs.«129694_g13082470383675_cont_sun_m_1195_7_alg».proof.Proof.LibRowBias
import proofs.«129694_g13082470383675_cont_sun_m_1195_7_alg».proof.Proof.LibOneBit
import proofs.«129694_g13082470383675_cont_sun_m_1195_7_alg».proof.Proof.PayA
import proofs.«129694_g13082470383675_cont_sun_m_1195_7_alg».proof.Proof.PayB
import proofs.«129694_g13082470383675_cont_sun_m_1195_7_alg».proof.Proof.PayC

noncomputable section

namespace Cert.KernelIdeal.Pay

open Idealize.ShloMosaic Idealize.ShloMosaic.ValueIdx Cert.KernelIdeal Cert.KernelIdeal.Gen Cert.Gcn Cert.LibNodeMix
open Cert.KernelIdeal.Facts₀ Cert.KernelIdeal.Facts
open scoped BigOperators

variable [Cert.KernelIdeal.Facts]

/-- The network in the matrix arrangement, for any 8 x 8 matrix. -/
def netOf (A : Fin 8 → Fin 8 → EReal) (x : Fin 8 → Fin 128 → EReal) (W0 : Fin 128 → Fin 64 → EReal) (b0 : Fin 64 → EReal)
    (W1 : Fin 64 → Fin 96 → EReal) (b1 : Fin 96 → EReal) (W2 : Fin 96 → Fin 128 → EReal) (b2 : Fin 128 → EReal)
    (R0 : Fin 128 → Fin 64 → EReal) (rb0 : Fin 64 → EReal) (R1 : Fin 64 → Fin 32 → EReal) (rb1 : Fin 32 → EReal)
    (r2 : Fin 32 → EReal) (c2 : EReal) : EReal :=
  head (layerB (mix A) (layerB (mix A) (layerA (mix A) x W0 b0) W1 b1) W2 b2) R0 rb0 R1 rb1 r2 c2

/-- With the graph's matrix it is the specification's network. -/
theorem netK_eq_netOf : netK = netOf adjE := rfl

/-- A mix-then-project layer with the eight terms of the mixing written out. -/
theorem layerB_mix_apply (A : Fin 8 → Fin 8 → EReal) {K N : ℕ} (h : Fin 8 → Fin K → EReal) (W : Fin K → Fin N → EReal)
    (b : Fin N → EReal) (n : Fin 8) (d : Fin N) :
    layerB (mix A) h W b n d
      = reluE ((∑ k : Fin K, (A n 0 * h 0 k + A n 1 * h 1 k + A n 2 * h 2 k + A n 3 * h 3 k + A n 4 * h 4 k + A n 5 * h 5 k
          + A n 6 * h 6 k + A n 7 * h 7 k) * W k d) + b d) := by
  unfold layerB mix
  simp only [Fin.sum_univ_eight]

/-- The third graph layer, the dense layers, the score and the maximum, on whatever second-layer rows L2 the earlier
    pieces hold for batch element p. -/
theorem tail_apply (x1 : Vec Ideal S8x8 .f32) (v67 v101 v107 : FVec Ideal S512x8x64 .f32) (x4 : Vec Ideal S64x96 .f32)
    (x5 : Vec Ideal S1x96 .f32) (x6 : Vec Ideal S96x128 .f32) (x7 : Vec Ideal S1x128 .f32) (x8 : Vec Ideal S128x64 .f32)
    (x9 : Vec Ideal S1x64 .f32) (x10 : Vec Ideal S64x32 .f32) (x11 x12 : Vec Ideal S1x32 .f32) (x13 : Vec Ideal S1x1 .f32)
    (p : Fin 512) (L2 : Fin 8 → Fin 96 → EReal)
    (hL2 : ∀ m k, k0_pay9 (F := Ideal) x1 v67 v101 v107 x4 x5 (ix3 p m k) = L2 m k) (u : Fin 1) :
    k0_pay1 (F := Ideal) (k0_pay12 x1 (k0_pay9 x1 v67 v101 v107 x4 x5) (k0_pay10 x1 v67 v101 v107 x4 x5) (k0_pay11 x1)
        x6 x7 x8 x9 x10) x11 x12 x13 (ix2 p u)
      = head (layerB (mix fun n m => x1 (ix2 n m)) L2 (fun k d => x6 (ix2 k d)) (fun d => x7 (ix2 (0 : Fin 1) d)))
          (fun k d => x8 (ix2 k d)) (fun d => x9 (ix2 (0 : Fin 1) d)) (fun k d => x10 (ix2 k d))
          (fun d => x11 (ix2 (0 : Fin 1) d)) (fun k => x12 (ix2 (0 : Fin 1) k)) (x13 (ix2 (0 : Fin 1) (0 : Fin 1))) := by
  rw [pay1_apply]
  unfold head
  refine congrArg Cert.Gcn.pool (congrArg (fun h => score h (fun k => x12 (ix2 (0 : Fin 1) k)) (x13 (ix2 (0 : Fin 1) (0 : Fin 1))))
    (funext fun n => funext fun q => ?_))
  unfold denseRelu
  rw [pay12_apply]
  simp only [pay10_apply, pay11_apply, hL2, layerB_mix_apply]

/-- The body's result array over its fourteen operands. -/
def body (x0 : Vec Ideal S512x8x128 .f32) (x1 : Vec Ideal S8x8 .f32) (x2 : Vec Ideal S128x64 .f32) (x3 : Vec Ideal S1x64 .f32)
    (x4 : Vec Ideal S64x96 .f32) (x5 : Vec Ideal S1x96 .f32) (x6 : Vec Ideal S96x128 .f32) (x7 : Vec Ideal S1x128 .f32)
    (x8 : Vec Ideal S128x64 .f32) (x9 : Vec Ideal S1x64 .f32) (x10 : Vec Ideal S64x32 .f32) (x11 x12 : Vec Ideal S1x32 .f32)
    (x13 : Vec Ideal S1x1 .f32) : FVec Ideal S512x1 .f32 :=
  k0_pay1 (F := Ideal)
    (k0_pay12 x1
      (k0_pay9 x1 (k0_pay6 x1 (k0_pay2 x0 x2) (k0_pay3 x1 x0 x2) (k0_pay4 x0 x2) (k0_pay5 x1) x3)
        (k0_pay7 x1 (k0_pay2 x0 x2) (k0_pay3 x1 x0 x2) (k0_pay4 x0 x2) (k0_pay5 x1) x3)
        (k0_pay8 x1 (k0_pay2 x0 x2) (k0_pay3 x1 x0 x2) (k0_pay4 x0 x2) (k0_pay5 x1) x3) x4 x5)
      (k0_pay10 x1 (k0_pay6 x1 (k0_pay2 x0 x2) (k0_pay3 x1 x0 x2) (k0_pay4 x0 x2) (k0_pay5 x1) x3)
        (k0_pay7 x1 (k0_pay2 x0 x2) (k0_pay3 x1 x0 x2) (k0_pay4 x0 x2) (k0_pay5 x1) x3)
        (k0_pay8 x1 (k0_pay2 x0 x2) (k0_pay3 x1 x0 x2) (k0_pay4 x0 x2) (k0_pay5 x1) x3) x4 x5)
      (k0_pay11 x1) x6 x7 x8 x9 x10)
    x11 x12 x13

/-- The body's result at (p, u): the network, in the matrix arrangement, on batch element p of the block. -/
theorem body_apply (x0 : Vec Ideal S512x8x128 .f32) (x1 : Vec Ideal S8x8 .f32) (x2 : Vec Ideal S128x64 .f32)
    (x3 : Vec Ideal S1x64 .f32) (x4 : Vec Ideal S64x96 .f32) (x5 : Vec Ideal S1x96 .f32) (x6 : Vec Ideal S96x128 .f32)
    (x7 : Vec Ideal S1x128 .f32) (x8 : Vec Ideal S128x64 .f32) (x9 : Vec Ideal S1x64 .f32) (x10 : Vec Ideal S64x32 .f32)
    (x11 x12 : Vec Ideal S1x32 .f32) (x13 : Vec Ideal S1x1 .f32) (p : Fin 512) (u : Fin 1) :
    body x0 x1 x2 x3 x4 x5 x6 x7 x8 x9 x10 x11 x12 x13 (ix2 p u)
      = netOf (fun n m => x1 (ix2 n m)) (fun n k => x0 (ix3 p n k)) (fun k d => x2 (ix2 k d)) (fun d => x3 (ix2 (0 : Fin 1) d))
          (fun k d => x4 (ix2 k d)) (fun d => x5 (ix2 (0 : Fin 1) d)) (fun k d => x6 (ix2 k d)) (fun d => x7 (ix2 (0 : Fin 1) d))
          (fun k d => x8 (ix2 k d)) (fun d => x9 (ix2 (0 : Fin 1) d)) (fun k d => x10 (ix2 k d))
          (fun d => x11 (ix2 (0 : Fin 1) d)) (fun k => x12 (ix2 (0 : Fin 1) k)) (x13 (ix2 (0 : Fin 1) (0 : Fin 1))) := by
  unfold body netOf
  refine tail_apply x1 _ _ _ x4 x5 x6 x7 x8 x9 x10 x11 x12 x13 p _ (fun m k => ?_) u
  refine (layer2_apply x1 (k0_pay2 x0 x2) (k0_pay3 x1 x0 x2) (k0_pay4 x0 x2) (k0_pay5 x1) x3 x4 x5 p m k).trans ?_
  exact congrArg (fun L => layerB (mix fun n m => x1 (ix2 n m)) L (fun k d => x4 (ix2 k d)) (fun d => x5 (ix2 (0 : Fin 1) d)) m k)
    (funext fun m' => funext fun k' => layer1_apply x1 x0 x2 x3 p m' k')

end Cert.KernelIdeal.Pay

end
-- ==== Proof.BlockValue.lean ====
/-
  From the blocks to the array: after the kernel's run its result array holds, at every batch element, the network in the
  matrix arrangement of that element's rows of the first argument, with the other arguments as weights and biases.

  The grid has 32 points; point t stages rows 512 t … 512 t + 511 of the first argument and every other operand whole, and
  writes back rows 512 t … 512 t + 511 of the result. The operands that are not arguments were written by the host before
  the region: the 8 x 8 matrix is a table of single-precision words (entry by entry the specification's matrix), each
  bias is a vector listed as one row, the last weight column is listed as one row and the last constant as a 1 x 1 array.
  So what point t writes back is block t of one whole-array function, and the 32 blocks cover the array.
-/
import proofs.«129694_g13082470383675_cont_sun_m_1195_7_alg».proof.Proof.Gen.KernelIdeal.Value
import proofs.«129694_g13082470383675_cont_sun_m_1195_7_alg».proof.Proof.PayAll
import Idealize.ShloMosaic.Lib.Pipeline.Value
import Idealize.ShloMosaic.Lib.ValueIdx
import Idealize.ShloMosaic.Lib.StableHlo.Run

noncomputable section

namespace Cert.KernelIdeal.BlockValue

open Cert.KernelIdeal Cert.KernelIdeal.Gen Cert.KernelIdeal.Value Cert.KernelIdeal.Pay Cert.Gcn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result array as one function of the argument arrays. -/
def G (c : Dev nD) : S16384x1.Idx → EReal :=
  outK (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))

/-! ## The printed index maps, decided over the 32 points -/

/-- The first argument's block moves with the result's block along the batch axis and is whole on the other two. -/
theorem idx0 : ∀ t : Fin cfg0.N, win0_0.index t (0 : Fin 3) = win0_14.index t (0 : Fin 2) ∧ win0_0.index t (1 : Fin 3) = 0
    ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
/-- The result's block index stays in range and is whole on the unit axis. -/
theorem idx14 : ∀ t : Fin cfg0.N, win0_14.index t (0 : Fin 2) < 32 ∧ win0_14.index t (1 : Fin 2) = 0 :=
  (by decide +kernel : ∀ t : Fin grid0.N, _)
/-- Every block of rows is some point's. -/
theorem idx_onto : ∀ q : Fin 32, ∃ t : Fin cfg0.N, win0_14.index t = ![q.val, 0] :=
  (by decide +kernel : ∀ q : Fin 32, ∃ t : Fin grid0.N, win0_14.index t = ![q.val, 0])

/-! ## The input blocks at a point -/

/-- The first argument's block at point t, at (p, n, k): the argument at the row the result's block has at p. -/
theorem blk0 (c : Dev nD) (t : Fin cfg0.N) (p : Fin 512) (u : Fin 1) (n : Fin 8) (k : Fin 128) :
    iblk m c 0 t (ix3 p n k) = V m c main_arg0 (ix3 ((((cfg0.win 14).blk t).view.emb (ix2 p u)) 0) n k) := by
  obtain ⟨e0, e1, e2⟩ := idx0 t
  show V m c main_arg0 (((cfg0.win 0).blk t).view.emb (ix3 p n k)) = _
  refine congrArg _ (funext fun a => Fin.ext ?_)
  match a with
  | ⟨0, _⟩ => show win0_0.index t (0 : Fin 3) * 512 + 1 * p.val = win0_14.index t (0 : Fin 2) * 512 + 1 * p.val; omega
  | ⟨1, _⟩ => show win0_0.index t (1 : Fin 3) * 8 + 1 * n.val = n.val; omega
  | ⟨2, _⟩ => show win0_0.index t (2 : Fin 3) * 128 + 1 * k.val = k.val; omega

/-- Window 1 is staged whole at every point: its block read at an index is its array at that index. -/
theorem blk1 (c : Dev nD) (t : Fin cfg0.N) (j : S8x8.Idx) : iblk m c 1 t j = V m c main_cst j := by
  obtain ⟨e0, e1⟩ := idx1 t
  show V m c main_cst (((cfg0.win 1).blk t).view.emb j) = V m c main_cst j
  refine congrArg _ (funext fun a => Fin.ext ?_)
  match a with
  | ⟨0, _⟩ => show win0_1.index t (0 : Fin 2) * 8 + 1 * (j 0).val = (j 0).val; omega
  | ⟨1, _⟩ => show win0_1.index t (1 : Fin 2) * 8 + 1 * (j 1).val = (j 1).val; omega

/-- Window 2 is staged whole at every point: its block read at an index is its array at that index. -/
theorem blk2 (c : Dev nD) (t : Fin cfg0.N) (j : S128x64.Idx) : iblk m c 2 t j = V m c main_arg1 j := by
  obtain ⟨e0, e1⟩ := idx2 t
  show V m c main_arg1 (((cfg0.win 2).blk t).view.emb j) = V m c main_arg1 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 64 + 1 * (j 1).val = (j 1).val; omega

/-- Window 3 is staged whole at every point: its block read at an index is its array at that index. -/
theorem blk3 (c : Dev nD) (t : Fin cfg0.N) (j : S1x64.Idx) : iblk m c 3 t j = V m c main_v0 j := by
  obtain ⟨e0, e1⟩ := idx3 t
  show V m c main_v0 (((cfg0.win 3).blk t).view.emb j) = V m c main_v0 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- Window 4 is staged whole at every point: its block read at an index is its array at that index. -/
theorem blk4 (c : Dev nD) (t : Fin cfg0.N) (j : S64x96.Idx) : iblk m c 4 t j = V m c main_arg3 j := by
  obtain ⟨e0, e1⟩ := idx4 t
  show V m c main_arg3 (((cfg0.win 4).blk t).view.emb j) = V m c main_arg3 j
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 96 + 1 * (j 1).val = (j 1).val; omega

/-- Window 5 is staged whole at every point: its block read at an index is its array at that index. -/
theorem blk5 (c : Dev nD) (t : Fin cfg0.N) (j : S1x96.Idx) : iblk m c 5 t j = V m c main_v1 j := by
  obtain ⟨e0, e1⟩ := idx5 t
  show V m c main_v1 (((cfg0.win 5).blk t).view.emb j) = V m c main_v1 j
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 96 + 1 * (j 1).val = (j 1).val; omega

/-- Window 6 is staged whole at every point: its block read at an index is its array at that index. -/
theorem blk6 (c : Dev nD) (t : Fin cfg0.N) (j : S96x128.Idx) : iblk m c 6 t j = V m c main_arg5 j := by
  obtain ⟨e0, e1⟩ := idx6 t
  show V m c main_arg5 (((cfg0.win 6).blk t).view.emb j) = V m c main_arg5 j
  refine congrArg _ (funext fun a => Fin.ext ?_)
  match a with
  | ⟨0, _⟩ => show win0_6.index t (0 : Fin 2) * 96 + 1 * (j 0).val = (j 0).val; omega
  | ⟨1, _⟩ => show win0_6.index t (1 : Fin 2) * 128 + 1 * (j 1).val = (j 1).val; omega

/-- Window 7 is staged whole at every point: its block read at an index is its array at that index. -/
theorem blk7 (c : Dev nD) (t : Fin cfg0.N) (j : S1x128.Idx) : iblk m c 7 t j = V m c main_v2 j := by
  obtain ⟨e0, e1⟩ := idx7 t
  show V m c main_v2 (((cfg0.win 7).blk t).view.emb j) = V m c main_v2 j
  refine congrArg _ (funext fun a => Fin.ext ?_)
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- Window 8 is staged whole at every point: its block read at an index is its array at that index. -/
theorem blk8 (c : Dev nD) (t : Fin cfg0.N) (j : S128x64.Idx) : iblk m c 8 t j = V m c main_arg7 j := by
  obtain ⟨e0, e1⟩ := idx8 t
  show V m c main_arg7 (((cfg0.win 8).blk t).view.emb j) = V m c main_arg7 j
  refine congrArg _ (funext fun a => Fin.ext ?_)
  match a with
  | ⟨0, _⟩ => show win0_8.index t (0 : Fin 2) * 128 + 1 * (j 0).val = (j 0).val; omega
  | ⟨1, _⟩ => show win0_8.index t (1 : Fin 2) * 64 + 1 * (j 1).val = (j 1).val; omega

/-- Window 9 is staged whole at every point: its block read at an index is its array at that index. -/
theorem blk9 (c : Dev nD) (t : Fin cfg0.N) (j : S1x64.Idx) : iblk m c 9 t j = V m c main_v3 j := by
  obtain ⟨e0, e1⟩ := idx9 t
  show V m c main_v3 (((cfg0.win 9).blk t).view.emb j) = V m c main_v3 j
  refine congrArg _ (funext fun a => Fin.ext ?_)
  match a with
  | ⟨0, _⟩ => show win0_9.index t (0 : Fin 2) * 1 + 1 * (j 0).val = (j 0).val; omega
  | ⟨1, _⟩ => show win0_9.index t (1 : Fin 2) * 64 + 1 * (j 1).val = (j 1).val; omega

/-- Window 10 is staged whole at every point: its block read at an index is its array at that index. -/
theorem blk10 (c : Dev nD) (t : Fin cfg0.N) (j : S64x32.Idx) : iblk m c 10 t j = V m c main_arg9 j := by
  obtain ⟨e0, e1⟩ := idx10 t
  show V m c main_arg9 (((cfg0.win 10).blk t).view.emb j) = V m c main_arg9 j
  refine congrArg _ (funext fun a => Fin.ext ?_)
  match a with
  | ⟨0, _⟩ => show win0_10.index t (0 : Fin 2) * 64 + 1 * (j 0).val = (j 0).val; omega
  | ⟨1, _⟩ => show win0_10.index t (1 : Fin 2) * 32 + 1 * (j 1).val = (j 1).val; omega

/-- Window 11 is staged whole at every point: its block read at an index is its array at that index. -/
theorem blk11 (c : Dev nD) (t : Fin cfg0.N) (j : S1x32.Idx) : iblk m c 11 t j = V m c main_v4 j := by
  obtain ⟨e0, e1⟩ := idx11 t
  show V m c main_v4 (((cfg0.win 11).blk t).view.emb j) = V m c main_v4 j
  refine congrArg _ (funext fun a => Fin.ext ?_)
  match a with
  | ⟨0, _⟩ => show win0_11.index t (0 : Fin 2) * 1 + 1 * (j 0).val = (j 0).val; omega
  | ⟨1, _⟩ => show win0_11.index t (1 : Fin 2) * 32 + 1 * (j 1).val = (j 1).val; omega

/-- Window 12 is staged whole at every point: its block read at an index is its array at that index. -/
theorem blk12 (c : Dev nD) (t : Fin cfg0.N) (j : S1x32.Idx) : iblk m c 12 t j = V m c main_v5 j := by
  obtain ⟨e0, e1⟩ := idx12 t
  show V m c main_v5 (((cfg0.win 12).blk t).view.emb j) = V m c main_v5 j
  refine congrArg _ (funext fun a => Fin.ext ?_)
  match a with
  | ⟨0, _⟩ => show win0_12.index t (0 : Fin 2) * 1 + 1 * (j 0).val = (j 0).val; omega
  | ⟨1, _⟩ => show win0_12.index t (1 : Fin 2) * 32 + 1 * (j 1).val = (j 1).val; omega

/-- Window 13 is staged whole at every point: its block read at an index is its array at that index. -/
theorem blk13 (c : Dev nD) (t : Fin cfg0.N) (j : S1x1.Idx) : iblk m c 13 t j = V m c main_v6 j := by
  obtain ⟨e0, e1⟩ := idx13 t
  show V m c main_v6 (((cfg0.win 13).blk t).view.emb j) = V m c main_v6 j
  refine congrArg _ (funext fun a => Fin.ext ?_)
  match a with
  | ⟨0, _⟩ => show win0_13.index t (0 : Fin 2) * 1 + 1 * (j 0).val = (j 0).val; omega
  | ⟨1, _⟩ => show win0_13.index t (1 : Fin 2) * 1 + 1 * (j 1).val = (j 1).val; omega

/-! ## The operands the host wrote before the region -/

/-- The printed table of the 8 x 8 matrix, entry by entry, is the specification's. -/
theorem lit_eq : ∀ n m : Fin 8, lit0 (S8x8.rowMajor (ix2 n m)) = adjW n m := by decide

/-- The matrix operand: the table's words. -/
theorem V_cst (c : Dev nD) (n k : Fin 8) : V m c main_cst (ix2 n k) = adjE n k := by
  have e : (V m c main_cst : S8x8.Idx → EReal) = fun i => Ideal.ofBits .f32 (lit0 (S8x8.rowMajor i)) := by
    dsimp only [Gen.V, Gen.hostOps0]; after_results; rfl
  rw [e]
  exact congrArg (Ideal.ofBits .f32) (lit_eq n k)

/-- A vector listed as one row reads, at (0, d), the vector at d. -/
theorem rowCast {a : ℕ} (x : (⟨1, ![a]⟩ : Shape).Idx → EReal) (h : (⟨1, ![a]⟩ : Shape).ShapeCasts ⟨2, ![1, a]⟩) (d : Fin a) :
    shapeCast ⟨2, ![1, a]⟩ x h (ix2 (0 : Fin 1) d) = x (ix1 d) :=
  shapeCast_apply x h _ _ (by
    rw [Shape.rowMajor_val_two, Shape.rowMajor_val_one]
    show d.val = 0 * a + d.val
    omega)

/-- A one-column matrix listed as one row reads, at (0, k), the column at (k, 0). -/
theorem colCast {a : ℕ} (x : (⟨2, ![a, 1]⟩ : Shape).Idx → EReal) (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

theorem V_v0 (c : Dev nD) (d : Fin 64) : V m c main_v0 (ix2 (0 : Fin 1) d) = (m ((c : Thread nD τ).loc main_arg2)) (ix1 d) := by
  have e : (V m c main_v0 : S1x64.Idx → EReal) = shapeCast S1x64 (m ((c : Thread nD τ).loc main_arg2)) shapeCasts_S64_S1x64 := by
    dsimp only [Gen.V, Gen.hostOps0]; after_results; rfl
  rw [e]; exact rowCast _ _ d

theorem V_v1 (c : Dev nD) (d : Fin 96) : V m c main_v1 (ix2 (0 : Fin 1) d) = (m ((c : Thread nD τ).loc main_arg4)) (ix1 d) := by
  have e : (V m c main_v1 : S1x96.Idx → EReal) = shapeCast S1x96 (m ((c : Thread nD τ).loc main_arg4)) shapeCasts_S96_S1x96 := by
    dsimp only [Gen.V, Gen.hostOps0]; after_results; rfl
  rw [e]; exact rowCast _ _ d

theorem V_v2 (c : Dev nD) (d : Fin 128) : V m c main_v2 (ix2 (0 : Fin 1) d) = (m ((c : Thread nD τ).loc main_arg6)) (ix1 d) := by
  have e : (V m c main_v2 : S1x128.Idx → EReal) = shapeCast S1x128 (m ((c : Thread nD τ).loc main_arg6)) shapeCasts_S128_S1x128 := by
    dsimp only [Gen.V, Gen.hostOps0]; after_results; rfl
  rw [e]; exact rowCast _ _ d

theorem V_v3 (c : Dev nD) (d : Fin 64) : V m c main_v3 (ix2 (0 : Fin 1) d) = (m ((c : Thread nD τ).loc main_arg8)) (ix1 d) := by
  have e : (V m c main_v3 : S1x64.Idx → EReal) = shapeCast S1x64 (m ((c : Thread nD τ).loc main_arg8)) shapeCasts_S64_S1x64 := by
    dsimp only [Gen.V, Gen.hostOps0]; after_results; rfl
  rw [e]; exact rowCast _ _ d

theorem V_v4 (c : Dev nD) (d : Fin 32) : V m c main_v4 (ix2 (0 : Fin 1) d) = (m ((c : Thread nD τ).loc main_arg10)) (ix1 d) := by
  have e : (V m c main_v4 : S1x32.Idx → EReal) = shapeCast S1x32 (m ((c : Thread nD τ).loc main_arg10)) shapeCasts_S32_S1x32 := by
    dsimp only [Gen.V, Gen.hostOps0]; after_results; rfl
  rw [e]; exact rowCast _ _ d

theorem V_v5 (c : Dev nD) (k : Fin 32) : V m c main_v5 (ix2 (0 : Fin 1) k) = (m ((c : Thread nD τ).loc main_arg11)) (ix2 k (0 : Fin 1)) := by
  have e : (V m c main_v5 : S1x32.Idx → EReal) = shapeCast S1x32 (m ((c : Thread nD τ).loc main_arg11)) shapeCasts_S32x1_S1x32 := by
    dsimp only [Gen.V, Gen.hostOps0]; after_results; rfl
  rw [e]; exact colCast _ _ k

theorem V_v6 (c : Dev nD) : V m c main_v6 (ix2 (0 : Fin 1) (0 : Fin 1)) = (m ((c : Thread nD τ).loc main_arg12)) (ix1 (0 : Fin 1)) := by
  have e : (V m c main_v6 : S1x1.Idx → EReal) = shapeCast S1x1 (m ((c : Thread nD τ).loc main_arg12)) shapeCasts_S1_S1x1 := by
    dsimp only [Gen.V, Gen.hostOps0]; after_results; rfl
  rw [e]; exact rowCast _ _ (0 : Fin 1)

/-! ## What a point writes back, and the array -/

/-- The body's stores, read back, are the body's result array: one store of the whole block, every load a whole block. -/
theorem out_eq_body (x0 : Vec Ideal S512x8x128 .f32) (x1 : Vec Ideal S8x8 .f32) (x2 : Vec Ideal S128x64 .f32) (x3 : Vec Ideal S1x64 .f32)
    (x4 : Vec Ideal S64x96 .f32) (x5 : Vec Ideal S1x96 .f32) (x6 : Vec Ideal S96x128 .f32) (x7 : Vec Ideal S1x128 .f32)
    (x8 : Vec Ideal S128x64 .f32) (x9 : Vec Ideal S1x64 .f32) (x10 : Vec Ideal S64x32 .f32) (x11 x12 : Vec Ideal S1x32 .f32)
    (x13 : Vec Ideal S1x1 .f32) :
    out0_14 (F := Ideal) x0 x1 x2 x3 x4 x5 x6 x7 x8 x9 x10 x11 x12 x13 = body x0 x1 x2 x3 x4 x5 x6 x7 x8 x9 x10 x11 x12 x13 := by
  unfold out0_14 body
  rw [View.canon_unit_zero hz2]
  simp only [View.ld_unit_zero (S := S512x8x128) hz3, View.ld_unit_zero (S := S8x8) hz2, View.ld_unit_zero (S := S128x64) hz2,
    View.ld_unit_zero (S := S1x64) hz2, View.ld_unit_zero (S := S64x96) hz2, View.ld_unit_zero (S := S1x96) hz2,
    View.ld_unit_zero (S := S96x128) hz2, View.ld_unit_zero (S := S1x128) hz2, View.ld_unit_zero (S := S64x32) hz2,
    View.ld_unit_zero (S := S1x32) hz2, View.ld_unit_zero (S := S1x1) hz2]

/-- The body's result at (p, u) on the blocks of point t: G at the row the result's block has at p. -/
theorem body_blocks (c : Dev nD) (t : Fin cfg0.N) (p : Fin 512) (u : Fin 1) :
    body (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p u)
      = G m c (((cfg0.win 14).blk t).view.emb (ix2 p u)) := by
  refine (body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p u).trans ?_
  unfold G outK
  rw [netK_eq_netOf]
  have h1 : (fun n k => iblk m c 1 t (ix2 n k)) = adjE :=
    funext fun n => funext fun k => (blk1 m c t (ix2 n k)).trans (V_cst m c n k)
  have h0 : (fun n k => iblk m c 0 t (ix3 p n k))
      = fun n k => (m ((c : Thread nD τ).loc main_arg0)) (ix3 ((((cfg0.win 14).blk t).view.emb (ix2 p u)) 0) n k) :=
    funext fun n => funext fun k => (blk0 m c t p u n k).trans (congrFun (V_main_arg0 m c) _)
  have h2 : (fun k d => iblk m c 2 t (ix2 k d)) = fun k d => (m ((c : Thread nD τ).loc main_arg1)) (ix2 k d) :=
    funext fun k => funext fun d => (blk2 m c t (ix2 k d)).trans (congrFun (V_main_arg1 m c) _)
  have h3 : (fun d => iblk m c 3 t (ix2 (0 : Fin 1) d)) = fun d => (m ((c : Thread nD τ).loc main_arg2)) (ix1 d) :=
    funext fun d => (blk3 m c t (ix2 (0 : Fin 1) d)).trans (V_v0 m c d)
  have h4 : (fun k d => iblk m c 4 t (ix2 k d)) = fun k d => (m ((c : Thread nD τ).loc main_arg3)) (ix2 k d) :=
    funext fun k => funext fun d => (blk4 m c t (ix2 k d)).trans (congrFun (V_main_arg3 m c) _)
  have h5 : (fun d => iblk m c 5 t (ix2 (0 : Fin 1) d)) = fun d => (m ((c : Thread nD τ).loc main_arg4)) (ix1 d) :=
    funext fun d => (blk5 m c t (ix2 (0 : Fin 1) d)).trans (V_v1 m c d)
  have h6 : (fun k d => iblk m c 6 t (ix2 k d)) = fun k d => (m ((c : Thread nD τ).loc main_arg5)) (ix2 k d) :=
    funext fun k => funext fun d => (blk6 m c t (ix2 k d)).trans (congrFun (V_main_arg5 m c) _)
  have h7 : (fun d => iblk m c 7 t (ix2 (0 : Fin 1) d)) = fun d => (m ((c : Thread nD τ).loc main_arg6)) (ix1 d) :=
    funext fun d => (blk7 m c t (ix2 (0 : Fin 1) d)).trans (V_v2 m c d)
  have h8 : (fun k d => iblk m c 8 t (ix2 k d)) = fun k d => (m ((c : Thread nD τ).loc main_arg7)) (ix2 k d) :=
    funext fun k => funext fun d => (blk8 m c t (ix2 k d)).trans (congrFun (V_main_arg7 m c) _)
  have h9 : (fun d => iblk m c 9 t (ix2 (0 : Fin 1) d)) = fun d => (m ((c : Thread nD τ).loc main_arg8)) (ix1 d) :=
    funext fun d => (blk9 m c t (ix2 (0 : Fin 1) d)).trans (V_v3 m c d)
  have h10 : (fun k d => iblk m c 10 t (ix2 k d)) = fun k d => (m ((c : Thread nD τ).loc main_arg9)) (ix2 k d) :=
    funext fun k => funext fun d => (blk10 m c t (ix2 k d)).trans (congrFun (V_main_arg9 m c) _)
  have h11 : (fun d => iblk m c 11 t (ix2 (0 : Fin 1) d)) = fun d => (m ((c : Thread nD τ).loc main_arg10)) (ix1 d) :=
    funext fun d => (blk11 m c t (ix2 (0 : Fin 1) d)).trans (V_v4 m c d)
  have h12 : (fun k => iblk m c 12 t (ix2 (0 : Fin 1) k)) = fun k => (m ((c : Thread nD τ).loc main_arg11)) (ix2 k (0 : Fin 1)) :=
    funext fun k => (blk12 m c t (ix2 (0 : Fin 1) k)).trans (V_v5 m c k)
  have h13 : iblk m c 13 t (ix2 (0 : Fin 1) (0 : Fin 1)) = (m ((c : Thread nD τ).loc main_arg12)) (ix1 (0 : Fin 1)) :=
    (blk13 m c t (ix2 (0 : Fin 1) (0 : Fin 1))).trans (V_v6 m c)
  rw [h0, h1, h2, h3, h4, h5, h6, h7, h8, h9, h10, h11, h12, h13]

/-- WHAT POINT t WRITES BACK is block t of G. -/
theorem flushed_eq (c : Dev nD) (t : Fin cfg0.N) :
    (dats m 0 c).flushed 14 t = ((cfg0.win 14).blk t).view.read (Elt Ideal) (G m c) := by
  rw [flushed14, out_eq_body (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)]
  funext y
  obtain ⟨p, u, rfl⟩ : ∃ (p : Fin 512) (u : Fin 1), y = ix2 p u := ⟨y 0, y 1, eq_ix2 y⟩
  exact body_blocks m c t p u

/-- An index of the array is in point t's block iff each coordinate is in the block's range on its axis. -/
theorem mem_blk (t : Fin cfg0.N) (i : S16384x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_v7).slice (win0_14.rect t)).set ↔ _
  rw [View.set_slice_whole, Rect.mem_set_unit]
  exact Iff.rfl

/-- The 32 blocks cover the array: row r is in the block of point r / 512. -/
theorem cover (i : S16384x1.Idx) : ∃ t : Fin cfg0.N, (cfg0.win 14).flush t = true ∧ i ∈ ((cfg0.win 14).blk t).view.set := by
  have hi0 : (i 0).val < 16384 := (i 0).isLt
  have hi1 : (i 1).val < 1 := (i 1).isLt
  obtain ⟨t, ht⟩ := idx_onto ⟨(i 0).val / 512, by omega⟩
  have q0 : win0_14.index t (0 : Fin 2) = (i 0).val / 512 := congrFun ht 0
  have q1 : win0_14.index t (1 : Fin 2) = 0 := congrFun ht 1
  refine ⟨t, flush0_14 t, ?_⟩
  rw [mem_blk]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 1 ≤ (i 1).val ∧ (i 1).val < win0_14.index t (1 : Fin 2) * 1 + 1; omega

/-- THE ARRAY after the run is G. -/
theorem final (c : Dev nD) : (dats m 0 c).arrAt 14 cfg0.N = G m c :=
  (dats m 0 c).arrAt_eq_of_cover 14 (G m c) (fun t _ => flushed_eq m c t) cover

/-- The kernel's run: the result array ends at G of the argument arrays, the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelIdeal.BlockValue

end
-- ==== Proof.RefRunOps.lean ====
/-
  The reference's @main as a straight line of its 155 host operations, the bodies of the functions it calls written in
  place over each call's own buffers, cut into six consecutive stretches (the tables, the three graph layers — the third
  in two pieces, where the program's text is cut —, the head). The program is the line run in order, so every weakly
  fair execution ends with each buffer at the fold of the operations' results over the contents it started from.
-/
import proofs.«129694_g13082470383675_cont_sun_m_1195_7_alg».proof.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The three constant tables: source node, weight and destination node of each of the 34 edges. -/
abbrev opsT : List (HloOp τ sig (Elt F)) :=
  [ StableHlo.nullary main_c (fun i => lit0 (S34.rowMajor i)),
    StableHlo.nullary main_cst (fun i => FloatOps.ofBits .f32 (lit1 (S34.rowMajor i))),
    StableHlo.nullary main_c_0 (fun i => lit2 (S34.rowMajor i)) ]

/-- The first graph layer (64 channels): the product with the weights, the rows gathered by source node (negative positions wrapped, positions outside 0 … 7 filled), the scaling by the edge weights, the sum into zero at the destination nodes, the bias, the rectifier. -/
abbrev opsL1 : List (HloOp τ sig (Elt F)) :=
  [ StableHlo.binary main_arg0 main_arg1 main_v0 ((fun l r => Host.dotGeneral dot_S16384x8x128_S128x64_S16384x8x64_2_0_01_1_n_n none l r) : (⟨S16384x8x128, .f32⟩ : BufTy).Contents (Elt F) → (⟨S128x64, .f32⟩ : BufTy).Contents (Elt F) → (⟨S16384x8x64, .f32⟩ : BufTy).Contents (Elt F)),
    StableHlo.TRef.nullary main_call0.c (constantI S_ 32 0#32),
    StableHlo.TRef.unary main_call0.c main_call0.v0 (broadcastInDim S34 ![] bcast_S_S34),
    StableHlo.TRef.binary (.of main_c : StableHlo.TRef sig ⟨S34, .i32⟩) main_call0.v0 main_call0.v1 (cmpi .slt),
    StableHlo.TRef.nullary main_call0.c_0 (constantI S_ 32 8#32),
    StableHlo.TRef.unary main_call0.c_0 main_call0.v2 (broadcastInDim S34 ![] bcast_S_S34),
    StableHlo.TRef.binary (.of main_c : StableHlo.TRef sig ⟨S34, .i32⟩) main_call0.v2 main_call0.v3 addi,
    StableHlo.TRef.ternary main_call0.v1 main_call0.v3 (.of main_c : StableHlo.TRef sig ⟨S34, .i32⟩) main_call0.call0.v0 select,
    StableHlo.TRef.unary main_call0.call0.v0 main_call0.v5 (broadcastInDim S34x1 ![0] bcast_S34_S34x1_0),
    StableHlo.TRef.nullary main_call0.c_1 (constantI S1 32 7#32),
    StableHlo.TRef.nullary main_call0.c_2 (constantI S_ 32 0#32),
    StableHlo.TRef.unary main_call0.c_2 main_call0.v6 (broadcastInDim S34x1 ![] bcast_S_S34x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S34x1 ![0, 1] bcast_S1x1_S34x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S34x1_S34_d1 h_S_),
    StableHlo.TRef.binary (.of main_v0 : StableHlo.TRef sig ⟨S16384x8x64, .f32⟩) main_call0.v5 main_call0.v13 (fun x i => Host.gather gather_S16384x8x64_S34x1_S16384x34x64_02_1_n_n_1_1_16384164 x i),
    StableHlo.TRef.unary main_call0.v12 main_call0.v14 (broadcastInDim S16384x34x64 ![1] bcast_S34_S16384x34x64_1),
    StableHlo.TRef.nullary main_call0.cst (constant S_ .f32 0x7FC00000#32),
    StableHlo.TRef.unary main_call0.cst main_call0.v15 (broadcastInDim S16384x34x64 ![] bcast_S_S16384x34x64),
    StableHlo.TRef.ternary main_call0.v14 main_call0.v13 main_call0.v15 main_call0.v16 select,
    StableHlo.unary main_cst main_v2 (broadcastInDim S1x34x1 ![1] bcast_S34_S1x34x1_1 : (⟨S34, .f32⟩ : BufTy).Contents (Elt F) → (⟨S1x34x1, .f32⟩ : BufTy).Contents (Elt F)),
    StableHlo.unary main_v2 main_v3 (broadcastInDim S16384x34x64 ![0, 1, 2] bcast_S1x34x1_S16384x34x64_0_1_2 : (⟨S1x34x1, .f32⟩ : BufTy).Contents (Elt F) → (⟨S16384x34x64, .f32⟩ : BufTy).Contents (Elt F)),
    StableHlo.binary main_v1 main_v3 main_v4 (mulf : (⟨S16384x34x64, .f32⟩ : BufTy).Contents (Elt F) → (⟨S16384x34x64, .f32⟩ : BufTy).Contents (Elt F) → (⟨S16384x34x64, .f32⟩ : BufTy).Contents (Elt F)),
    StableHlo.nullary main_cst_1 (constant S_ .f32 0x00000000#32),
    StableHlo.unary main_cst_1 main_v5 (broadcastInDim S16384x8x64 ![] bcast_S_S16384x8x64 : (⟨S_, .f32⟩ : BufTy).Contents (Elt F) → (⟨S16384x8x64, .f32⟩ : BufTy).Contents (Elt F)),
    StableHlo.nullary main_c_2 (constantI S_ 32 0#32),
    StableHlo.unary main_c_2 main_v6 (broadcastInDim S34 ![] bcast_S_S34 : (⟨S_, .i32⟩ : BufTy).Contents (Elt F) → (⟨S34, .i32⟩ : BufTy).Contents (Elt F)),
    StableHlo.binary main_c_0 main_v6 main_v7 (cmpi .slt : (⟨S34, .i32⟩ : BufTy).Contents (Elt F) → (⟨S34, .i32⟩ : BufTy).Contents (Elt F) → (⟨S34, .i1⟩ : BufTy).Contents (Elt F)),
    StableHlo.nullary main_c_3 (constantI S_ 32 8#32),
    StableHlo.unary main_c_3 main_v8 (broadcastInDim S34 ![] bcast_S_S34 : (⟨S_, .i32⟩ : BufTy).Contents (Elt F) → (⟨S34, .i32⟩ : BufTy).Contents (Elt F)),
    StableHlo.binary main_c_0 main_v8 main_v9 (addi : (⟨S34, .i32⟩ : BufTy).Contents (Elt F) → (⟨S34, .i32⟩ : BufTy).Contents (Elt F) → (⟨S34, .i32⟩ : BufTy).Contents (Elt F)),
    StableHlo.ternary main_v7 main_v9 main_c_0 main_v10 (select : (⟨S34, .i1⟩ : BufTy).Contents (Elt F) → (⟨S34, .i32⟩ : BufTy).Contents (Elt F) → (⟨S34, .i32⟩ : BufTy).Contents (Elt F) → (⟨S34, .i32⟩ : BufTy).Contents (Elt F)),
    StableHlo.unary main_v10 main_v11 (broadcastInDim S34x1 ![0] bcast_S34_S34x1_0 : (⟨S34, .i32⟩ : BufTy).Contents (Elt F) → (⟨S34x1, .i32⟩ : BufTy).Contents (Elt F)),
    StableHlo.ternary main_v5 main_v11 main_v4 main_v12 ((fun x i u => Host.scatterAdd scatter_S16384x8x64_S34x1_S16384x34x64_02_1_1_1 x i u) : (⟨S16384x8x64, .f32⟩ : BufTy).Contents (Elt F) → (⟨S34x1, .i32⟩ : BufTy).Contents (Elt F) → (⟨S16384x34x64, .f32⟩ : BufTy).Contents (Elt F) → (⟨S16384x8x64, .f32⟩ : BufTy).Contents (Elt F)),
    StableHlo.unary main_arg2 main_v13 (broadcastInDim S1x1x64 ![2] bcast_S64_S1x1x64_2 : (⟨S64, .f32⟩ : BufTy).Contents (Elt F) → (⟨S1x1x64, .f32⟩ : BufTy).Contents (Elt F)),
    StableHlo.unary main_v13 main_v14 (broadcastInDim S16384x8x64 ![0, 1, 2] bcast_S1x1x64_S16384x8x64_0_1_2 : (⟨S1x1x64, .f32⟩ : BufTy).Contents (Elt F) → (⟨S16384x8x64, .f32⟩ : BufTy).Contents (Elt F)),
    StableHlo.binary main_v12 main_v14 main_v15 (addf : (⟨S16384x8x64, .f32⟩ : BufTy).Contents (Elt F) → (⟨S16384x8x64, .f32⟩ : BufTy).Contents (Elt F) → (⟨S16384x8x64, .f32⟩ : BufTy).Contents (Elt F)),
    StableHlo.TRef.nullary main_call1.cst (constant S_ .f32 0x00000000#32),
    StableHlo.TRef.unary main_call1.cst main_call1.v0 (broadcastInDim S16384x8x64 ![] bcast_S_S16384x8x64),
    StableHlo.TRef.binary (.of main_v15 : StableHlo.TRef sig ⟨S16384x8x64, .f32⟩) main_call1.v0 main_call1.v1 maximumf ]

/-- The second graph layer (96 channels), the same steps. -/
abbrev opsL2 : List (HloOp τ sig (Elt F)) :=
  [ StableHlo.binary main_v16 main_arg3 main_v17 ((fun l r => Host.dotGeneral dot_S16384x8x64_S64x96_S16384x8x96_2_0_01_1_n_n none l r) : (⟨S16384x8x64, .f32⟩ : BufTy).Contents (Elt F) → (⟨S64x96, .f32⟩ : BufTy).Contents (Elt F) → (⟨S16384x8x96, .f32⟩ : BufTy).Contents (Elt F)),
    StableHlo.TRef.nullary main_call2.c (constantI S_ 32 0#32),
    StableHlo.TRef.unary main_call2.c main_call2.v0 (broadcastInDim S34 ![] bcast_S_S34),
    StableHlo.TRef.binary (.of main_c : StableHlo.TRef sig ⟨S34, .i32⟩) main_call2.v0 main_call2.v1 (cmpi .slt),
    StableHlo.TRef.nullary main_call2.c_0 (constantI S_ 32 8#32),
    StableHlo.TRef.unary main_call2.c_0 main_call2.v2 (broadcastInDim S34 ![] bcast_S_S34),
    StableHlo.TRef.binary (.of main_c : StableHlo.TRef sig ⟨S34, .i32⟩) main_call2.v2 main_call2.v3 addi,
    StableHlo.TRef.ternary main_call2.v1 main_call2.v3 (.of main_c : StableHlo.TRef sig ⟨S34, .i32⟩) main_call2.call0.v0 select,
    StableHlo.TRef.unary main_call2.call0.v0 main_call2.v5 (broadcastInDim S34x1 ![0] bcast_S34_S34x1_0),
    StableHlo.TRef.nullary main_call2.c_1 (constantI S1 32 7#32),
    StableHlo.TRef.nullary main_call2.c_2 (constantI S_ 32 0#32),
    StableHlo.TRef.unary main_call2.c_2 main_call2.v6 (broadcastInDim S34x1 ![] bcast_S_S34x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S34x1 ![0, 1] bcast_S1x1_S34x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S34x1_S34_d1 h_S_),
    StableHlo.TRef.binary (.of main_v17 : StableHlo.TRef sig ⟨S16384x8x96, .f32⟩) main_call2.v5 main_call2.v13 (fun x i => Host.gather gather_S16384x8x96_S34x1_S16384x34x96_02_1_n_n_1_1_16384196 x i),
    StableHlo.TRef.unary main_call2.v12 main_call2.v14 (broadcastInDim S16384x34x96 ![1] bcast_S34_S16384x34x96_1),
    StableHlo.TRef.nullary main_call2.cst (constant S_ .f32 0x7FC00000#32),
    StableHlo.TRef.unary main_call2.cst main_call2.v15 (broadcastInDim S16384x34x96 ![] bcast_S_S16384x34x96),
    StableHlo.TRef.ternary main_call2.v14 main_call2.v13 main_call2.v15 main_call2.v16 select,
    StableHlo.unary main_cst main_v19 (broadcastInDim S1x34x1 ![1] bcast_S34_S1x34x1_1 : (⟨S34, .f32⟩ : BufTy).Contents (Elt F) → (⟨S1x34x1, .f32⟩ : BufTy).Contents (Elt F)),
    StableHlo.unary main_v19 main_v20 (broadcastInDim S16384x34x96 ![0, 1, 2] bcast_S1x34x1_S16384x34x96_0_1_2 : (⟨S1x34x1, .f32⟩ : BufTy).Contents (Elt F) → (⟨S16384x34x96, .f32⟩ : BufTy).Contents (Elt F)),
    StableHlo.binary main_v18 main_v20 main_v21 (mulf : (⟨S16384x34x96, .f32⟩ : BufTy).Contents (Elt F) → (⟨S16384x34x96, .f32⟩ : BufTy).Contents (Elt F) → (⟨S16384x34x96, .f32⟩ : BufTy).Contents (Elt F)),
    StableHlo.nullary main_cst_4 (constant S_ .f32 0x00000000#32),
    StableHlo.unary main_cst_4 main_v22 (broadcastInDim S16384x8x96 ![] bcast_S_S16384x8x96 : (⟨S_, .f32⟩ : BufTy).Contents (Elt F) → (⟨S16384x8x96, .f32⟩ : BufTy).Contents (Elt F)),
    StableHlo.nullary main_c_5 (constantI S_ 32 0#32),
    StableHlo.unary main_c_5 main_v23 (broadcastInDim S34 ![] bcast_S_S34 : (⟨S_, .i32⟩ : BufTy).Contents (Elt F) → (⟨S34, .i32⟩ : BufTy).Contents (Elt F)),
    StableHlo.binary main_c_0 main_v23 main_v24 (cmpi .slt : (⟨S34, .i32⟩ : BufTy).Contents (Elt F) → (⟨S34, .i32⟩ : BufTy).Contents (Elt F) → (⟨S34, .i1⟩ : BufTy).Contents (Elt F)),
    StableHlo.nullary main_c_6 (constantI S_ 32 8#32),
    StableHlo.unary main_c_6 main_v25 (broadcastInDim S34 ![] bcast_S_S34 : (⟨S_, .i32⟩ : BufTy).Contents (Elt F) → (⟨S34, .i32⟩ : BufTy).Contents (Elt F)),
    StableHlo.binary main_c_0 main_v25 main_v26 (addi : (⟨S34, .i32⟩ : BufTy).Contents (Elt F) → (⟨S34, .i32⟩ : BufTy).Contents (Elt F) → (⟨S34, .i32⟩ : BufTy).Contents (Elt F)),
    StableHlo.ternary main_v24 main_v26 main_c_0 main_v27 (select : (⟨S34, .i1⟩ : BufTy).Contents (Elt F) → (⟨S34, .i32⟩ : BufTy).Contents (Elt F) → (⟨S34, .i32⟩ : BufTy).Contents (Elt F) → (⟨S34, .i32⟩ : BufTy).Contents (Elt F)),
    StableHlo.unary main_v27 main_v28 (broadcastInDim S34x1 ![0] bcast_S34_S34x1_0 : (⟨S34, .i32⟩ : BufTy).Contents (Elt F) → (⟨S34x1, .i32⟩ : BufTy).Contents (Elt F)),
    StableHlo.ternary main_v22 main_v28 main_v21 main_v29 ((fun x i u => Host.scatterAdd scatter_S16384x8x96_S34x1_S16384x34x96_02_1_1_1 x i u) : (⟨S16384x8x96, .f32⟩ : BufTy).Contents (Elt F) → (⟨S34x1, .i32⟩ : BufTy).Contents (Elt F) → (⟨S16384x34x96, .f32⟩ : BufTy).Contents (Elt F) → (⟨S16384x8x96, .f32⟩ : BufTy).Contents (Elt F)),
    StableHlo.unary main_arg4 main_v30 (broadcastInDim S1x1x96 ![2] bcast_S96_S1x1x96_2 : (⟨S96, .f32⟩ : BufTy).Contents (Elt F) → (⟨S1x1x96, .f32⟩ : BufTy).Contents (Elt F)),
    StableHlo.unary main_v30 main_v31 (broadcastInDim S16384x8x96 ![0, 1, 2] bcast_S1x1x96_S16384x8x96_0_1_2 : (⟨S1x1x96, .f32⟩ : BufTy).Contents (Elt F) → (⟨S16384x8x96, .f32⟩ : BufTy).Contents (Elt F)),
    StableHlo.binary main_v29 main_v31 main_v32 (addf : (⟨S16384x8x96, .f32⟩ : BufTy).Contents (Elt F) → (⟨S16384x8x96, .f32⟩ : BufTy).Contents (Elt F) → (⟨S16384x8x96, .f32⟩ : BufTy).Contents (Elt F)),
    StableHlo.TRef.nullary main_call3.cst (constant S_ .f32 0x00000000#32),
    StableHlo.TRef.unary main_call3.cst main_call3.v0 (broadcastInDim S16384x8x96 ![] bcast_S_S16384x8x96),
    StableHlo.TRef.binary (.of main_v32 : StableHlo.TRef sig ⟨S16384x8x96, .f32⟩) main_call3.v0 main_call3.v1 maximumf ]

/-- The third graph layer (128 channels) up to the bias as a row. -/
abbrev opsL3a : List (HloOp τ sig (Elt F)) :=
  [ StableHlo.binary main_v33 main_arg5 main_v34 ((fun l r => Host.dotGeneral dot_S16384x8x96_S96x128_S16384x8x128_2_0_01_1_n_n none l r) : (⟨S16384x8x96, .f32⟩ : BufTy).Contents (Elt F) → (⟨S96x128, .f32⟩ : BufTy).Contents (Elt F) → (⟨S16384x8x128, .f32⟩ : BufTy).Contents (Elt F)),
    StableHlo.TRef.nullary main_call4.c (constantI S_ 32 0#32),
    StableHlo.TRef.unary main_call4.c main_call4.v0 (broadcastInDim S34 ![] bcast_S_S34),
    StableHlo.TRef.binary (.of main_c : StableHlo.TRef sig ⟨S34, .i32⟩) main_call4.v0 main_call4.v1 (cmpi .slt),
    StableHlo.TRef.nullary main_call4.c_0 (constantI S_ 32 8#32),
    StableHlo.TRef.unary main_call4.c_0 main_call4.v2 (broadcastInDim S34 ![] bcast_S_S34),
    StableHlo.TRef.binary (.of main_c : StableHlo.TRef sig ⟨S34, .i32⟩) main_call4.v2 main_call4.v3 addi,
    StableHlo.TRef.ternary main_call4.v1 main_call4.v3 (.of main_c : StableHlo.TRef sig ⟨S34, .i32⟩) main_call4.call0.v0 select,
    StableHlo.TRef.unary main_call4.call0.v0 main_call4.v5 (broadcastInDim S34x1 ![0] bcast_S34_S34x1_0),
    StableHlo.TRef.nullary main_call4.c_1 (constantI S1 32 7#32),
    StableHlo.TRef.nullary main_call4.c_2 (constantI S_ 32 0#32),
    StableHlo.TRef.unary main_call4.c_2 main_call4.v6 (broadcastInDim S34x1 ![] bcast_S_S34x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S34x1 ![0, 1] bcast_S1x1_S34x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S34x1_S34_d1 h_S_),
    StableHlo.TRef.binary (.of main_v34 : StableHlo.TRef sig ⟨S16384x8x128, .f32⟩) main_call4.v5 main_call4.v13 (fun x i => Host.gather gather_S16384x8x128_S34x1_S16384x34x128_02_1_n_n_1_1_163841128 x i),
    StableHlo.TRef.unary main_call4.v12 main_call4.v14 (broadcastInDim S16384x34x128 ![1] bcast_S34_S16384x34x128_1),
    StableHlo.TRef.nullary main_call4.cst (constant S_ .f32 0x7FC00000#32),
    StableHlo.TRef.unary main_call4.cst main_call4.v15 (broadcastInDim S16384x34x128 ![] bcast_S_S16384x34x128),
    StableHlo.TRef.ternary main_call4.v14 main_call4.v13 main_call4.v15 main_call4.v16 select,
    StableHlo.unary main_cst main_v36 (broadcastInDim S1x34x1 ![1] bcast_S34_S1x34x1_1 : (⟨S34, .f32⟩ : BufTy).Contents (Elt F) → (⟨S1x34x1, .f32⟩ : BufTy).Contents (Elt F)),
    StableHlo.unary main_v36 main_v37 (broadcastInDim S16384x34x128 ![0, 1, 2] bcast_S1x34x1_S16384x34x128_0_1_2 : (⟨S1x34x1, .f32⟩ : BufTy).Contents (Elt F) → (⟨S16384x34x128, .f32⟩ : BufTy).Contents (Elt F)),
    StableHlo.binary main_v35 main_v37 main_v38 (mulf : (⟨S16384x34x128, .f32⟩ : BufTy).Contents (Elt F) → (⟨S16384x34x128, .f32⟩ : BufTy).Contents (Elt F) → (⟨S16384x34x128, .f32⟩ : BufTy).Contents (Elt F)),
    StableHlo.nullary main_cst_7 (constant S_ .f32 0x00000000#32),
    StableHlo.unary main_cst_7 main_v39 (broadcastInDim S16384x8x128 ![] bcast_S_S16384x8x128 : (⟨S_, .f32⟩ : BufTy).Contents (Elt F) → (⟨S16384x8x128, .f32⟩ : BufTy).Contents (Elt F)),
    StableHlo.nullary main_c_8 (constantI S_ 32 0#32),
    StableHlo.unary main_c_8 main_v40 (broadcastInDim S34 ![] bcast_S_S34 : (⟨S_, .i32⟩ : BufTy).Contents (Elt F) → (⟨S34, .i32⟩ : BufTy).Contents (Elt F)),
    StableHlo.binary main_c_0 main_v40 main_v41 (cmpi .slt : (⟨S34, .i32⟩ : BufTy).Contents (Elt F) → (⟨S34, .i32⟩ : BufTy).Contents (Elt F) → (⟨S34, .i1⟩ : BufTy).Contents (Elt F)),
    StableHlo.nullary main_c_9 (constantI S_ 32 8#32),
    StableHlo.unary main_c_9 main_v42 (broadcastInDim S34 ![] bcast_S_S34 : (⟨S_, .i32⟩ : BufTy).Contents (Elt F) → (⟨S34, .i32⟩ : BufTy).Contents (Elt F)),
    StableHlo.binary main_c_0 main_v42 main_v43 (addi : (⟨S34, .i32⟩ : BufTy).Contents (Elt F) → (⟨S34, .i32⟩ : BufTy).Contents (Elt F) → (⟨S34, .i32⟩ : BufTy).Contents (Elt F)),
    StableHlo.ternary main_v41 main_v43 main_c_0 main_v44 (select : (⟨S34, .i1⟩ : BufTy).Contents (Elt F) → (⟨S34, .i32⟩ : BufTy).Contents (Elt F) → (⟨S34, .i32⟩ : BufTy).Contents (Elt F) → (⟨S34, .i32⟩ : BufTy).Contents (Elt F)),
    StableHlo.unary main_v44 main_v45 (broadcastInDim S34x1 ![0] bcast_S34_S34x1_0 : (⟨S34, .i32⟩ : BufTy).Contents (Elt F) → (⟨S34x1, .i32⟩ : BufTy).Contents (Elt F)),
    StableHlo.ternary main_v39 main_v45 main_v38 main_v46 ((fun x i u => Host.scatterAdd scatter_S16384x8x128_S34x1_S16384x34x128_02_1_1_1 x i u) : (⟨S16384x8x128, .f32⟩ : BufTy).Contents (Elt F) → (⟨S34x1, .i32⟩ : BufTy).Contents (Elt F) → (⟨S16384x34x128, .f32⟩ : BufTy).Contents (Elt F) → (⟨S16384x8x128, .f32⟩ : BufTy).Contents (Elt F)),
    StableHlo.unary main_arg6 main_v47 (broadcastInDim S1x1x128 ![2] bcast_S128_S1x1x128_2 : (⟨S128, .f32⟩ : BufTy).Contents (Elt F) → (⟨S1x1x128, .f32⟩ : BufTy).Contents (Elt F)) ]

/-- The third graph layer's end: the bias added, the rectifier. -/
abbrev opsL3b : List (HloOp τ sig (Elt F)) :=
  [ StableHlo.unary main_v47 main_v48 (broadcastInDim S16384x8x128 ![0, 1, 2] bcast_S1x1x128_S16384x8x128_0_1_2 : (⟨S1x1x128, .f32⟩ : BufTy).Contents (Elt F) → (⟨S16384x8x128, .f32⟩ : BufTy).Contents (Elt F)),
    StableHlo.binary main_v46 main_v48 main_v49 (addf : (⟨S16384x8x128, .f32⟩ : BufTy).Contents (Elt F) → (⟨S16384x8x128, .f32⟩ : BufTy).Contents (Elt F) → (⟨S16384x8x128, .f32⟩ : BufTy).Contents (Elt F)),
    StableHlo.TRef.nullary main_call5.cst (constant S_ .f32 0x00000000#32),
    StableHlo.TRef.unary main_call5.cst main_call5.v0 (broadcastInDim S16384x8x128 ![] bcast_S_S16384x8x128),
    StableHlo.TRef.binary (.of main_v49 : StableHlo.TRef sig ⟨S16384x8x128, .f32⟩) main_call5.v0 main_call5.v1 maximumf ]

/-- The head: two rectified dense layers, the product with one column plus a constant, the maximum over the node axis. -/
abbrev opsH : List (HloOp τ sig (Elt F)) :=
  [ StableHlo.binary main_v50 main_arg7 main_v51 ((fun l r => Host.dotGeneral dot_S16384x8x128_S128x64_S16384x8x64_2_0_01_1_n_n none l r) : (⟨S16384x8x128, .f32⟩ : BufTy).Contents (Elt F) → (⟨S128x64, .f32⟩ : BufTy).Contents (Elt F) → (⟨S16384x8x64, .f32⟩ : BufTy).Contents (Elt F)),
    StableHlo.unary main_arg8 main_v52 (broadcastInDim S1x1x64 ![2] bcast_S64_S1x1x64_2 : (⟨S64, .f32⟩ : BufTy).Contents (Elt F) → (⟨S1x1x64, .f32⟩ : BufTy).Contents (Elt F)),
    StableHlo.unary main_v52 main_v53 (broadcastInDim S16384x8x64 ![0, 1, 2] bcast_S1x1x64_S16384x8x64_0_1_2 : (⟨S1x1x64, .f32⟩ : BufTy).Contents (Elt F) → (⟨S16384x8x64, .f32⟩ : BufTy).Contents (Elt F)),
    StableHlo.binary main_v51 main_v53 main_v54 (addf : (⟨S16384x8x64, .f32⟩ : BufTy).Contents (Elt F) → (⟨S16384x8x64, .f32⟩ : BufTy).Contents (Elt F) → (⟨S16384x8x64, .f32⟩ : BufTy).Contents (Elt F)),
    StableHlo.TRef.nullary main_call6.cst (constant S_ .f32 0x00000000#32),
    StableHlo.TRef.unary main_call6.cst main_call6.v0 (broadcastInDim S16384x8x64 ![] bcast_S_S16384x8x64),
    StableHlo.TRef.binary (.of main_v54 : StableHlo.TRef sig ⟨S16384x8x64, .f32⟩) main_call6.v0 main_call6.v1 maximumf,
    StableHlo.binary main_v55 main_arg9 main_v56 ((fun l r => Host.dotGeneral dot_S16384x8x64_S64x32_S16384x8x32_2_0_01_1_n_n none l r) : (⟨S16384x8x64, .f32⟩ : BufTy).Contents (Elt F) → (⟨S64x32, .f32⟩ : BufTy).Contents (Elt F) → (⟨S16384x8x32, .f32⟩ : BufTy).Contents (Elt F)),
    StableHlo.unary main_arg10 main_v57 (broadcastInDim S1x1x32 ![2] bcast_S32_S1x1x32_2 : (⟨S32, .f32⟩ : BufTy).Contents (Elt F) → (⟨S1x1x32, .f32⟩ : BufTy).Contents (Elt F)),
    StableHlo.unary main_v57 main_v58 (broadcastInDim S16384x8x32 ![0, 1, 2] bcast_S1x1x32_S16384x8x32_0_1_2 : (⟨S1x1x32, .f32⟩ : BufTy).Contents (Elt F) → (⟨S16384x8x32, .f32⟩ : BufTy).Contents (Elt F)),
    StableHlo.binary main_v56 main_v58 main_v59 (addf : (⟨S16384x8x32, .f32⟩ : BufTy).Contents (Elt F) → (⟨S16384x8x32, .f32⟩ : BufTy).Contents (Elt F) → (⟨S16384x8x32, .f32⟩ : BufTy).Contents (Elt F)),
    StableHlo.TRef.nullary main_call7.cst (constant S_ .f32 0x00000000#32),
    StableHlo.TRef.unary main_call7.cst main_call7.v0 (broadcastInDim S16384x8x32 ![] bcast_S_S16384x8x32),
    StableHlo.TRef.binary (.of main_v59 : StableHlo.TRef sig ⟨S16384x8x32, .f32⟩) main_call7.v0 main_call7.v1 maximumf,
    StableHlo.binary main_v60 main_arg11 main_v61 ((fun l r => Host.dotGeneral dot_S16384x8x32_S32x1_S16384x8x1_2_0_01_1_n_n none l r) : (⟨S16384x8x32, .f32⟩ : BufTy).Contents (Elt F) → (⟨S32x1, .f32⟩ : BufTy).Contents (Elt F) → (⟨S16384x8x1, .f32⟩ : BufTy).Contents (Elt F)),
    StableHlo.unary main_arg12 main_v62 (broadcastInDim S1x1x1 ![2] bcast_S1_S1x1x1_2 : (⟨S1, .f32⟩ : BufTy).Contents (Elt F) → (⟨S1x1x1, .f32⟩ : BufTy).Contents (Elt F)),
    StableHlo.unary main_v62 main_v63 (broadcastInDim S16384x8x1 ![0, 1, 2] bcast_S1x1x1_S16384x8x1_0_1_2 : (⟨S1x1x1, .f32⟩ : BufTy).Contents (Elt F) → (⟨S16384x8x1, .f32⟩ : BufTy).Contents (Elt F)),
    StableHlo.binary main_v61 main_v63 main_v64 (addf : (⟨S16384x8x1, .f32⟩ : BufTy).Contents (Elt F) → (⟨S16384x8x1, .f32⟩ : BufTy).Contents (Elt F) → (⟨S16384x8x1, .f32⟩ : BufTy).Contents (Elt F)),
    StableHlo.nullary main_cst_10 (constant S_ .f32 0xFF800000#32),
    StableHlo.binary main_v64 main_cst_10 main_v65 ((fun x v => Host.reduce FloatOps.maximumf x v reducesTo_S16384x8x1_S16384x1_d1 h_S_) : (⟨S16384x8x1, .f32⟩ : BufTy).Contents (Elt F) → (⟨S_, .f32⟩ : BufTy).Contents (Elt F) → (⟨S16384x1, .f32⟩ : BufTy).Contents (Elt F)) ]

/-- The operations of the first part of the program's text. -/
abbrev ops0 : List (HloOp τ sig (Elt F)) := opsT ++ (opsL1 ++ (opsL2 ++ opsL3a))
/-- The operations of the second part of the program's text. -/
abbrev ops1 : List (HloOp τ sig (Elt F)) := opsL3b ++ opsH
/-- All 155 operations, in order. -/
abbrev ops : List (HloOp τ sig (Elt F)) := ops0 ++ ops1

/-- Running two lines one after the other folds the second over the first's result. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The first part of the program is its operations in order: the called functions' definitions unfolded at the calls,
    both sides are one chain of steps once the sequencing is reassociated. -/
theorem main_part0_eq (c : Dev nD) : main_part0 (F := F) c = seq ops0 := by
  simp only [main_part0, fn_take.body, fn_take_0.body, fn_take_2.body, fn_where.body, fn_relu.body, fn_relu_1.body,
    ops0, opsT, opsL1, opsL2, opsL3a, seq_append, seq, bind_assoc, pure_bind]
  rfl

/-- The second part likewise. -/
theorem main_part1_eq (c : Dev nD) : main_part1 (F := F) c = seq ops1 := by
  simp only [main_part1, fn_relu.body, fn_relu_3.body, fn_relu_4.body, ops1, opsL3b, opsH, seq_append, seq, bind_assoc, pure_bind]

/-- The program is the whole line. -/
theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsT_sub : (opsT : List (HloOp τ sig (Elt F))).Forall fun op => op.bufs ⊆ tcRefs τ sig :=
  ⟨nullary_bufs_sub .., nullary_bufs_sub .., nullary_bufs_sub ..⟩
theorem opsT_fresh : (opsT : List (HloOp τ sig (Elt F))).Forall fun op => op.fresh = ∅ :=
  ⟨rfl, rfl, rfl⟩

theorem opsL1_sub : (opsL1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsL2_sub : (opsL2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsL3a_sub : (opsL3a : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub ..⟩
theorem opsL3a_fresh : (opsL3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsL3b_sub : (opsL3b : List (HloOp τ sig (Elt F))).Forall fun op => op.bufs ⊆ tcRefs τ sig :=
  ⟨unary_bufs_sub .., binary_bufs_sub .., nullary_bufs_sub .., unary_bufs_sub .., binary_bufs_sub ..⟩
theorem opsL3b_fresh : (opsL3b : List (HloOp τ sig (Elt F))).Forall fun op => op.fresh = ∅ :=
  ⟨rfl, rfl, rfl, rfl, rfl⟩

theorem opsH_sub : (opsH : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub ..⟩
theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Membership in the whole line is membership in one of the six stretches. -/
theorem mem_ops {op : HloOp τ sig (Elt F)} (h : op ∈ (ops : List (HloOp τ sig (Elt F)))) :
    op ∈ (opsT : List (HloOp τ sig (Elt F))) ∨ op ∈ (opsL1 : List (HloOp τ sig (Elt F))) ∨ op ∈ (opsL2 : List (HloOp τ sig (Elt F)))
      ∨ op ∈ (opsL3a : List (HloOp τ sig (Elt F))) ∨ op ∈ (opsL3b : List (HloOp τ sig (Elt F))) ∨ op ∈ (opsH : List (HloOp τ sig (Elt F))) := by
  rcases List.mem_append.mp h with h | h
  · rcases List.mem_append.mp h with h | h
    · exact .inl h
    rcases List.mem_append.mp h with h | h
    · exact .inr (.inl h)
    rcases List.mem_append.mp h with h | h
    · exact .inr (.inr (.inl h))
    · exact .inr (.inr (.inr (.inl h)))
  · rcases List.mem_append.mp h with h | h
    · exact .inr (.inr (.inr (.inr (.inl h))))
    · exact .inr (.inr (.inr (.inr (.inr h))))

theorem ops_sub : (ops : List (HloOp τ sig (Elt F))).Forall fun op => op.bufs ⊆ tcRefs τ sig :=
  List.forall_iff_forall_mem.mpr fun op h => by
    rcases mem_ops h with h | h | h | h | h | h
    exacts [List.forall_iff_forall_mem.mp opsT_sub op h, List.forall_iff_forall_mem.mp opsL1_sub op h,
      List.forall_iff_forall_mem.mp opsL2_sub op h, List.forall_iff_forall_mem.mp opsL3a_sub op h,
      List.forall_iff_forall_mem.mp opsL3b_sub op h, List.forall_iff_forall_mem.mp opsH_sub op h]

theorem ops_fresh : ∀ op ∈ (ops : List (HloOp τ sig (Elt F))), op.fresh = ∅ := fun op h => by
  rcases mem_ops h with h | h | h | h | h | h
  exacts [List.forall_iff_forall_mem.mp opsT_fresh op h, List.forall_iff_forall_mem.mp opsL1_fresh op h,
    List.forall_iff_forall_mem.mp opsL2_fresh op h, List.forall_iff_forall_mem.mp opsL3a_fresh op h,
    List.forall_iff_forall_mem.mp opsL3b_fresh op h, List.forall_iff_forall_mem.mp opsH_fresh op h]

/-- From any memory with zero counters every weakly fair execution of @main terminates, and every final state has each
    buffer at the fold of the operations' results over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The whole line's fold is the six stretches' folds in order. -/
theorem after_ops (V : Valuation τ sig (Elt F)) :
    after ops V = after opsH (after opsL3b (after opsL3a (after opsL2 (after opsL1 (after opsT V))))) := by
  simp only [ops, ops0, ops1, after_append']

end Cert.ReferenceIdeal.RefRun

end
-- ==== Proof.RefTerm.lean ====
/-
  The reference's @main as ONE pure function of its argument arrays: each host operation's function applied to the terms
  of its operands, in the order the program lists them, the bodies of the functions it calls written in place. The run
  of the program ends with its result array at this term; the value proof reads this term at an index.

  The program has three graph layers (a product with the weights, rows gathered by each edge's source node, scaled by the
  edge's weight, added into zero at each edge's destination node, a bias, the rectifier), two rectified dense layers, a
  product with one column plus a constant, and a maximum over the node axis.
-/
import proofs.«129694_g13082470383675_cont_sun_m_1195_7_alg».proof.ReferenceIdeal
import Idealize.ShloMosaic.PureOps.Ideal

noncomputable section

namespace Cert.ReferenceIdeal.RefTerm

open Idealize.ShloMosaic Cert.ReferenceIdeal
open Cert.ReferenceIdeal.Facts₀ Cert.ReferenceIdeal.Facts

variable {F : FTy → Type} [FloatOps F] [Facts]

/-- The table of source nodes, one word per edge. -/
def srcWords : IVec S34 32 := fun i => lit0 (S34.rowMajor i)

/-- The table of edge weights. -/
def normWords : FVec F S34 .f32 := fun i => FloatOps.ofBits .f32 (lit1 (S34.rowMajor i))

/-- The table of destination nodes, one word per edge. -/
def dstWords : IVec S34 32 := fun i => lit2 (S34.rowMajor i)

/-- A table of positions with every negative one moved up by 8. -/
def wrapped (idx : IVec S34 32) : IVec S34 32 :=
  select (cmpi .slt idx (broadcastInDim S34 ![] bcast_S_S34 (constantI S_ 32 0#32)))
    (addi idx (broadcastInDim S34 ![] bcast_S_S34 (constantI S_ 32 8#32))) idx

/-- A table as a column. -/
def column (idx : IVec S34 32) : IVec S34x1 32 := broadcastInDim S34x1 ![0] bcast_S34_S34x1_0 idx

/-- Per table entry: is the position between 0 and 7. -/
def inRange (idx : IVec S34 32) : IVec S34 1 :=
  Host.reduce IntOp.andi
    (andi (cmpi .sge (column idx) (broadcastInDim S34x1 ![] bcast_S_S34x1 (constantI S_ 32 0#32)))
      (cmpi .sle (column idx)
        (broadcastInDim S34x1 ![0, 1] bcast_S1x1_S34x1_0_1 (broadcastInDim S1x1 ![1] bcast_S1_S1x1_1 (constantI S1 32 7#32)))))
    (constantI S_ 1 1#1) reducesTo_S34x1_S34_d1 h_S_

/-- The rows the table picks out of the middle axis of an array with 64 channels: negative positions wrapped by 8, the rows
    gathered, and every gathered row replaced by the fill word where its position is outside 0 … 7. -/
def take64 (x : FVec F S16384x8x64 .f32) (idx : IVec S34 32) : FVec F S16384x34x64 .f32 :=
  select (broadcastInDim S16384x34x64 ![1] bcast_S34_S16384x34x64_1 (inRange (wrapped idx)))
    (Host.gather gather_S16384x8x64_S34x1_S16384x34x64_02_1_n_n_1_1_16384164 x (column (wrapped idx)))
    (broadcastInDim S16384x34x64 ![] bcast_S_S16384x34x64 (constant S_ .f32 0x7FC00000#32))

/-- The rectifier on an array with 64 channels. -/
def relu64 (x : FVec F S16384x8x64 .f32) : FVec F S16384x8x64 .f32 :=
  maximumf x (broadcastInDim S16384x8x64 ![] bcast_S_S16384x8x64 (constant S_ .f32 0x00000000#32))

/-- Rows gathered by source node, weighted per edge, and added into zero at the destination nodes; then the bias; 64 channels. -/
def spread64 (h : FVec F S16384x8x64 .f32) (b : FVec F S64 .f32) : FVec F S16384x8x64 .f32 :=
  addf
    (Host.scatterAdd scatter_S16384x8x64_S34x1_S16384x34x64_02_1_1_1
      (broadcastInDim S16384x8x64 ![] bcast_S_S16384x8x64 (constant S_ .f32 0x00000000#32))
      (column (wrapped dstWords))
      (mulf (take64 h srcWords)
        (broadcastInDim S16384x34x64 ![0, 1, 2] bcast_S1x34x1_S16384x34x64_0_1_2
          (broadcastInDim S1x34x1 ![1] bcast_S34_S1x34x1_1 normWords))))
    (broadcastInDim S16384x8x64 ![0, 1, 2] bcast_S1x1x64_S16384x8x64_0_1_2 (broadcastInDim S1x1x64 ![2] bcast_S64_S1x1x64_2 b))

/-- The rows the table picks out of the middle axis of an array with 96 channels: negative positions wrapped by 8, the rows
    gathered, and every gathered row replaced by the fill word where its position is outside 0 … 7. -/
def take96 (x : FVec F S16384x8x96 .f32) (idx : IVec S34 32) : FVec F S16384x34x96 .f32 :=
  select (broadcastInDim S16384x34x96 ![1] bcast_S34_S16384x34x96_1 (inRange (wrapped idx)))
    (Host.gather gather_S16384x8x96_S34x1_S16384x34x96_02_1_n_n_1_1_16384196 x (column (wrapped idx)))
    (broadcastInDim S16384x34x96 ![] bcast_S_S16384x34x96 (constant S_ .f32 0x7FC00000#32))

/-- The rectifier on an array with 96 channels. -/
def relu96 (x : FVec F S16384x8x96 .f32) : FVec F S16384x8x96 .f32 :=
  maximumf x (broadcastInDim S16384x8x96 ![] bcast_S_S16384x8x96 (constant S_ .f32 0x00000000#32))

/-- Rows gathered by source node, weighted per edge, and added into zero at the destination nodes; then the bias; 96 channels. -/
def spread96 (h : FVec F S16384x8x96 .f32) (b : FVec F S96 .f32) : FVec F S16384x8x96 .f32 :=
  addf
    (Host.scatterAdd scatter_S16384x8x96_S34x1_S16384x34x96_02_1_1_1
      (broadcastInDim S16384x8x96 ![] bcast_S_S16384x8x96 (constant S_ .f32 0x00000000#32))
      (column (wrapped dstWords))
      (mulf (take96 h srcWords)
        (broadcastInDim S16384x34x96 ![0, 1, 2] bcast_S1x34x1_S16384x34x96_0_1_2
          (broadcastInDim S1x34x1 ![1] bcast_S34_S1x34x1_1 normWords))))
    (broadcastInDim S16384x8x96 ![0, 1, 2] bcast_S1x1x96_S16384x8x96_0_1_2 (broadcastInDim S1x1x96 ![2] bcast_S96_S1x1x96_2 b))

/-- The rows the table picks out of the middle axis of an array with 128 channels: negative positions wrapped by 8, the rows
    gathered, and every gathered row replaced by the fill word where its position is outside 0 … 7. -/
def take128 (x : FVec F S16384x8x128 .f32) (idx : IVec S34 32) : FVec F S16384x34x128 .f32 :=
  select (broadcastInDim S16384x34x128 ![1] bcast_S34_S16384x34x128_1 (inRange (wrapped idx)))
    (Host.gather gather_S16384x8x128_S34x1_S16384x34x128_02_1_n_n_1_1_163841128 x (column (wrapped idx)))
    (broadcastInDim S16384x34x128 ![] bcast_S_S16384x34x128 (constant S_ .f32 0x7FC00000#32))

/-- The rectifier on an array with 128 channels. -/
def relu128 (x : FVec F S16384x8x128 .f32) : FVec F S16384x8x128 .f32 :=
  maximumf x (broadcastInDim S16384x8x128 ![] bcast_S_S16384x8x128 (constant S_ .f32 0x00000000#32))

/-- Rows gathered by source node, weighted per edge, and added into zero at the destination nodes; then the bias; 128 channels. -/
def spread128 (h : FVec F S16384x8x128 .f32) (b : FVec F S128 .f32) : FVec F S16384x8x128 .f32 :=
  addf
    (Host.scatterAdd scatter_S16384x8x128_S34x1_S16384x34x128_02_1_1_1
      (broadcastInDim S16384x8x128 ![] bcast_S_S16384x8x128 (constant S_ .f32 0x00000000#32))
      (column (wrapped dstWords))
      (mulf (take128 h srcWords)
        (broadcastInDim S16384x34x128 ![0, 1, 2] bcast_S1x34x1_S16384x34x128_0_1_2
          (broadcastInDim S1x34x1 ![1] bcast_S34_S1x34x1_1 normWords))))
    (broadcastInDim S16384x8x128 ![0, 1, 2] bcast_S1x1x128_S16384x8x128_0_1_2 (broadcastInDim S1x1x128 ![2] bcast_S128_S1x1x128_2 b))

/-- The rectifier on an array with 32 channels. -/
def relu32 (x : FVec F S16384x8x32 .f32) : FVec F S16384x8x32 .f32 :=
  maximumf x (broadcastInDim S16384x8x32 ![] bcast_S_S16384x8x32 (constant S_ .f32 0x00000000#32))

/-- The three graph layers. -/
def graphLayers (a0 : FVec F S16384x8x128 .f32) (a1 : FVec F S128x64 .f32) (a2 : FVec F S64 .f32) (a3 : FVec F S64x96 .f32)
    (a4 : FVec F S96 .f32) (a5 : FVec F S96x128 .f32) (a6 : FVec F S128 .f32) : FVec F S16384x8x128 .f32 :=
  relu128 (spread128 (Host.dotGeneral dot_S16384x8x96_S96x128_S16384x8x128_2_0_01_1_n_n none
    (relu96 (spread96 (Host.dotGeneral dot_S16384x8x64_S64x96_S16384x8x96_2_0_01_1_n_n none
      (relu64 (spread64 (Host.dotGeneral dot_S16384x8x128_S128x64_S16384x8x64_2_0_01_1_n_n none a0 a1) a2)) a3) a4)) a5) a6)

/-- The head: two rectified dense layers, the product with one column plus a constant, the maximum over the nodes. -/
def headOf (h : FVec F S16384x8x128 .f32) (a7 : FVec F S128x64 .f32) (a8 : FVec F S64 .f32) (a9 : FVec F S64x32 .f32)
    (a10 : FVec F S32 .f32) (a11 : FVec F S32x1 .f32) (a12 : FVec F S1 .f32) : FVec F S16384x1 .f32 :=
  Host.reduce FloatOps.maximumf
    (addf (Host.dotGeneral dot_S16384x8x32_S32x1_S16384x8x1_2_0_01_1_n_n none
        (relu32 (addf (Host.dotGeneral dot_S16384x8x64_S64x32_S16384x8x32_2_0_01_1_n_n none
            (relu64 (addf (Host.dotGeneral dot_S16384x8x128_S128x64_S16384x8x64_2_0_01_1_n_n none h a7)
              (broadcastInDim S16384x8x64 ![0, 1, 2] bcast_S1x1x64_S16384x8x64_0_1_2 (broadcastInDim S1x1x64 ![2] bcast_S64_S1x1x64_2 a8))))
            a9)
          (broadcastInDim S16384x8x32 ![0, 1, 2] bcast_S1x1x32_S16384x8x32_0_1_2 (broadcastInDim S1x1x32 ![2] bcast_S32_S1x1x32_2 a10))))
        a11)
      (broadcastInDim S16384x8x1 ![0, 1, 2] bcast_S1x1x1_S16384x8x1_0_1_2 (broadcastInDim S1x1x1 ![2] bcast_S1_S1x1x1_2 a12)))
    (constant S_ .f32 0xFF800000#32) reducesTo_S16384x8x1_S16384x1_d1 h_S_

/-- The reference's result array as a function of its thirteen argument arrays. -/
def out (a0 : FVec F S16384x8x128 .f32) (a1 : FVec F S128x64 .f32) (a2 : FVec F S64 .f32) (a3 : FVec F S64x96 .f32)
    (a4 : FVec F S96 .f32) (a5 : FVec F S96x128 .f32) (a6 : FVec F S128 .f32) (a7 : FVec F S128x64 .f32) (a8 : FVec F S64 .f32)
    (a9 : FVec F S64x32 .f32) (a10 : FVec F S32 .f32) (a11 : FVec F S32x1 .f32) (a12 : FVec F S1 .f32) : FVec F S16384x1 .f32 :=
  headOf (graphLayers a0 a1 a2 a3 a4 a5 a6) a7 a8 a9 a10 a11 a12

end Cert.ReferenceIdeal.RefTerm

end
-- ==== Proof.RefRunTerms.lean ====
/-
  The spreading step of a graph layer stated over any three edge tables (source node, weight, destination node): the run of
  one layer's operations gives this term at whatever the table buffers hold, and the reference's own term is it at the
  program's constant tables.
-/
import proofs.«129694_g13082470383675_cont_sun_m_1195_7_alg».proof.Proof.RefTerm

noncomputable section

namespace Cert.ReferenceIdeal.RefRun

open Idealize.ShloMosaic Cert.ReferenceIdeal
open Cert.ReferenceIdeal.Facts₀ Cert.ReferenceIdeal.Facts

variable {F : FTy → Type} [FloatOps F] [Facts]

/-- One graph layer's spreading step with 64 channels over ANY three edge tables: rows gathered by source node, weighted per
    edge, added into zero at the destination nodes, then the bias. -/
def spreadG64 (src : IVec S34 32) (nw : FVec F S34 .f32) (dst : IVec S34 32) (h : FVec F S16384x8x64 .f32) (b : FVec F S64 .f32) :
    FVec F S16384x8x64 .f32 :=
  addf
    (Host.scatterAdd scatter_S16384x8x64_S34x1_S16384x34x64_02_1_1_1
      (broadcastInDim S16384x8x64 ![] bcast_S_S16384x8x64 (constant S_ .f32 0x00000000#32))
      (RefTerm.column (RefTerm.wrapped dst))
      (mulf (RefTerm.take64 h src)
        (broadcastInDim S16384x34x64 ![0, 1, 2] bcast_S1x34x1_S16384x34x64_0_1_2
          (broadcastInDim S1x34x1 ![1] bcast_S34_S1x34x1_1 nw))))
    (broadcastInDim S16384x8x64 ![0, 1, 2] bcast_S1x1x64_S16384x8x64_0_1_2 (broadcastInDim S1x1x64 ![2] bcast_S64_S1x1x64_2 b))

/-- The reference's spreading step is that one at the program's three tables. -/
theorem spread64_eq (h : FVec F S16384x8x64 .f32) (b : FVec F S64 .f32) :
    RefTerm.spread64 h b = spreadG64 RefTerm.srcWords RefTerm.normWords RefTerm.dstWords h b := rfl

/-- One graph layer's spreading step with 96 channels over ANY three edge tables: rows gathered by source node, weighted per
    edge, added into zero at the destination nodes, then the bias. -/
def spreadG96 (src : IVec S34 32) (nw : FVec F S34 .f32) (dst : IVec S34 32) (h : FVec F S16384x8x96 .f32) (b : FVec F S96 .f32) :
    FVec F S16384x8x96 .f32 :=
  addf
    (Host.scatterAdd scatter_S16384x8x96_S34x1_S16384x34x96_02_1_1_1
      (broadcastInDim S16384x8x96 ![] bcast_S_S16384x8x96 (constant S_ .f32 0x00000000#32))
      (RefTerm.column (RefTerm.wrapped dst))
      (mulf (RefTerm.take96 h src)
        (broadcastInDim S16384x34x96 ![0, 1, 2] bcast_S1x34x1_S16384x34x96_0_1_2
          (broadcastInDim S1x34x1 ![1] bcast_S34_S1x34x1_1 nw))))
    (broadcastInDim S16384x8x96 ![0, 1, 2] bcast_S1x1x96_S16384x8x96_0_1_2 (broadcastInDim S1x1x96 ![2] bcast_S96_S1x1x96_2 b))

/-- The reference's spreading step is that one at the program's three tables. -/
theorem spread96_eq (h : FVec F S16384x8x96 .f32) (b : FVec F S96 .f32) :
    RefTerm.spread96 h b = spreadG96 RefTerm.srcWords RefTerm.normWords RefTerm.dstWords h b := rfl

/-- One graph layer's spreading step with 128 channels over ANY three edge tables: rows gathered by source node, weighted per
    edge, added into zero at the destination nodes, then the bias. -/
def spreadG128 (src : IVec S34 32) (nw : FVec F S34 .f32) (dst : IVec S34 32) (h : FVec F S16384x8x128 .f32) (b : FVec F S128 .f32) :
    FVec F S16384x8x128 .f32 :=
  addf
    (Host.scatterAdd scatter_S16384x8x128_S34x1_S16384x34x128_02_1_1_1
      (broadcastInDim S16384x8x128 ![] bcast_S_S16384x8x128 (constant S_ .f32 0x00000000#32))
      (RefTerm.column (RefTerm.wrapped dst))
      (mulf (RefTerm.take128 h src)
        (broadcastInDim S16384x34x128 ![0, 1, 2] bcast_S1x34x1_S16384x34x128_0_1_2
          (broadcastInDim S1x34x1 ![1] bcast_S34_S1x34x1_1 nw))))
    (broadcastInDim S16384x8x128 ![0, 1, 2] bcast_S1x1x128_S16384x8x128_0_1_2 (broadcastInDim S1x1x128 ![2] bcast_S128_S1x1x128_2 b))

/-- The reference's spreading step is that one at the program's three tables. -/
theorem spread128_eq (h : FVec F S16384x8x128 .f32) (b : FVec F S128 .f32) :
    RefTerm.spread128 h b = spreadG128 RefTerm.srcWords RefTerm.normWords RefTerm.dstWords h b := rfl

end Cert.ReferenceIdeal.RefRun

end
-- ==== Proof.RefRunT.lean ====
/-
  The first stretch of the reference's operations, the three constant tables: from any contents of the buffers, each table
  buffer ends at its table (source node, weight and destination node of each of the 34 edges); a buffer the stretch
  does not write keeps its contents.
-/
import proofs.«129694_g13082470383675_cont_sun_m_1195_7_alg».proof.Proof.RefRunOps
import proofs.«129694_g13082470383675_cont_sun_m_1195_7_alg».proof.Proof.RefRunTerms

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The buffers the stretch's operations write. -/
abbrev opsT_W : List (Ref sig .tc) := [main_c, main_cst, main_c_0]
theorem opsT_writes : (opsT : List (HloOp τ sig (Elt F))).Forall fun op => op.writes ⊆ (opsT_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem T_keep (V : Valuation τ sig (Elt F)) (r : Ref sig .tc) (h : r ∉ opsT_W) :
    after opsT V (Proc.devRef .tc r) = V (Proc.devRef .tc r) :=
  after_of_writes_sub opsT V opsT_writes h

/-- The table of source nodes. -/
theorem T_c (V : Valuation τ sig (Elt F)) : after opsT V (main_c : DevRef τ sig) = RefTerm.srcWords := by
  after_results_simp <;> rfl
/-- The table of edge weights. -/
theorem T_cst (V : Valuation τ sig (Elt F)) : after opsT V (main_cst : DevRef τ sig) = (RefTerm.normWords : FVec F S34 .f32) := by
  after_results_simp <;> rfl
/-- The table of destination nodes. -/
theorem T_c_0 (V : Valuation τ sig (Elt F)) : after opsT V (main_c_0 : DevRef τ sig) = RefTerm.dstWords := by
  after_results_simp <;> rfl

end Cert.ReferenceIdeal.RefRun

end
-- ==== Proof.RefRunL1.lean ====
/-
  One graph layer's stretch of the reference's operations (64 channels): from ANY contents of the buffers, the layer's
  result buffer ends at the rectified spreading step of the product of the layer's input with its weights, at whatever
  the three table buffers hold; a buffer the stretch does not write keeps its contents.
-/
import proofs.«129694_g13082470383675_cont_sun_m_1195_7_alg».proof.Proof.RefRunOps
import proofs.«129694_g13082470383675_cont_sun_m_1195_7_alg».proof.Proof.RefRunTerms

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The buffers the stretch's operations write. -/
abbrev opsL1_W : List (Ref sig .tc) := [main_v0, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v1, main_v2, main_v3, main_v4, main_cst_1, main_v5, main_c_2, main_v6, main_v7, main_c_3, main_v8, main_v9, main_v10, main_v11, main_v12, main_v13, main_v14, main_v15, main_call1_cst, main_call1_v0, main_v16]
theorem opsL1_writes : (opsL1 : List (HloOp τ sig (Elt F))).Forall fun op => op.writes ⊆ (opsL1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem L1_keep (V : Valuation τ sig (Elt F)) (r : Ref sig .tc) (h : r ∉ opsL1_W) :
    after opsL1 V (Proc.devRef .tc r) = V (Proc.devRef .tc r) :=
  after_of_writes_sub opsL1 V opsL1_writes h

attribute [local irreducible] Host.gather Host.scatterAdd Host.reduce in
set_option maxHeartbeats 4000000 in
/-- The layer's result: each operation's result read at its own buffer, every other buffer as it was. -/
theorem L1_main_v16 (V : Valuation τ sig (Elt F)) :
    after opsL1 V (main_v16 : DevRef τ sig)
      = RefTerm.relu64 (spreadG64 (V (main_c : DevRef τ sig)) (V (main_cst : DevRef τ sig)) (V (main_c_0 : DevRef τ sig))
          (Host.dotGeneral dot_S16384x8x128_S128x64_S16384x8x64_2_0_01_1_n_n none (V (main_arg0 : DevRef τ sig)) (V (main_arg1 : DevRef τ sig)))
          (V (main_arg2 : DevRef τ sig))) := by
  after_results_simp
  rfl

end Cert.ReferenceIdeal.RefRun

end
-- ==== Proof.RefRunL2.lean ====
/-
  One graph layer's stretch of the reference's operations (96 channels): from ANY contents of the buffers, the layer's
  result buffer ends at the rectified spreading step of the product of the layer's input with its weights, at whatever
  the three table buffers hold; a buffer the stretch does not write keeps its contents.
-/
import proofs.«129694_g13082470383675_cont_sun_m_1195_7_alg».proof.Proof.RefRunOps
import proofs.«129694_g13082470383675_cont_sun_m_1195_7_alg».proof.Proof.RefRunTerms

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The buffers the stretch's operations write. -/
abbrev opsL2_W : List (Ref sig .tc) := [main_v17, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v18, main_v19, main_v20, main_v21, main_cst_4, main_v22, main_c_5, main_v23, main_v24, main_c_6, main_v25, main_v26, main_v27, main_v28, main_v29, main_v30, main_v31, main_v32, main_call3_cst, main_call3_v0, main_v33]
theorem opsL2_writes : (opsL2 : List (HloOp τ sig (Elt F))).Forall fun op => op.writes ⊆ (opsL2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem L2_keep (V : Valuation τ sig (Elt F)) (r : Ref sig .tc) (h : r ∉ opsL2_W) :
    after opsL2 V (Proc.devRef .tc r) = V (Proc.devRef .tc r) :=
  after_of_writes_sub opsL2 V opsL2_writes h

attribute [local irreducible] Host.gather Host.scatterAdd Host.reduce in
set_option maxHeartbeats 4000000 in
/-- The layer's result: each operation's result read at its own buffer, every other buffer as it was. -/
theorem L2_main_v33 (V : Valuation τ sig (Elt F)) :
    after opsL2 V (main_v33 : DevRef τ sig)
      = RefTerm.relu96 (spreadG96 (V (main_c : DevRef τ sig)) (V (main_cst : DevRef τ sig)) (V (main_c_0 : DevRef τ sig))
          (Host.dotGeneral dot_S16384x8x64_S64x96_S16384x8x96_2_0_01_1_n_n none (V (main_v16 : DevRef τ sig)) (V (main_arg3 : DevRef τ sig)))
          (V (main_arg4 : DevRef τ sig))) := by
  after_results_simp
  rfl

end Cert.ReferenceIdeal.RefRun

end
-- ==== Proof.RefRunL3.lean ====
/-
  One graph layer's stretch of the reference's operations (128 channels): from ANY contents of the buffers, the layer's
  result buffer ends at the rectified spreading step of the product of the layer's input with its weights, at whatever
  the three table buffers hold; a buffer the stretch does not write keeps its contents.
-/
import proofs.«129694_g13082470383675_cont_sun_m_1195_7_alg».proof.Proof.RefRunOps
import proofs.«129694_g13082470383675_cont_sun_m_1195_7_alg».proof.Proof.RefRunTerms

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The buffers the stretch's operations write. -/
abbrev opsL3a_W : List (Ref sig .tc) := [main_v34, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v35, main_v36, main_v37, main_v38, main_cst_7, main_v39, main_c_8, main_v40, main_v41, main_c_9, main_v42, main_v43, main_v44, main_v45, main_v46, main_v47]
theorem opsL3a_writes : (opsL3a : List (HloOp τ sig (Elt F))).Forall fun op => op.writes ⊆ (opsL3a_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the stretch's operations write. -/
abbrev opsL3b_W : List (Ref sig .tc) := [main_v48, main_v49, main_call5_cst, main_call5_v0, main_v50]
theorem opsL3b_writes : (opsL3b : List (HloOp τ sig (Elt F))).Forall fun op => op.writes ⊆ (opsL3b_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer neither piece writes keeps its contents through both. -/
theorem L3_keep (V : Valuation τ sig (Elt F)) (r : Ref sig .tc) (ha : r ∉ opsL3a_W) (hb : r ∉ opsL3b_W) :
    after opsL3b (after opsL3a V) (Proc.devRef .tc r) = V (Proc.devRef .tc r) :=
  (after_of_writes_sub opsL3b _ opsL3b_writes hb).trans (after_of_writes_sub opsL3a V opsL3a_writes ha)

attribute [local irreducible] Host.gather Host.scatterAdd Host.reduce in
set_option maxHeartbeats 4000000 in
/-- The layer's result: each operation's result read at its own buffer, every other buffer as it was. -/
theorem L3_main_v50 (V : Valuation τ sig (Elt F)) :
    after opsL3b (after opsL3a V) (main_v50 : DevRef τ sig)
      = RefTerm.relu128 (spreadG128 (V (main_c : DevRef τ sig)) (V (main_cst : DevRef τ sig)) (V (main_c_0 : DevRef τ sig))
          (Host.dotGeneral dot_S16384x8x96_S96x128_S16384x8x128_2_0_01_1_n_n none (V (main_v33 : DevRef τ sig)) (V (main_arg5 : DevRef τ sig)))
          (V (main_arg6 : DevRef τ sig))) := by
  after_results_simp
  rfl

end Cert.ReferenceIdeal.RefRun

end
-- ==== Proof.RefRunH.lean ====
/-
  The last stretch of the reference's operations, the head: from any contents of the buffers, the result buffer ends at
  the head's term (two rectified dense layers, the product with one column plus a constant, the maximum over the node
  axis) of what the third layer's result buffer and the six head argument buffers hold; a buffer the stretch does not
  write keeps its contents.
-/
import proofs.«129694_g13082470383675_cont_sun_m_1195_7_alg».proof.Proof.RefRunOps
import proofs.«129694_g13082470383675_cont_sun_m_1195_7_alg».proof.Proof.RefRunTerms

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The buffers the stretch's operations write. -/
abbrev opsH_W : List (Ref sig .tc) := [main_v51, main_v52, main_v53, main_v54, main_call6_cst, main_call6_v0, main_v55, main_v56, main_v57, main_v58, main_v59, main_call7_cst, main_call7_v0, main_v60, main_v61, main_v62, main_v63, main_v64, main_cst_10, main_v65]
theorem opsH_writes : (opsH : List (HloOp τ sig (Elt F))).Forall fun op => op.writes ⊆ (opsH_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem H_keep (V : Valuation τ sig (Elt F)) (r : Ref sig .tc) (h : r ∉ opsH_W) :
    after opsH V (Proc.devRef .tc r) = V (Proc.devRef .tc r) :=
  after_of_writes_sub opsH V opsH_writes h

attribute [local irreducible] Host.gather Host.scatterAdd Host.reduce in
set_option maxHeartbeats 4000000 in
/-- The head's result: each operation's result read at its own buffer, every other buffer as it was. -/
theorem H_main_v65 (V : Valuation τ sig (Elt F)) :
    after opsH V (main_v65 : DevRef τ sig)
      = RefTerm.headOf (V (main_v50 : DevRef τ sig)) (V (main_arg7 : DevRef τ sig)) (V (main_arg8 : DevRef τ sig))
          (V (main_arg9 : DevRef τ sig)) (V (main_arg10 : DevRef τ sig)) (V (main_arg11 : DevRef τ sig)) (V (main_arg12 : DevRef τ sig)) := by
  after_results_simp
  rfl

end Cert.ReferenceIdeal.RefRun

end
-- ==== Proof.RefRun.lean ====
/-
  The reference program's run: from any memory with zero counters every weakly fair execution of @main terminates with
  the result buffer at the reference's term of the thirteen argument arrays (RefTerm.out) and the arguments unchanged.
  The whole line's fold is the six stretches' folds in order; each stretch's result is read off at whatever the buffers it
  reads hold, and the buffers a stretch does not write pass through it, so the result composes stretch by stretch down to
  the launch contents.
-/
import proofs.«129694_g13082470383675_cont_sun_m_1195_7_alg».proof.Proof.RefRunOps
import proofs.«129694_g13082470383675_cont_sun_m_1195_7_alg».proof.Proof.RefRunTerms
import proofs.«129694_g13082470383675_cont_sun_m_1195_7_alg».proof.Proof.RefRunT
import proofs.«129694_g13082470383675_cont_sun_m_1195_7_alg».proof.Proof.RefRunL1
import proofs.«129694_g13082470383675_cont_sun_m_1195_7_alg».proof.Proof.RefRunL2
import proofs.«129694_g13082470383675_cont_sun_m_1195_7_alg».proof.Proof.RefRunL3
import proofs.«129694_g13082470383675_cont_sun_m_1195_7_alg».proof.Proof.RefRunH
import proofs.«129694_g13082470383675_cont_sun_m_1195_7_alg».proof.Proof.RefTerm

noncomputable section

namespace Cert.ReferenceIdeal.RefRun

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The result buffer after the whole line, from any contents: the reference's term of the argument buffers' contents. -/
theorem out_eq (V : Valuation τ sig (Elt F)) :
    after ops V (main_v65 : DevRef τ sig)
      = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops, H_main_v65]
  rw [L3_main_v50, L3_keep _ main_arg7 (by decide) (by decide), L3_keep _ main_arg8 (by decide) (by decide), L3_keep _ main_arg9 (by decide) (by decide), L3_keep _ main_arg10 (by decide) (by decide), L3_keep _ main_arg11 (by decide) (by decide), L3_keep _ main_arg12 (by decide) (by decide)]
  rw [L2_main_v33, L2_keep _ main_c (by decide), L2_keep _ main_cst (by decide), L2_keep _ main_c_0 (by decide), L2_keep _ main_arg5 (by decide), L2_keep _ main_arg6 (by decide), L2_keep _ main_arg7 (by decide), L2_keep _ main_arg8 (by decide), L2_keep _ main_arg9 (by decide), L2_keep _ main_arg10 (by decide), L2_keep _ main_arg11 (by decide), L2_keep _ main_arg12 (by decide)]
  rw [L1_main_v16, L1_keep _ main_c (by decide), L1_keep _ main_cst (by decide), L1_keep _ main_c_0 (by decide), L1_keep _ main_arg3 (by decide), L1_keep _ main_arg4 (by decide), L1_keep _ main_arg5 (by decide), L1_keep _ main_arg6 (by decide), L1_keep _ main_arg7 (by decide), L1_keep _ main_arg8 (by decide), L1_keep _ main_arg9 (by decide), L1_keep _ main_arg10 (by decide), L1_keep _ main_arg11 (by decide), L1_keep _ main_arg12 (by decide)]
  rw [T_c, T_cst, T_c_0, T_keep _ main_arg0 (by decide), T_keep _ main_arg1 (by decide), T_keep _ main_arg2 (by decide), T_keep _ main_arg3 (by decide), T_keep _ main_arg4 (by decide), T_keep _ main_arg5 (by decide), T_keep _ main_arg6 (by decide), T_keep _ main_arg7 (by decide), T_keep _ main_arg8 (by decide), T_keep _ main_arg9 (by decide), T_keep _ main_arg10 (by decide), T_keep _ main_arg11 (by decide), T_keep _ main_arg12 (by decide)]
  simp only [RefTerm.out, RefTerm.graphLayers, spread64_eq, spread96_eq, spread128_eq]

/-- A buffer no stretch writes holds after the whole line what it held before. -/
theorem arg_keep (V : Valuation τ sig (Elt F)) (r : Ref sig .tc) (hT : r ∉ opsT_W) (h1 : r ∉ opsL1_W) (h2 : r ∉ opsL2_W)
    (h3a : r ∉ opsL3a_W) (h3b : r ∉ opsL3b_W) (hH : r ∉ opsH_W) :
    after ops V (Proc.devRef .tc r) = V (Proc.devRef .tc r) := by
  rw [after_ops, H_keep _ r hH, L3_keep _ r h3a h3b, L2_keep _ r h2, L1_keep _ r h1, T_keep _ r hT]

/-- On every device, for any float values, from any memory with zero counters: every weakly fair execution of @main
    terminates with the result at the reference's term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v65)
          = RefTerm.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v65).trans (out_eq (launchContents m c)),
      (h c main_arg0).trans (arg_keep (launchContents m c) main_arg0 (by decide) (by decide) (by decide) (by decide) (by decide) (by decide)),
      (h c main_arg1).trans (arg_keep (launchContents m c) main_arg1 (by decide) (by decide) (by decide) (by decide) (by decide) (by decide)),
      (h c main_arg2).trans (arg_keep (launchContents m c) main_arg2 (by decide) (by decide) (by decide) (by decide) (by decide) (by decide)),
      (h c main_arg3).trans (arg_keep (launchContents m c) main_arg3 (by decide) (by decide) (by decide) (by decide) (by decide) (by decide)),
      (h c main_arg4).trans (arg_keep (launchContents m c) main_arg4 (by decide) (by decide) (by decide) (by decide) (by decide) (by decide)),
      (h c main_arg5).trans (arg_keep (launchContents m c) main_arg5 (by decide) (by decide) (by decide) (by decide) (by decide) (by decide)),
      (h c main_arg6).trans (arg_keep (launchContents m c) main_arg6 (by decide) (by decide) (by decide) (by decide) (by decide) (by decide)),
      (h c main_arg7).trans (arg_keep (launchContents m c) main_arg7 (by decide) (by decide) (by decide) (by decide) (by decide) (by decide)),
      (h c main_arg8).trans (arg_keep (launchContents m c) main_arg8 (by decide) (by decide) (by decide) (by decide) (by decide) (by decide)),
      (h c main_arg9).trans (arg_keep (launchContents m c) main_arg9 (by decide) (by decide) (by decide) (by decide) (by decide) (by decide)),
      (h c main_arg10).trans (arg_keep (launchContents m c) main_arg10 (by decide) (by decide) (by decide) (by decide) (by decide) (by decide)),
      (h c main_arg11).trans (arg_keep (launchContents m c) main_arg11 (by decide) (by decide) (by decide) (by decide) (by decide) (by decide)),
      (h c main_arg12).trans (arg_keep (launchContents m c) main_arg12 (by decide) (by decide) (by decide) (by decide) (by decide) (by decide))⟩)
    (run_main m ρ)

end Cert.ReferenceIdeal.RefRun

end
-- ==== Proof.RefTables.lean ====
/-
  The reference's three edge tables read at an edge.

  The table of source nodes and the table of destination nodes hold no negative entry, so moving negative positions up
  by 8 changes nothing; every source position lies between 0 and 7, so the range mask is 1 at every edge; and the three
  tables' entries at edge e are the words of srcTab e, dstTab e and normW e.
-/
import proofs.«129694_g13082470383675_cont_sun_m_1195_7_alg».proof.Proof.RefTerm
import proofs.«129694_g13082470383675_cont_sun_m_1195_7_alg».proof.Proof.Spec
import proofs.«129694_g13082470383675_cont_sun_m_1195_7_alg».proof.Proof.LibLayout
import Idealize.ShloMosaic.Lib.ValueIdx

noncomputable section

namespace Cert.ReferenceIdeal.RefValue

open Idealize.ShloMosaic Idealize.ShloMosaic.ValueIdx Cert.ReferenceIdeal Cert.ReferenceIdeal.RefTerm
open Cert.ReferenceIdeal.Facts₀ Cert.ReferenceIdeal.Facts

/-- The source table's entry at edge e is the word of srcTab e. -/
theorem srcWords_at : ∀ e : Fin 34, srcWords (ix1 e) = BitVec.ofNat 32 (Cert.Gcn.srcTab e).val := by decide

/-- The destination table's entry at edge e is the word of dstTab e. -/
theorem dstWords_at : ∀ e : Fin 34, dstWords (ix1 e) = BitVec.ofNat 32 (Cert.Gcn.dstTab e).val := by decide

/-- The weight table's word at edge e is normW e. -/
theorem normWord_at : ∀ e : Fin 34, lit1 (S34.rowMajor (ix1 e)) = Cert.Gcn.normW e := by decide

/-- The weight table's entry at edge e is the edge's weight. -/
theorem normWords_at (e : Fin 34) : normWords (F := Ideal) (ix1 e) = Cert.Gcn.normE e :=
  congrArg (Ideal.ofBits .f32) (normWord_at e)

/-- Read as a signed integer, the source table's entry at edge e is the number of srcTab e. -/
theorem srcWords_toNat : ∀ e : Fin 34, (srcWords (ix1 e)).toInt.toNat = (Cert.Gcn.srcTab e).val := by decide

/-- Read as a signed integer, the destination table's entry at edge e is the number of dstTab e. -/
theorem dstWords_toInt : ∀ e : Fin 34, (dstWords (ix1 e)).toInt = ((Cert.Gcn.dstTab e).val : Int) := by decide

/-- No source entry is negative. -/
theorem src_not_neg : ∀ e : Fin 34, IntOp.cmpi .slt (srcWords (ix1 e)) 0#32 = 0#1 := by decide

/-- No destination entry is negative. -/
theorem dst_not_neg : ∀ e : Fin 34, IntOp.cmpi .slt (dstWords (ix1 e)) 0#32 = 0#1 := by decide

/-- Every source entry is between 0 and 7. -/
theorem src_in_range : ∀ e : Fin 34,
    IntOp.andi (IntOp.andi (IntOp.cmpi .sge (srcWords (ix1 e)) 0#32) (IntOp.cmpi .sle (srcWords (ix1 e)) 7#32)) 1#1 = 1#1 := by
  decide

/-- A fold over the one-element index set is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

variable [Facts]

/-- Moving the negative positions up by 8 leaves the source table as it is. -/
theorem wrapped_src : wrapped srcWords = srcWords := by
  funext i
  obtain ⟨e, rfl⟩ : ∃ e : Fin 34, i = ix1 e := ⟨i 0, eq_ix1 i⟩
  show Scalar.select (IntOp.cmpi .slt (srcWords (ix1 e)) 0#32) _ (srcWords (ix1 e)) = _
  rw [src_not_neg e]
  exact select_zero _ _

/-- Moving the negative positions up by 8 leaves the destination table as it is. -/
theorem wrapped_dst : wrapped dstWords = dstWords := by
  funext i
  obtain ⟨e, rfl⟩ : ∃ e : Fin 34, i = ix1 e := ⟨i 0, eq_ix1 i⟩
  show Scalar.select (IntOp.cmpi .slt (dstWords (ix1 e)) 0#32) _ (dstWords (ix1 e)) = _
  rw [dst_not_neg e]
  exact select_zero _ _

/-- A table as a column, read at (e, 0), is the table at e. -/
theorem column_at (idx : IVec S34 32) (e : Fin 34) : column idx (ix2 e (0 : Fin 1)) = idx (ix1 e) := by
  unfold column broadcastInDim
  refine congrArg idx ?_
  funext a
  match a with
  | ⟨0, _⟩ => rfl

/-- The range mask of the source table is 1 at every edge. -/
theorem inRange_src (e : Fin 34) : inRange srcWords (ix1 e) = 1#1 := by
  unfold inRange
  have hred : S34x1.Reduces [1] S34 := by decide
  rw [Host.reduce_eq_fold_single IntOp.andi _ _ reducesTo_S34x1_S34_d1 hred h_S_ (ix1 e)]
  refine (fold_fin_one IntOp.andi (1#1) _).trans ?_
  show IntOp.andi (andi _ _ (hred.lift (ix1 e) (0 : Fin 1))) 1#1 = 1#1
  rw [Cert.LibLayout.lift_row hred e (0 : Fin 1)]
  show IntOp.andi (IntOp.andi (IntOp.cmpi .sge (column srcWords (ix2 e (0 : Fin 1))) 0#32)
    (IntOp.cmpi .sle (column srcWords (ix2 e (0 : Fin 1))) 7#32)) 1#1 = 1#1
  rw [column_at]
  exact src_in_range e

end Cert.ReferenceIdeal.RefValue

end
-- ==== Proof.LibRowGather.lean ====
/-
  GENERAL LEMMA: picking rows of the middle axis of a rank-3 array by a table of row numbers, read at an index.

  The operand x has shape [A, N, C]; the table idx has shape [M, 1] and holds integer words; the result has shape
  [A, M, C] and its element (e, a, c) is x (e, r, c), where r is the table's entry (a, 0) read as a signed integer and
  clamped into 0 .. N - 1 (a gather whose slices are whole [A, 1, C] planes: the result's axes 0 and 2 are the slice's
  own, its axis 1 runs over the table's rows, the operand's axis 1 is collapsed and is the one the table addresses).
  When that entry, read as a signed integer, is a natural number m below N, nothing is clamped and the element is
  x (e, m, c). Nothing here mentions a program; the extents A, N, C, M and the word width are arbitrary.

  * rowDims: those dimension numbers, for any extents.
  * gather_rows_apply: the gather read at (e, a, c), given the value of the table's entry (a, 0).
-/
import Idealize.ShloMosaic.PureOps.Ideal
import Idealize.ShloMosaic.Lib.ValueIdx

noncomputable section

namespace Cert.LibRowGather

open Idealize.ShloMosaic Idealize.ShloMosaic.ValueIdx

variable {α : Type}

/-- The dimension numbers of a gather of whole [A, 1, C] planes of an [A, N, C] operand at an [M, 1] table of
    positions on axis 1, into an [A, M, C] result. -/
abbrev rowDims (A N C M : ℕ)
    (wf : GatherDims.WF ⟨3, ![A, N, C]⟩ ⟨2, ![M, 1]⟩ ⟨3, ![A, M, C]⟩ [0, 2] [1] [] [1] [] 1 ![A, 1, C]) :
    GatherDims ⟨3, ![A, N, C]⟩ ⟨2, ![M, 1]⟩ ⟨3, ![A, M, C]⟩ where
  offsetDims := [0, 2]
  collapsedSliceDims := [1]
  operandBatchingDims := []
  startIndicesBatchingDims := []
  startIndexMap := [1]
  indexVectorDim := 1
  sliceSizes := ![A, 1, C]
  wf := wf

/-- THE GATHER READ AT (e, a, c): when the table's entry (a, 0), read as a signed integer, is the natural number m
    below N, the result's element is the operand's at (e, m, c). -/
theorem gather_rows_apply {A N C M w : ℕ}
    (wf : GatherDims.WF ⟨3, ![A, N, C]⟩ ⟨2, ![M, 1]⟩ ⟨3, ![A, M, C]⟩ [0, 2] [1] [] [1] [] 1 ![A, 1, C])
    (x : (⟨3, ![A, N, C]⟩ : Shape).Idx → α) (idx : IVec ⟨2, ![M, 1]⟩ w)
    (e : Fin A) (a : Fin M) (c : Fin C) (m : Fin N) (hm : (idx (ix2 a (0 : Fin 1))).toInt.toNat = m.val) :
    Host.gather (rowDims A N C M wf) x idx (ix3 e a c) = x (ix3 e m c) := by
  unfold Host.gather
  congr 1
  funext ax
  refine Fin.ext ?_
  show (rowDims A N C M wf).start (ix3 e a c) idx ax + (rowDims A N C M wf).batchCoord (ix3 e a c) ax
    + (rowDims A N C M wf).offCoord (ix3 e a c) ax = _
  rw [GatherDims.batchCoord_eq_zero _ _ _ List.not_mem_nil, Nat.add_zero]
  match ax with
  | ⟨0, _⟩ =>
    show (rowDims A N C M wf).start (ix3 e a c) idx 0 + (rowDims A N C M wf).offCoord (ix3 e a c) 0 = e.val
    have hne : ¬((0 : Fin 3) = 1) := by decide
    have h0 : (0 : Fin 3) ∉ (rowDims A N C M wf).startIndexMap := fun h => hne (List.mem_singleton.mp h)
    have hk : (0 : Fin 3) ∈ (rowDims A N C M wf).sKept :=
      (GatherDims.mem_sKept _ _).mpr ⟨fun h => hne (List.mem_singleton.mp h), List.not_mem_nil⟩
    unfold GatherDims.start GatherDims.offCoord
    rw [dif_neg h0, dif_pos hk, Nat.zero_add]
    rfl
  | ⟨1, _⟩ =>
    show (rowDims A N C M wf).start (ix3 e a c) idx 1 + (rowDims A N C M wf).offCoord (ix3 e a c) 1 = m.val
    rw [GatherDims.offCoord_eq_zero _ _ _ (fun h => ((GatherDims.mem_sKept _ _).mp h).1 (List.mem_singleton.mpr rfl)), Nat.add_zero]
    unfold GatherDims.start
    rw [dif_pos (show (1 : Fin 3) ∈ (rowDims A N C M wf).startIndexMap from List.mem_singleton.mpr rfl)]
    have hsi : (rowDims A N C M wf).siIdx (ix3 e a c) ⟨List.idxOf (1 : Fin 3) (rowDims A N C M wf).startIndexMap,
        List.idxOf_lt_length_iff.2 (List.mem_singleton.mpr rfl)⟩ = ix2 a (0 : Fin 1) := by
      funext b; refine Fin.ext ?_
      match b with
      | ⟨0, _⟩ => rfl
      | ⟨1, _⟩ => rfl
    rw [hsi, hm]
    show min m.val (N - 1) = m.val
    have := m.isLt
    omega
  | ⟨2, _⟩ =>
    show (rowDims A N C M wf).start (ix3 e a c) idx 2 + (rowDims A N C M wf).offCoord (ix3 e a c) 2 = c.val
    have hne : ¬((2 : Fin 3) = 1) := by decide
    have h0 : (2 : Fin 3) ∉ (rowDims A N C M wf).startIndexMap := fun h => hne (List.mem_singleton.mp h)
    have hk : (2 : Fin 3) ∈ (rowDims A N C M wf).sKept :=
      (GatherDims.mem_sKept _ _).mpr ⟨fun h => hne (List.mem_singleton.mp h), List.not_mem_nil⟩
    unfold GatherDims.start GatherDims.offCoord
    rw [dif_neg h0, dif_pos hk, Nat.zero_add]
    rfl

end Cert.LibRowGather

end
-- ==== Proof.RefTake.lean ====
/-
  The rows the source table picks, read at (b, e, d): the row of the edge's source node.

  The table holds no negative entry, so the wrap leaves it as it is; its range mask is 1 at every edge, so the select
  keeps the gathered row; and the gathered row at edge e is the operand's row srcTab e, because the table's entry there
  is that node's number. Any number of channels C.
-/
import proofs.«129694_g13082470383675_cont_sun_m_1195_7_alg».proof.Proof.RefTables
import proofs.«129694_g13082470383675_cont_sun_m_1195_7_alg».proof.Proof.LibRowGather

noncomputable section

namespace Cert.ReferenceIdeal.RefValue

open Idealize.ShloMosaic Idealize.ShloMosaic.ValueIdx Cert.ReferenceIdeal Cert.ReferenceIdeal.RefTerm
open Cert.ReferenceIdeal.Facts₀ Cert.ReferenceIdeal.Facts

variable [Facts]

/-- A table broadcast along the middle axis of an [A, 34, C] array, read at (b, e, d), is the table at e. -/
theorem bcastMid_at {α : Type} {A C : ℕ}
    (hb : S34.BroadcastsInDim ⟨3, ![A, 34, C]⟩ (![1] : Fin 1 → Fin 3)) (t : S34.Idx → α) (b : Fin A) (e : Fin 34) (d : Fin C) :
    broadcastInDim ⟨3, ![A, 34, C]⟩ ![1] hb t (ix3 b e d) = t (ix1 e) := by
  unfold broadcastInDim
  refine congrArg t ?_
  funext a
  match a with
  | ⟨0, _⟩ => rfl

/-- The picked rows at (b, e, d): the operand's row of the edge's source node. -/
theorem take_apply {A C : ℕ}
    (hb : S34.BroadcastsInDim ⟨3, ![A, 34, C]⟩ (![1] : Fin 1 → Fin 3))
    (wf : GatherDims.WF ⟨3, ![A, 8, C]⟩ ⟨2, ![34, 1]⟩ ⟨3, ![A, 34, C]⟩ [0, 2] [1] [] [1] [] 1 ![A, 1, C])
    (x : FVec Ideal ⟨3, ![A, 8, C]⟩ .f32) (fill : FVec Ideal ⟨3, ![A, 34, C]⟩ .f32) (b : Fin A) (e : Fin 34) (d : Fin C) :
    select (broadcastInDim ⟨3, ![A, 34, C]⟩ ![1] hb (inRange (wrapped srcWords)))
      (Host.gather (Cert.LibRowGather.rowDims A 8 C 34 wf) x (column (wrapped srcWords))) fill (ix3 b e d)
      = x (ix3 b (Cert.Gcn.srcTab e) d) := by
  rw [wrapped_src, select_apply, bcastMid_at, inRange_src, select_one]
  exact Cert.LibRowGather.gather_rows_apply wf x (column srcWords) b e d (Cert.Gcn.srcTab e)
    (by rw [column_at]; exact srcWords_toNat e)

/-- The rows picked out of an array with 64 channels. -/
theorem take64_apply (x : FVec Ideal S16384x8x64 .f32) (b : Fin 16384) (e : Fin 34) (d : Fin 64) :
    take64 x srcWords (ix3 b e d) = x (ix3 b (Cert.Gcn.srcTab e) d) :=
  take_apply bcast_S34_S16384x34x64_1 gather_S16384x8x64_S34x1_S16384x34x64_02_1_n_n_1_1_16384164_wf x _ b e d

/-- The rows picked out of an array with 96 channels. -/
theorem take96_apply (x : FVec Ideal S16384x8x96 .f32) (b : Fin 16384) (e : Fin 34) (d : Fin 96) :
    take96 x srcWords (ix3 b e d) = x (ix3 b (Cert.Gcn.srcTab e) d) :=
  take_apply bcast_S34_S16384x34x96_1 gather_S16384x8x96_S34x1_S16384x34x96_02_1_n_n_1_1_16384196_wf x _ b e d

/-- The rows picked out of an array with 128 channels. -/
theorem take128_apply (x : FVec Ideal S16384x8x128 .f32) (b : Fin 16384) (e : Fin 34) (d : Fin 128) :
    take128 x srcWords (ix3 b e d) = x (ix3 b (Cert.Gcn.srcTab e) d) :=
  take_apply bcast_S34_S16384x34x128_1 gather_S16384x8x128_S34x1_S16384x34x128_02_1_n_n_1_1_163841128_wf x _ b e d

end Cert.ReferenceIdeal.RefValue

end
-- ==== Proof.LibScatterSet.lean ====
/-
  A scatter whose body returns the update ("set"), read at one index.

  The scatter is a left fold over the update indices: each update whose target lies inside the operand replaces
  the element there, the others are dropped.  Suppose every update that lands on the index `i` carries one and the
  same value `v` (all updates equal, or an update that depends only on coordinates it shares with its target).
  Then the order of the fold does not matter: the result at `i` is `v` if some update lands on `i`, and the
  operand's element otherwise.
-/
import Idealize.ShloMosaic.PureOps

namespace Idealize.ShloMosaic.ScatterSet

open Idealize.ShloMosaic

/-- A left fold of steps, watched at one position `b`: each step either overwrites position `b` with the fixed
    value `v` (when the step "hits") or leaves it alone.  After the fold, position `b` holds `v` if some step of
    the list hit, and its initial value otherwise. -/
theorem foldl_overwrite {ι β γ : Type} (stp : (β → γ) → ι → (β → γ)) (b : β) (hit : ι → Prop) (v : γ)
    (hhit : ∀ r n, hit n → stp r n b = v) (hmiss : ∀ r n, ¬ hit n → stp r n b = r b)
    (L : List ι) (x : β → γ) :
    ((∃ n ∈ L, hit n) → L.foldl stp x b = v) ∧ ((∀ n ∈ L, ¬ hit n) → L.foldl stp x b = x b) := by
  induction L generalizing x with
  | nil => exact ⟨fun ⟨_, h, _⟩ => absurd h (List.not_mem_nil), fun _ => rfl⟩
  | cons n L ih =>
    rw [List.foldl_cons]
    refine ⟨?_, ?_⟩
    · rintro ⟨n', hn', hh⟩
      by_cases hL : ∃ n'' ∈ L, hit n''
      · exact (ih (stp x n)).1 hL
      · have hnone : ∀ n'' ∈ L, ¬ hit n'' := fun n'' h1 h2 => hL ⟨n'', h1, h2⟩
        rw [(ih (stp x n)).2 hnone]
        rcases List.mem_cons.1 hn' with rfl | hn'
        · exact hhit x n' hh
        · exact absurd hh (hnone n' hn')
    · intro hall
      rw [(ih (stp x n)).2 fun n' h => hall n' (List.mem_cons_of_mem _ h)]
      exact hmiss x n (hall n (List.mem_cons_self))

variable {α : Type} {s si u : Shape} {w : Nat}

/-- The scatter's fold, watched at the index `i`: the step for update `n` hits when that update lands on `i`. -/
theorem scatter_set_fold (d : ScatterDims s si u) (x : s.Idx → α) (idx : IVec si w) (upd : u.Idx → α) (i : s.Idx) (v : α)
    (hv : ∀ j, d.resultIdx? j idx = some i → upd j = v) :
    ((∃ j, d.resultIdx? j idx = some i) → Host.scatter d (fun _ b => b) x idx upd i = v)
    ∧ ((∀ j, d.resultIdx? j idx ≠ some i) → Host.scatter d (fun _ b => b) x idx upd i = x i) := by
  unfold Host.scatter
  have key := foldl_overwrite (fun (r : s.Idx → α) (n : Fin u.numel) =>
      match d.resultIdx? (u.rowMajor.symm n) idx with
      | some i₀ => fun i' => if i' = i₀ then (fun _ b => b) (r i₀) (upd (u.rowMajor.symm n)) else r i'
      | none => r) i (fun n => d.resultIdx? (u.rowMajor.symm n) idx = some i) v
    (by
      intro r n hb
      have hu := hv _ hb
      dsimp only
      generalize d.resultIdx? (u.rowMajor.symm n) idx = o at hb
      subst hb
      dsimp only
      rw [if_pos rfl]
      exact hu)
    (by
      intro r n hb
      dsimp only
      generalize d.resultIdx? (u.rowMajor.symm n) idx = o at hb
      cases o with
      | none => rfl
      | some i₀ =>
        dsimp only
        rw [if_neg (fun e : i = i₀ => hb (e ▸ rfl))])
    (List.finRange u.numel) x
  refine ⟨fun ⟨j, hj⟩ => key.1 ⟨u.rowMajor j, List.mem_finRange _, by rw [Equiv.symm_apply_apply]; exact hj⟩,
    fun h => key.2 fun n _ => h _⟩

/-- Some update lands on `i`, and every update landing there carries `v`: the scatter's result at `i` is `v`. -/
theorem scatter_set_of_hit (d : ScatterDims s si u) (x : s.Idx → α) (idx : IVec si w) (upd : u.Idx → α) (i : s.Idx) (v : α)
    (hv : ∀ j, d.resultIdx? j idx = some i → upd j = v) (h : ∃ j, d.resultIdx? j idx = some i) :
    Host.scatter d (fun _ b => b) x idx upd i = v :=
  (scatter_set_fold d x idx upd i v hv).1 h

/-- No update lands on `i`: the scatter's result at `i` is the operand's element. -/
theorem scatter_set_of_miss (d : ScatterDims s si u) (x : s.Idx → α) (idx : IVec si w) (upd : u.Idx → α) (i : s.Idx)
    (h : ∀ j, d.resultIdx? j idx ≠ some i) :
    Host.scatter d (fun _ b => b) x idx upd i = x i :=
  (scatter_set_fold d x idx upd i (x i) (fun j hj => absurd hj (h j))).2 h

/-- An update lands on `i` exactly when, on every axis of the operand, the start read off the indices plus the
    update's window coordinate is `i`'s coordinate (an equation between integers: a start may be negative or too
    large, and then no index of the operand satisfies it). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hb : ∀ a, 0 ≤ d.start j idx a + (d.window j a : Int) ∧ d.start j idx a + (d.window j a : Int) < s.size a
    · rw [dif_pos hb] at h
      have e := congrFun (Option.some.inj h) a
      have ea : (d.start j idx a + (d.window j a : Int)).toNat = (i a).val := congrArg Fin.val e
      have := (hb a).1
      omega
    · rw [dif_neg hb] at h
      exact absurd h (by simp)
  · intro h
    have hb : ∀ a, 0 ≤ d.start j idx a + (d.window j a : Int) ∧ d.start j idx a + (d.window j a : Int) < s.size a := fun a => by
      have := h a
      have := (i a).isLt
      omega
    rw [dif_pos hb]
    congr 1
    funext a
    apply Fin.ext
    show (d.start j idx a + (d.window j a : Int)).toNat = (i a).val
    have := h a
    omega

end Idealize.ShloMosaic.ScatterSet
-- ==== Proof.LibLanding.lean ====
/-
  The set of updates of an accumulating scatter that land on a given operand entry, named once.

  The exact scatter on the extended reals is "the operand's entry plus the sum of the updates whose result index is
  that entry". The set is stated here for ANY shapes and dimension record, so that it is spelt exactly as in the
  operation's definition; statements about a particular scatter then speak of landing d idx i and of membership in
  it, and never spell the set again at their own shapes.
-/
import Idealize.ShloMosaic.PureOps.Ideal

noncomputable section

namespace Cert.LibLanding

open Idealize.ShloMosaic
open scoped BigOperators

/-- The updates that land on the operand entry i. -/
def landing {s si su : Shape} (d : ScatterDims s si su) {w : Nat} (idx : IVec si w) (i : s.Idx) : Finset su.Idx :=
  Finset.univ.filter (fun j => d.resultIdx? j idx = some i)

/-- An update is in the set exactly when its result index is the entry. -/
theorem mem_landing {s si su : Shape} (d : ScatterDims s si su) {w : Nat} (idx : IVec si w) (i : s.Idx) (j : su.Idx) :
    j ∈ landing d idx i ↔ d.resultIdx? j idx = some i := by
  unfold landing
  rw [Finset.mem_filter]
  exact ⟨fun h => h.2, fun h => ⟨Finset.mem_univ _, h⟩⟩

/-- The exact accumulating scatter at an entry: the operand's entry plus the sum of the updates landing there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ landing d idx i, upd j := rfl

/-- The same for the host operation at the exact instance. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = x i + ∑ j ∈ landing d idx i, upd j := rfl

end Cert.LibLanding

end
-- ==== Proof.RefScatterRows.lean ====
/-
  Adding rows into the middle axis of a rank-3 array at positions read from a table: which updates land where.

  The operand has shape [A, N, C]; the table idx has shape [M, 1]; the updates have shape [A, M, C]. Update (b', e, d')
  goes to operand entry (b', r, d'), where r is the table's entry (e, 0) read as a signed integer (dropped when r is not
  a row of the operand). So it lands on (b, n, d) exactly when b' = b, d' = d and the table's entry is n. Any extents.
-/
import proofs.«129694_g13082470383675_cont_sun_m_1195_7_alg».proof.Proof.LibScatterSet
import proofs.«129694_g13082470383675_cont_sun_m_1195_7_alg».proof.Proof.LibLanding
import Idealize.ShloMosaic.Lib.ValueIdx

noncomputable section

namespace Cert.ReferenceIdeal.RefValue

open Idealize.ShloMosaic Idealize.ShloMosaic.ValueIdx

/-- The dimension numbers of that scatter, for any extents. -/
abbrev rowScatter (A N C M : ℕ) (wf : ScatterDims.WF ⟨3, ![A, N, C]⟩ ⟨2, ![M, 1]⟩ ⟨3, ![A, M, C]⟩ [0, 2] [1] [1] 1) :
    ScatterDims ⟨3, ![A, N, C]⟩ ⟨2, ![M, 1]⟩ ⟨3, ![A, M, C]⟩ where
  updateWindowDims := [0, 2]
  insertedWindowDims := [1]
  scatterDimsToOperandDims := [1]
  indexVectorDim := 1
  wf := wf

variable {A N C M w : ℕ} (wf : ScatterDims.WF ⟨3, ![A, N, C]⟩ ⟨2, ![M, 1]⟩ ⟨3, ![A, M, C]⟩ [0, 2] [1] [1] 1)
  (idx : IVec ⟨2, ![M, 1]⟩ w)

/-- On the middle axis the window of update (b, e, d) starts at the table's entry (e, 0). -/
theorem rowScatter_start_mid (b : Fin A) (e : Fin M) (d : Fin C) :
    (rowScatter A N C M wf).start (ix3 b e d) idx 1 = (idx (ix2 e (0 : Fin 1))).toInt := by
  unfold ScatterDims.start
  rw [dif_pos (show (1 : Fin 3) ∈ (rowScatter A N C M wf).scatterDimsToOperandDims from List.mem_singleton.mpr rfl)]
  refine congrArg (fun i => (idx i).toInt) ?_
  funext a
  refine Fin.ext ?_
  match a with
  | ⟨0, _⟩ => rfl
  | ⟨1, _⟩ => rfl

/-- Update (b', e, d') lands on (b, n, d) exactly when b' = b, d' = d and the table's entry (e, 0) is n. -/
theorem rowScatter_lands (b b' : Fin A) (e : Fin M) (n : Fin N) (d d' : Fin C) :
    (rowScatter A N C M wf).resultIdx? (ix3 b' e d') idx = some (ix3 b n d)
      ↔ b' = b ∧ (idx (ix2 e (0 : Fin 1))).toInt = (n.val : Int) ∧ d' = d := by
  rw [ScatterSet.resultIdx?_eq_some_iff]
  have e1 := rowScatter_start_mid (N := N) wf idx b' e d'
  constructor
  · intro h
    have h0 : (0 : Int) + ((b'.val : ℕ) : Int) = ((b.val : ℕ) : Int) := h 0
    have h1 : (rowScatter A N C M wf).start (ix3 b' e d') idx 1 + ((0 : ℕ) : Int) = ((n.val : ℕ) : Int) := h 1
    have h2 : (0 : Int) + ((d'.val : ℕ) : Int) = ((d.val : ℕ) : Int) := h 2
    rw [e1] at h1
    exact ⟨Fin.ext (by omega), by omega, Fin.ext (by omega)⟩
  · rintro ⟨rfl, h1, rfl⟩ a
    match a with
    | ⟨0, _⟩ =>
      show (0 : Int) + ((b'.val : ℕ) : Int) = ((b'.val : ℕ) : Int)
      omega
    | ⟨1, _⟩ =>
      show (rowScatter A N C M wf).start (ix3 b' e d') idx 1 + ((0 : ℕ) : Int) = ((n.val : ℕ) : Int)
      rw [e1, h1]
      omega
    | ⟨2, _⟩ =>
      show (0 : Int) + ((d'.val : ℕ) : Int) = ((d'.val : ℕ) : Int)
      omega

end Cert.ReferenceIdeal.RefValue

end
-- ==== Proof.RefSpread.lean ====
/-
  Rows weighted per edge and added into zero at the edges' destination nodes, then the bias, read at (b, n, d).

  The scatter's result at (b, n, d) is the zero operand's entry plus the sum of the updates that land there. Update
  (b', e, d') lands there exactly when b' = b, d' = d and the destination table's entry at e is n, so the landing set is
  the set of the edges e into n, through e ↦ (b, e, d). The update at (b, e, d) is the picked row's entry times the
  edge's weight. Only a change of summation index is used: no law of extended-real arithmetic. Any channel count C.
-/
import proofs.«129694_g13082470383675_cont_sun_m_1195_7_alg».proof.Proof.RefTables
import proofs.«129694_g13082470383675_cont_sun_m_1195_7_alg».proof.Proof.RefScatterRows
import proofs.«129694_g13082470383675_cont_sun_m_1195_7_alg».proof.Proof.LibOneBit

noncomputable section

namespace Cert.ReferenceIdeal.RefValue

open Idealize.ShloMosaic Idealize.ShloMosaic.ValueIdx Cert.ReferenceIdeal Cert.ReferenceIdeal.RefTerm
open Cert.ReferenceIdeal.Facts₀ Cert.ReferenceIdeal.Facts
open scoped BigOperators

variable [Facts]

/-- The weight table spread over an [A, 34, C] array, read at (b, e, d), is the weight of edge e. -/
theorem normSpread_at {A C : ℕ} (hb : S1x34x1.BroadcastsInDim ⟨3, ![A, 34, C]⟩ (![0, 1, 2] : Fin 3 → Fin 3))
    (b : Fin A) (e : Fin 34) (d : Fin C) :
    broadcastInDim ⟨3, ![A, 34, C]⟩ ![0, 1, 2] hb
      (broadcastInDim S1x34x1 ![1] bcast_S34_S1x34x1_1 (normWords (F := Ideal))) (ix3 b e d) = Cert.Gcn.normE e := by
  rw [← normWords_at e]
  unfold broadcastInDim
  refine congrArg (normWords (F := Ideal)) ?_
  funext a
  match a with
  | ⟨0, _⟩ => rfl

/-- A bias spread over an [A, 8, C] array, read at (b, n, d), is the bias at d. -/
theorem biasSpread_at {α : Type} {A C : ℕ}
    (hb1 : (⟨1, ![C]⟩ : Shape).BroadcastsInDim ⟨3, ![1, 1, C]⟩ (![2] : Fin 1 → Fin 3))
    (hb2 : (⟨3, ![1, 1, C]⟩ : Shape).BroadcastsInDim ⟨3, ![A, 8, C]⟩ (![0, 1, 2] : Fin 3 → Fin 3))
    (bias : (⟨1, ![C]⟩ : Shape).Idx → α) (b : Fin A) (n : Fin 8) (d : Fin C) :
    broadcastInDim ⟨3, ![A, 8, C]⟩ ![0, 1, 2] hb2 (broadcastInDim ⟨3, ![1, 1, C]⟩ ![2] hb1 bias) (ix3 b n d) = bias (ix1 d) := by
  unfold broadcastInDim
  refine congrArg bias ?_
  funext a
  refine Fin.ext ?_
  match a with
  | ⟨0, _⟩ =>
    show (if h1 : C = 1 then (⟨0, by omega⟩ : Fin C)
      else ⟨(if h2 : C = 1 then (⟨0, by omega⟩ : Fin C) else ⟨d.val, d.isLt⟩).val, by split <;> omega⟩).val = d.val
    have := d.isLt
    split
    · simp only; omega
    · rfl

/-- The updates landing on (b, n, d) are those at (b, e, d) with e an edge into n. -/
theorem mem_landing_rows {A C : ℕ}
    (wf : ScatterDims.WF ⟨3, ![A, 8, C]⟩ ⟨2, ![34, 1]⟩ ⟨3, ![A, 34, C]⟩ [0, 2] [1] [1] 1)
    (b b' : Fin A) (e : Fin 34) (n : Fin 8) (d d' : Fin C) :
    ix3 b' e d' ∈ Cert.LibLanding.landing (rowScatter A 8 C 34 wf) (column dstWords) (ix3 b n d)
      ↔ b' = b ∧ Cert.Gcn.dstTab e = n ∧ d' = d := by
  rw [Cert.LibLanding.mem_landing, rowScatter_lands, column_at, dstWords_toInt]
  constructor
  · rintro ⟨h0, h1, h2⟩
    exact ⟨h0, Fin.ext (by omega), h2⟩
  · rintro ⟨h0, h1, h2⟩
    exact ⟨h0, by rw [h1], h2⟩

/-- The spread rows at (b, n, d): the aggregate over the edges into n of the rows, plus the bias. -/
theorem spread_apply {A C : ℕ}
    (hb0 : S_.BroadcastsInDim ⟨3, ![A, 8, C]⟩ (![] : Fin 0 → Fin 3))
    (hbn : S1x34x1.BroadcastsInDim ⟨3, ![A, 34, C]⟩ (![0, 1, 2] : Fin 3 → Fin 3))
    (hb1 : (⟨1, ![C]⟩ : Shape).BroadcastsInDim ⟨3, ![1, 1, C]⟩ (![2] : Fin 1 → Fin 3))
    (hb2 : (⟨3, ![1, 1, C]⟩ : Shape).BroadcastsInDim ⟨3, ![A, 8, C]⟩ (![0, 1, 2] : Fin 3 → Fin 3))
    (wf : ScatterDims.WF ⟨3, ![A, 8, C]⟩ ⟨2, ![34, 1]⟩ ⟨3, ![A, 34, C]⟩ [0, 2] [1] [1] 1)
    (h : FVec Ideal ⟨3, ![A, 8, C]⟩ .f32) (t : FVec Ideal ⟨3, ![A, 34, C]⟩ .f32)
    (ht : ∀ (b : Fin A) (e : Fin 34) (d : Fin C), t (ix3 b e d) = h (ix3 b (Cert.Gcn.srcTab e) d))
    (bias : FVec Ideal ⟨1, ![C]⟩ .f32) (b : Fin A) (n : Fin 8) (d : Fin C) :
    addf
      (Host.scatterAdd (F := Ideal) (rowScatter A 8 C 34 wf)
        (broadcastInDim ⟨3, ![A, 8, C]⟩ ![] hb0 (constant (F := Ideal) S_ .f32 0x00000000#32))
        (column (wrapped dstWords))
        (mulf t (broadcastInDim ⟨3, ![A, 34, C]⟩ ![0, 1, 2] hbn
          (broadcastInDim S1x34x1 ![1] bcast_S34_S1x34x1_1 (normWords (F := Ideal))))))
      (broadcastInDim ⟨3, ![A, 8, C]⟩ ![0, 1, 2] hb2 (broadcastInDim ⟨3, ![1, 1, C]⟩ ![2] hb1 bias)) (ix3 b n d)
      = Cert.Gcn.agg (fun m => h (ix3 b m d)) n + bias (ix1 d) := by
  rw [addf_apply, biasSpread_at, Cert.LibLanding.scatterAdd_apply, wrapped_dst]
  refine congrArg (· + bias (ix1 d)) ?_
  unfold Cert.Gcn.agg
  refine congrArg₂ (· + ·) Cert.LibOneBit.zero_word ?_
  refine Finset.sum_nbij' (fun j => (j 1 : Fin 34)) (fun e => ix3 b e d) ?_ ?_ ?_ ?_ ?_
  · intro j hj
    obtain ⟨b', e, d', rfl⟩ : ∃ (b' : Fin A) (e : Fin 34) (d' : Fin C), j = ix3 b' e d' := ⟨j 0, j 1, j 2, eq_ix3 j⟩
    exact Finset.mem_filter.mpr ⟨Finset.mem_univ _, ((mem_landing_rows wf b b' e n d d').mp hj).2.1⟩
  · intro e he
    exact (mem_landing_rows wf b b e n d d).mpr ⟨rfl, (Finset.mem_filter.mp he).2, rfl⟩
  · intro j hj
    obtain ⟨b', e, d', rfl⟩ : ∃ (b' : Fin A) (e : Fin 34) (d' : Fin C), j = ix3 b' e d' := ⟨j 0, j 1, j 2, eq_ix3 j⟩
    obtain ⟨rfl, -, rfl⟩ := (mem_landing_rows wf b b' e n d d').mp hj
    rfl
  · intro e _
    rfl
  · intro j hj
    obtain ⟨b', e, d', rfl⟩ : ∃ (b' : Fin A) (e : Fin 34) (d' : Fin C), j = ix3 b' e d' := ⟨j 0, j 1, j 2, eq_ix3 j⟩
    obtain ⟨rfl, -, rfl⟩ := (mem_landing_rows wf b b' e n d d').mp hj
    rw [mulf_apply, normSpread_at, ht]
    rfl

end Cert.ReferenceIdeal.RefValue

end
-- ==== Proof.LibContractAt.lean ====
/-
  GENERAL LEMMAS: a contraction over ONE axis, read at an output index, as a plain sum over that axis' coordinate,
  whatever the arrangement of the two operands (which axis of each is contracted, whether an operand enters transposed).

  The dimension record of a matrix product names, for an output index j and a contraction index s, one index of each
  operand. When the contraction has a single axis of extent K, the contraction indices are the numbers below K, and the
  product at j is the sum over k : Fin K of l (li k) * r (ri k), where li k and ri k are the two operand indices that the
  record names at j and k. The caller says what li and ri are (two equations per use, usually closed coordinate by
  coordinate); nothing here depends on the shapes.

  * contraction_at: the re-indexing of the sum.
  * matmul_at: the matrix unit's product into a zero accumulator, at j.
  * hostdot_at: the host's dot_general, at j.
  * contr_val: the number a contraction index stands for is its one coordinate.
  Only a change of summation index is used: no law of extended-real arithmetic, so no finiteness.
-/
import Idealize.ShloMosaic.PureOps.Ideal
import Idealize.ShloMosaic.PureOps.Ideal.Laws
import Idealize.ShloMosaic.Lib.ValueIdx

noncomputable section

namespace Cert.LibContractAt

open Idealize.ShloMosaic Idealize.ShloMosaic.ValueIdx
open scoped BigOperators

/-- The number a one-axis contraction index stands for is its one coordinate. -/
theorem contr_val {sl sr so : Shape} (d : DotDims sl sr so) (K : ℕ) (hrank : d.contr.rank = 1)
    (hsize : d.contr.size ⟨0, by omega⟩ = K) (s : d.contr.Idx) :
    ((contrEquiv1 d K hrank hsize s : Fin K) : ℕ) = (s ⟨0, by omega⟩).val := rfl

/-- A one-axis contraction at the output index j is the sum over k of l (li k) * r (ri k), where li and ri are the operand
    indices the record names at j. -/
theorem contraction_at {sl sr so : Shape} (d : DotDims sl sr so) (K : ℕ) (hrank : d.contr.rank = 1)
    (hsize : d.contr.size ⟨0, by omega⟩ = K) (l : sl.Idx → EReal) (r : sr.Idx → EReal) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    ∑ s : d.contr.Idx, l (d.lhsIdx j s) * r (d.rhsIdx j s) = ∑ k : Fin K, l (li k) * r (ri k) := by
  rw [← Equiv.sum_comp (contrEquiv1 d K hrank hsize)]
  exact Finset.sum_congr rfl fun s _ => by rw [hl s, hr s]

/-- The matrix unit's product into a zero accumulator, at j. -/
theorem matmul_at {sl sr so : Shape} (d : DotDims sl sr so) (K : ℕ) (hrank : d.contr.rank = 1)
    (hsize : d.contr.size ⟨0, by omega⟩ = K) {φ₁ φ₂ : FTy} (l : FVec Ideal sl φ₁) (r : FVec Ideal sr φ₂) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    matmul d none l r (constant (F := Ideal) so .f32 0x00000000#32) j = ∑ k : Fin K, l (li k) * r (ri k) :=
  (Ideal.matmul_constant_zero_apply d none l r j).trans (contraction_at d K hrank hsize l r j li ri hl hr)

/-- The host's dot_general, at j. -/
theorem hostdot_at {sl sr so : Shape} (d : DotDims sl sr so) (K : ℕ) (hrank : d.contr.rank = 1)
    (hsize : d.contr.size ⟨0, by omega⟩ = K) (l : FVec Ideal sl .f32) (r : FVec Ideal sr .f32) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    Host.dotGeneral d none l r j = ∑ k : Fin K, l (li k) * r (ri k) :=
  (Ideal.dotGeneral_apply d none .single l r j).trans (contraction_at d K hrank hsize l r j li ri hl hr)

end Cert.LibContractAt

end
-- ==== Proof.RefDot.lean ====
/-
  A product of an array of node rows [A, M, K] with a matrix [K, N], read at (b, n, d): the sum over the K channels k of
  the row's entry (b, n, k) times the matrix's entry (k, d). Any extents.
-/
import proofs.«129694_g13082470383675_cont_sun_m_1195_7_alg».proof.Proof.LibContractAt
import Idealize.ShloMosaic.Lib.ValueIdx

noncomputable section

namespace Cert.ReferenceIdeal.RefValue

open Idealize.ShloMosaic Idealize.ShloMosaic.ValueIdx
open scoped BigOperators

/-- The dimension numbers of that product, for any extents. -/
abbrev rowsDot (A M K N : ℕ)
    (wf : DotDims.WF ⟨3, ![A, M, K]⟩ ⟨2, ![K, N]⟩ ⟨3, ![A, M, N]⟩ [2] [0] [0, 1] [1] [] []) :
    DotDims ⟨3, ![A, M, K]⟩ ⟨2, ![K, N]⟩ ⟨3, ![A, M, N]⟩ where
  lhsContracting := [2]
  rhsContracting := [0]
  lhsNonContracting := [0, 1]
  rhsNonContracting := [1]
  lhsBatch := []
  rhsBatch := []
  wf := wf

/-- The product read at (b, n, d). -/
theorem rowsDot_apply {A M K N : ℕ}
    (wf : DotDims.WF ⟨3, ![A, M, K]⟩ ⟨2, ![K, N]⟩ ⟨3, ![A, M, N]⟩ [2] [0] [0, 1] [1] [] [])
    (l : FVec Ideal ⟨3, ![A, M, K]⟩ .f32) (r : FVec Ideal ⟨2, ![K, N]⟩ .f32) (b : Fin A) (n : Fin M) (d : Fin N) :
    Host.dotGeneral (rowsDot A M K N wf) none l r (ix3 b n d) = ∑ k : Fin K, l (ix3 b n k) * r (ix2 k d) := by
  refine Cert.LibContractAt.hostdot_at (rowsDot A M K N wf) K rfl rfl l r (ix3 b n d)
    (fun k => ix3 b n k) (fun k => ix2 k d) ?_ ?_
  · intro s
    funext a
    refine Fin.ext ?_
    match a with
    | ⟨0, _⟩ => rfl
    | ⟨1, _⟩ => rfl
    | ⟨2, _⟩ => rfl
  · intro s
    funext a
    refine Fin.ext ?_
    match a with
    | ⟨0, _⟩ => rfl
    | ⟨1, _⟩ => rfl

end Cert.ReferenceIdeal.RefValue

end
-- ==== Proof.RefPool.lean ====
/-
  The rectifier read at an index, and the maximum over the node axis read at a batch element.

  * relu_apply: a maximum with the broadcast zero word, at an index, is the rectifier of the entry.
  * lift_mid: over (i, u) of an [a, c] result, the index of the [a, b, c] operand with k put back on the middle axis
    is (i, k, u).
  * pool_apply: the maximum over the middle axis of an [A, 8, 1] array, started from the word of minus infinity, read
    at (b, u), is the maximum of the eight entries (b, n, 0) from the least extended real.
-/
import proofs.«129694_g13082470383675_cont_sun_m_1195_7_alg».proof.Proof.Spec
import proofs.«129694_g13082470383675_cont_sun_m_1195_7_alg».proof.Proof.LibOneBit
import Idealize.ShloMosaic.PureOps.Ideal
import Idealize.ShloMosaic.PureOps.Ideal.Laws
import Idealize.ShloMosaic.PureOps.Reduce
import Idealize.ShloMosaic.Lib.ValueIdx

noncomputable section

namespace Cert.ReferenceIdeal.RefValue

open Idealize.ShloMosaic Idealize.ShloMosaic.ValueIdx

/-- A maximum with the broadcast zero word is the rectifier, entry by entry. -/
theorem relu_apply {s : Shape} (hb : (⟨0, ![]⟩ : Shape).BroadcastsInDim s (![] : Fin 0 → Fin s.rank))
    (x : FVec Ideal s .f32) (i : s.Idx) :
    maximumf x (broadcastInDim s ![] hb (constant (F := Ideal) ⟨0, ![]⟩ .f32 0x00000000#32)) i = Cert.Gcn.reluE (x i) := by
  show max (x i) (Ideal.ofBits .f32 0x00000000#32) = max (x i) 0
  rw [Cert.LibOneBit.zero_word]

/-- Over (i, u), the operand index with k put back on the middle axis is (i, k, u). -/
theorem lift_mid {a b c : ℕ} (h : Shape.Reduces ⟨3, ![a, b, c]⟩ [1] ⟨2, ![a, c]⟩) (i : Fin a) (u : Fin c) (k : Fin b) :
    h.lift (ix2 i u) k = ix3 i k u := by
  funext ax
  refine Fin.ext ?_
  match ax with
  | ⟨0, _⟩ => rfl
  | ⟨1, _⟩ => rfl
  | ⟨2, _⟩ => rfl

/-- The maximum over the eight nodes, from minus infinity, read at a batch element. -/
theorem pool_apply {A : ℕ} (x : FVec Ideal ⟨3, ![A, 8, 1]⟩ .f32)
    (h' : Shape.ReducesTo ⟨3, ![A, 8, 1]⟩ [1] ⟨2, ![A, 1]⟩) (h : Shape.Reduces ⟨3, ![A, 8, 1]⟩ [1] ⟨2, ![A, 1]⟩)
    (hu : 0 < (⟨0, ![]⟩ : Shape).numel) (b : Fin A) (u : Fin 1) :
    Host.reduce FloatOps.maximumf x (constant (F := Ideal) ⟨0, ![]⟩ .f32 0xFF800000#32) h' hu (ix2 b u)
      = Cert.Gcn.pool (fun n => x (ix3 b n (0 : Fin 1))) := by
  rw [Host.reduce_eq_fold_single FloatOps.maximumf x _ h' h hu]
  have hbot : Ideal.ofBits .f32 0xFF800000#32 = (⊥ : EReal) := by simp [Ideal.ofBits, Ideal.ieee]
  have hf : (x ∘ h.lift (ix2 b u)) = fun k : Fin 8 => x (ix3 b k (0 : Fin 1)) :=
    funext fun k => congrArg x ((lift_mid h b u k).trans (by rw [Subsingleton.elim u (0 : Fin 1)]))
  unfold Cert.Gcn.pool
  refine Eq.trans ?_ (congrArg (fun v : EReal => (Finset.univ : Finset (Fin 8)).fold max v
    (fun n => x (ix3 b n (0 : Fin 1)))) hbot)
  exact congrArg (fun f : Fin 8 → EReal => (Finset.univ : Finset (Fin 8)).fold max (Ideal.ofBits .f32 0xFF800000#32) f) hf

end Cert.ReferenceIdeal.RefValue

end
-- ==== Proof.RefLayers.lean ====
/-
  The reference's stages read at an index, at the program's own shapes.

  * spreadC_apply: the weighted rows added into zero at the destination nodes, plus the bias, at (b, n, d), is the
    aggregate over the edges into n of the rows of the edges' source nodes, plus the bias at d.
  * layerC_apply: a graph layer (product with the weights, spread, rectifier) at (b, n, d) is layerA agg of the batch
    element's rows.
  * denseC_apply: a rectified dense layer at (b, n, d) is denseRelu of the batch element's rows.
  * score_apply: the product with one column plus the constant at (b, n, 0) is the node's score.
-/
import proofs.«129694_g13082470383675_cont_sun_m_1195_7_alg».proof.Proof.RefTake
import proofs.«129694_g13082470383675_cont_sun_m_1195_7_alg».proof.Proof.RefSpread
import proofs.«129694_g13082470383675_cont_sun_m_1195_7_alg».proof.Proof.RefDot
import proofs.«129694_g13082470383675_cont_sun_m_1195_7_alg».proof.Proof.RefPool

noncomputable section

namespace Cert.ReferenceIdeal.RefValue

open Idealize.ShloMosaic Idealize.ShloMosaic.ValueIdx Cert.ReferenceIdeal Cert.ReferenceIdeal.RefTerm
open Cert.ReferenceIdeal.Facts₀ Cert.ReferenceIdeal.Facts
open scoped BigOperators

variable [Facts]

/-! ## The spread rows -/

theorem spread64_apply (h : FVec Ideal S16384x8x64 .f32) (bias : FVec Ideal S64 .f32) (b : Fin 16384) (n : Fin 8) (d : Fin 64) :
    spread64 h bias (ix3 b n d) = Cert.Gcn.agg (fun m => h (ix3 b m d)) n + bias (ix1 d) := by
  unfold spread64
  exact spread_apply bcast_S_S16384x8x64 bcast_S1x34x1_S16384x34x64_0_1_2 bcast_S64_S1x1x64_2
    bcast_S1x1x64_S16384x8x64_0_1_2 scatter_S16384x8x64_S34x1_S16384x34x64_02_1_1_1_wf h (take64 h srcWords)
    (take64_apply h) bias b n d

theorem spread96_apply (h : FVec Ideal S16384x8x96 .f32) (bias : FVec Ideal S96 .f32) (b : Fin 16384) (n : Fin 8) (d : Fin 96) :
    spread96 h bias (ix3 b n d) = Cert.Gcn.agg (fun m => h (ix3 b m d)) n + bias (ix1 d) := by
  unfold spread96
  exact spread_apply bcast_S_S16384x8x96 bcast_S1x34x1_S16384x34x96_0_1_2 bcast_S96_S1x1x96_2
    bcast_S1x1x96_S16384x8x96_0_1_2 scatter_S16384x8x96_S34x1_S16384x34x96_02_1_1_1_wf h (take96 h srcWords)
    (take96_apply h) bias b n d

theorem spread128_apply (h : FVec Ideal S16384x8x128 .f32) (bias : FVec Ideal S128 .f32) (b : Fin 16384) (n : Fin 8) (d : Fin 128) :
    spread128 h bias (ix3 b n d) = Cert.Gcn.agg (fun m => h (ix3 b m d)) n + bias (ix1 d) := by
  unfold spread128
  exact spread_apply bcast_S_S16384x8x128 bcast_S1x34x1_S16384x34x128_0_1_2 bcast_S128_S1x1x128_2
    bcast_S1x1x128_S16384x8x128_0_1_2 scatter_S16384x8x128_S34x1_S16384x34x128_02_1_1_1_wf h (take128 h srcWords)
    (take128_apply h) bias b n d

/-! ## The graph layers -/

theorem layer64_apply (x : FVec Ideal S16384x8x128 .f32) (W : FVec Ideal S128x64 .f32) (bias : FVec Ideal S64 .f32)
    (b : Fin 16384) (n : Fin 8) (d : Fin 64) :
    relu64 (spread64 (Host.dotGeneral dot_S16384x8x128_S128x64_S16384x8x64_2_0_01_1_n_n none x W) bias) (ix3 b n d)
      = Cert.Gcn.layerA Cert.Gcn.agg (fun m k => x (ix3 b m k)) (fun k d => W (ix2 k d)) (fun d => bias (ix1 d)) n d := by
  unfold relu64
  rw [relu_apply, spread64_apply]
  unfold Cert.Gcn.layerA
  refine congrArg Cert.Gcn.reluE (congrArg (· + bias (ix1 d)) (congrArg (fun f => Cert.Gcn.agg f n) (funext fun m => ?_)))
  exact rowsDot_apply dot_S16384x8x128_S128x64_S16384x8x64_2_0_01_1_n_n_wf x W b m d

theorem layer96_apply (x : FVec Ideal S16384x8x64 .f32) (W : FVec Ideal S64x96 .f32) (bias : FVec Ideal S96 .f32)
    (b : Fin 16384) (n : Fin 8) (d : Fin 96) :
    relu96 (spread96 (Host.dotGeneral dot_S16384x8x64_S64x96_S16384x8x96_2_0_01_1_n_n none x W) bias) (ix3 b n d)
      = Cert.Gcn.layerA Cert.Gcn.agg (fun m k => x (ix3 b m k)) (fun k d => W (ix2 k d)) (fun d => bias (ix1 d)) n d := by
  unfold relu96
  rw [relu_apply, spread96_apply]
  unfold Cert.Gcn.layerA
  refine congrArg Cert.Gcn.reluE (congrArg (· + bias (ix1 d)) (congrArg (fun f => Cert.Gcn.agg f n) (funext fun m => ?_)))
  exact rowsDot_apply dot_S16384x8x64_S64x96_S16384x8x96_2_0_01_1_n_n_wf x W b m d

theorem layer128_apply (x : FVec Ideal S16384x8x96 .f32) (W : FVec Ideal S96x128 .f32) (bias : FVec Ideal S128 .f32)
    (b : Fin 16384) (n : Fin 8) (d : Fin 128) :
    relu128 (spread128 (Host.dotGeneral dot_S16384x8x96_S96x128_S16384x8x128_2_0_01_1_n_n none x W) bias) (ix3 b n d)
      = Cert.Gcn.layerA Cert.Gcn.agg (fun m k => x (ix3 b m k)) (fun k d => W (ix2 k d)) (fun d => bias (ix1 d)) n d := by
  unfold relu128
  rw [relu_apply, spread128_apply]
  unfold Cert.Gcn.layerA
  refine congrArg Cert.Gcn.reluE (congrArg (· + bias (ix1 d)) (congrArg (fun f => Cert.Gcn.agg f n) (funext fun m => ?_)))
  exact rowsDot_apply dot_S16384x8x96_S96x128_S16384x8x128_2_0_01_1_n_n_wf x W b m d

/-! ## The dense layers and the score -/

theorem dense64_apply (x : FVec Ideal S16384x8x128 .f32) (W : FVec Ideal S128x64 .f32) (bias : FVec Ideal S64 .f32)
    (b : Fin 16384) (n : Fin 8) (d : Fin 64) :
    relu64 (addf (Host.dotGeneral dot_S16384x8x128_S128x64_S16384x8x64_2_0_01_1_n_n none x W)
      (broadcastInDim S16384x8x64 ![0, 1, 2] bcast_S1x1x64_S16384x8x64_0_1_2
        (broadcastInDim S1x1x64 ![2] bcast_S64_S1x1x64_2 bias))) (ix3 b n d)
      = Cert.Gcn.denseRelu (fun m k => x (ix3 b m k)) (fun k d => W (ix2 k d)) (fun d => bias (ix1 d)) n d := by
  unfold relu64
  rw [relu_apply, addf_apply, biasSpread_at]
  unfold Cert.Gcn.denseRelu
  refine congrArg Cert.Gcn.reluE (congrArg (· + bias (ix1 d)) ?_)
  exact rowsDot_apply dot_S16384x8x128_S128x64_S16384x8x64_2_0_01_1_n_n_wf x W b n d

theorem dense32_apply (x : FVec Ideal S16384x8x64 .f32) (W : FVec Ideal S64x32 .f32) (bias : FVec Ideal S32 .f32)
    (b : Fin 16384) (n : Fin 8) (d : Fin 32) :
    relu32 (addf (Host.dotGeneral dot_S16384x8x64_S64x32_S16384x8x32_2_0_01_1_n_n none x W)
      (broadcastInDim S16384x8x32 ![0, 1, 2] bcast_S1x1x32_S16384x8x32_0_1_2
        (broadcastInDim S1x1x32 ![2] bcast_S32_S1x1x32_2 bias))) (ix3 b n d)
      = Cert.Gcn.denseRelu (fun m k => x (ix3 b m k)) (fun k d => W (ix2 k d)) (fun d => bias (ix1 d)) n d := by
  unfold relu32
  rw [relu_apply, addf_apply, biasSpread_at]
  unfold Cert.Gcn.denseRelu
  refine congrArg Cert.Gcn.reluE (congrArg (· + bias (ix1 d)) ?_)
  exact rowsDot_apply dot_S16384x8x64_S64x32_S16384x8x32_2_0_01_1_n_n_wf x W b n d

theorem score_apply (x : FVec Ideal S16384x8x32 .f32) (r : FVec Ideal S32x1 .f32) (c : FVec Ideal S1 .f32)
    (b : Fin 16384) (n : Fin 8) :
    addf (Host.dotGeneral dot_S16384x8x32_S32x1_S16384x8x1_2_0_01_1_n_n none x r)
      (broadcastInDim S16384x8x1 ![0, 1, 2] bcast_S1x1x1_S16384x8x1_0_1_2
        (broadcastInDim S1x1x1 ![2] bcast_S1_S1x1x1_2 c)) (ix3 b n (0 : Fin 1))
      = Cert.Gcn.score (fun m k => x (ix3 b m k)) (fun k => r (ix2 k (0 : Fin 1))) (c (ix1 (0 : Fin 1))) n := by
  rw [addf_apply, biasSpread_at]
  unfold Cert.Gcn.score
  refine congrArg (· + c (ix1 (0 : Fin 1))) ?_
  exact rowsDot_apply dot_S16384x8x32_S32x1_S16384x8x1_2_0_01_1_n_n_wf x r b n (0 : Fin 1)

end Cert.ReferenceIdeal.RefValue

end
-- ==== Proof.RefValue.lean ====
/-
  The reference's result read at an index: at batch element b it is the network netR — three graph layers that project
  the channels and then aggregate over the edges, two rectified dense layers, the score per node and the maximum over the
  eight nodes — on the batch element's rows. Each stage of the term is read at an index by its own lemma and the stages
  are chained from the result inwards; nothing is used but re-indexing, the tables' entries, and the value of two words.
-/
import proofs.«129694_g13082470383675_cont_sun_m_1195_7_alg».proof.Proof.RefLayers

noncomputable section

namespace Cert.ReferenceIdeal.RefValue

open Idealize.ShloMosaic Idealize.ShloMosaic.ValueIdx Cert.ReferenceIdeal Cert.ReferenceIdeal.RefTerm
open Cert.ReferenceIdeal.Facts₀ Cert.ReferenceIdeal.Facts
open scoped BigOperators

variable [Facts]

/-- The three graph layers at (b, n, d). -/
theorem graphLayers_apply (a0 : FVec Ideal S16384x8x128 .f32) (a1 : FVec Ideal S128x64 .f32) (a2 : FVec Ideal S64 .f32)
    (a3 : FVec Ideal S64x96 .f32) (a4 : FVec Ideal S96 .f32) (a5 : FVec Ideal S96x128 .f32) (a6 : FVec Ideal S128 .f32)
    (b : Fin 16384) (n : Fin 8) (d : Fin 128) :
    graphLayers a0 a1 a2 a3 a4 a5 a6 (ix3 b n d)
      = Cert.Gcn.layerA Cert.Gcn.agg
          (Cert.Gcn.layerA Cert.Gcn.agg
            (Cert.Gcn.layerA Cert.Gcn.agg (fun n k => a0 (ix3 b n k)) (fun k d => a1 (ix2 k d)) (fun d => a2 (ix1 d)))
            (fun k d => a3 (ix2 k d)) (fun d => a4 (ix1 d)))
          (fun k d => a5 (ix2 k d)) (fun d => a6 (ix1 d)) n d := by
  unfold graphLayers
  refine (layer128_apply _ a5 a6 b n d).trans ?_
  refine congrArg (fun hh => Cert.Gcn.layerA Cert.Gcn.agg hh (fun k d => a5 (ix2 k d)) (fun d => a6 (ix1 d)) n d)
    (funext fun m => funext fun k => ?_)
  refine (layer96_apply _ a3 a4 b m k).trans ?_
  refine congrArg (fun hh => Cert.Gcn.layerA Cert.Gcn.agg hh (fun k d => a3 (ix2 k d)) (fun d => a4 (ix1 d)) m k)
    (funext fun m' => funext fun k' => ?_)
  exact layer64_apply a0 a1 a2 b m' k'

/-- The head at a batch element. -/
theorem headOf_apply (h : FVec Ideal S16384x8x128 .f32) (a7 : FVec Ideal S128x64 .f32) (a8 : FVec Ideal S64 .f32)
    (a9 : FVec Ideal S64x32 .f32) (a10 : FVec Ideal S32 .f32) (a11 : FVec Ideal S32x1 .f32) (a12 : FVec Ideal S1 .f32)
    (b : Fin 16384) (u : Fin 1) :
    headOf h a7 a8 a9 a10 a11 a12 (ix2 b u)
      = Cert.Gcn.head (fun n k => h (ix3 b n k)) (fun k d => a7 (ix2 k d)) (fun d => a8 (ix1 d))
          (fun k d => a9 (ix2 k d)) (fun d => a10 (ix1 d)) (fun k => a11 (ix2 k (0 : Fin 1))) (a12 (ix1 (0 : Fin 1))) := by
  unfold headOf
  have hred : S16384x8x1.Reduces [1] S16384x1 := by decide
  refine (pool_apply _ reducesTo_S16384x8x1_S16384x1_d1 hred h_S_ b u).trans ?_
  unfold Cert.Gcn.head
  refine congrArg Cert.Gcn.pool (funext fun n => ?_)
  refine (score_apply _ a11 a12 b n).trans ?_
  refine congrArg (fun hh => Cert.Gcn.score hh (fun k => a11 (ix2 k (0 : Fin 1))) (a12 (ix1 (0 : Fin 1))) n)
    (funext fun m => funext fun k => ?_)
  refine (dense32_apply _ a9 a10 b m k).trans ?_
  refine congrArg (fun hh => Cert.Gcn.denseRelu hh (fun k d => a9 (ix2 k d)) (fun d => a10 (ix1 d)) m k)
    (funext fun m' => funext fun k' => ?_)
  exact dense64_apply h a7 a8 b m' k'

/-- THE REFERENCE'S RESULT: batch element by batch element, the network in the edge arrangement. -/
theorem out_eq (a0 : FVec Ideal S16384x8x128 .f32) (a1 : FVec Ideal S128x64 .f32) (a2 : FVec Ideal S64 .f32)
    (a3 : FVec Ideal S64x96 .f32) (a4 : FVec Ideal S96 .f32) (a5 : FVec Ideal S96x128 .f32) (a6 : FVec Ideal S128 .f32)
    (a7 : FVec Ideal S128x64 .f32) (a8 : FVec Ideal S64 .f32) (a9 : FVec Ideal S64x32 .f32) (a10 : FVec Ideal S32 .f32)
    (a11 : FVec Ideal S32x1 .f32) (a12 : FVec Ideal S1 .f32) :
    Cert.ReferenceIdeal.RefTerm.out (F := Ideal) a0 a1 a2 a3 a4 a5 a6 a7 a8 a9 a10 a11 a12
      = Cert.Gcn.outR a0 a1 a2 a3 a4 a5 a6 a7 a8 a9 a10 a11 a12 := by
  funext i
  obtain ⟨b, u, rfl⟩ : ∃ (b : Fin 16384) (u : Fin 1), i = ix2 b u := ⟨i 0, i 1, eq_ix2 i⟩
  unfold Cert.ReferenceIdeal.RefTerm.out Cert.Gcn.outR Cert.Gcn.netR
  refine (headOf_apply _ a7 a8 a9 a10 a11 a12 b u).trans ?_
  refine congrArg (fun hh => Cert.Gcn.head hh (fun k d => a7 (ix2 k d)) (fun d => a8 (ix1 d))
    (fun k d => a9 (ix2 k d)) (fun d => a10 (ix1 d)) (fun k => a11 (ix2 k (0 : Fin 1))) (a12 (ix1 (0 : Fin 1))))
    (funext fun n => funext fun k => ?_)
  exact graphLayers_apply a0 a1 a2 a3 a4 a5 a6 b n k

end Cert.ReferenceIdeal.RefValue

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.Finite.lean ====
/-
  From the precondition "every argument array is finite" to "every entry of every argument is a real number".

  The precondition is printed as a conjunction of thirteen tests, one per argument array x: the conjunction over all
  entries of |x| < +∞, where |x| = max x (−x) on the extended reals and +∞ is the value of the word 0x7F800000.
  max x (−x) < ⊤ excludes x = ⊤ and x = ⊥ (for which −x = ⊤), so x is a real number.
-/
import Idealize.ShloMosaic.Lib.ReduceAll
import Idealize.ShloMosaic.PureOps
import Idealize.ShloMosaic.PureOps.Ideal
import Idealize.ShloMosaic.Lib.ValueIdx
import proofs.«129694_g13082470383675_cont_sun_m_1195_7_alg».proof.Pre_finite_inputs
import proofs.«129694_g13082470383675_cont_sun_m_1195_7_alg».proof.Proof.LibMoments

noncomputable section

namespace Cert.Finite

open Idealize.ShloMosaic Cert.LibMoments

/-- The shape of rank zero has one index. -/
instance subsingleton_scalar_idx : Subsingleton (Shape.Idx ⟨0, ![]⟩) := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (−x) is below +∞ is a real number. -/
theorem isR_of_abs_lt_top (x : EReal) (h : max x (-x) < ⊤) : IsR x := by
  induction x using EReal.rec with
  | bot => simp at h
  | coe r => exact ⟨r, rfl⟩
  | top => simp at h

theorem ofBool_eq_one (b : Bool) : BitVec.ofBool b = 1#1 ↔ b = true := by cases b <;> decide

/-- The element test of the precondition: |x| < +∞ as an i1 word equal to 1 makes x a real number. -/
theorem isR_of_test (x : Ideal .f32)
    (h : FloatOps.cmpf (F := Ideal) .olt (FloatOps.hostAbsf (F := Ideal) x) (FloatOps.ofBits (F := Ideal) .f32 0x7F800000#32) = 1#1) :
    IsR x := by
  have h' : BitVec.ofBool (decide (max x (-x) < Ideal.ofBits .f32 0x7F800000#32)) = 1#1 := h
  rw [ofBits_inf, ofBool_eq_one, decide_eq_true_eq] at h'
  exact isR_of_abs_lt_top x h'

/-- One conjunct of the precondition, for an array of any shape: if the conjunction over all entries of |x| < +∞
    is 1, every entry of x is a real number. -/
theorem isR_of_all {s : Shape} {axes : List (Fin s.rank)} (x : FVec Ideal s .f32)
    (hb : Shape.BroadcastsInDim ⟨0, ![]⟩ s (![] : Fin 0 → Fin s.rank))
    (hr : s.ReducesTo axes ⟨0, ![]⟩) (hu : 0 < Shape.numel ⟨0, ![]⟩) (j : Shape.Idx ⟨0, ![]⟩)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) :
    ∀ i, IsR (x i) := fun i =>
  isR_of_test (x i) (Host.reduce_andi_all _ _ hr hu j e i)

/-- The precondition decoded: if the printed test of the thirteen argument arrays is 1, every entry of every
    argument is a real number. The test is the conjunction of the thirteen per-array tests, nested to the left. -/
theorem real_of_fn [Cert.Pre_finite_inputs.Facts] (a0 : FVec Ideal ⟨3, ![16384, 8, 128]⟩ .f32) (a1 : FVec Ideal ⟨2, ![128, 64]⟩ .f32) (a2 : FVec Ideal ⟨1, ![64]⟩ .f32)
    (a3 : FVec Ideal ⟨2, ![64, 96]⟩ .f32) (a4 : FVec Ideal ⟨1, ![96]⟩ .f32) (a5 : FVec Ideal ⟨2, ![96, 128]⟩ .f32)
    (a6 : FVec Ideal ⟨1, ![128]⟩ .f32) (a7 : FVec Ideal ⟨2, ![128, 64]⟩ .f32) (a8 : FVec Ideal ⟨1, ![64]⟩ .f32)
    (a9 : FVec Ideal ⟨2, ![64, 32]⟩ .f32) (a10 : FVec Ideal ⟨1, ![32]⟩ .f32) (a11 : FVec Ideal ⟨2, ![32, 1]⟩ .f32)
    (a12 : FVec Ideal ⟨1, ![1]⟩ .f32)
    (h : Cert.Pre_finite_inputs.fn (F := Ideal) a0 a1 a2 a3 a4 a5 a6 a7 a8 a9 a10 a11 a12 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) ∧ (∀ i, IsR (a7 i)) ∧ (∀ i, IsR (a8 i)) ∧ (∀ i, IsR (a9 i)) ∧ (∀ i, IsR (a10 i)) ∧ (∀ i, IsR (a11 i)) ∧ (∀ i, IsR (a12 i)) := by
  have e := congrFun h ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨⟨h0, h1⟩, h2⟩, h3⟩, h4⟩, h5⟩, h6⟩, h7⟩, h8⟩, h9⟩, h10⟩, h11⟩, h12⟩ := e
  exact ⟨isR_of_all a0 _ _ _ _ h0, isR_of_all a1 _ _ _ _ h1, isR_of_all a2 _ _ _ _ h2, isR_of_all a3 _ _ _ _ h3,
    isR_of_all a4 _ _ _ _ h4, isR_of_all a5 _ _ _ _ h5, isR_of_all a6 _ _ _ _ h6, isR_of_all a7 _ _ _ _ h7,
    isR_of_all a8 _ _ _ _ h8, isR_of_all a9 _ _ _ _ h9, isR_of_all a10 _ _ _ _ h10, isR_of_all a11 _ _ _ _ h11,
    isR_of_all a12 _ _ _ _ h12⟩

end Cert.Finite

end
-- ==== Proof.GraphLaws.lean ====
/-
  Laws of the fixed graph of the network: the two spellings of node mixing agree on all extended reals, and the
  matrix entries and the edge weights are real numbers.

  Each pair (destination n, source m) carries at most one of the 34 edges; the matrix entry (n, m) is that edge's
  weight word, and the zero word where there is no edge. On the extended reals 0 * x = 0 and 0 + x = x for every x,
  and + and * are commutative and associative, so for each destination n the sum over the edges into n of
  h(src e) * weight(e) is the sum over the eight sources m of A(n, m) * h(m): the terms without an edge vanish and
  the others are the same products in another order. No entry of h needs to be finite.
-/
import Mathlib.Data.EReal.Basic
import Mathlib.Data.EReal.Operations
import Mathlib.Algebra.BigOperators.Fin
import Mathlib.Tactic.FinCases
import Idealize.ShloMosaic.PureOps.Ideal
import Idealize.ShloMosaic.PureOps.Ideal.Laws
import proofs.«129694_g13082470383675_cont_sun_m_1195_7_alg».proof.Proof.Spec
import proofs.«129694_g13082470383675_cont_sun_m_1195_7_alg».proof.Proof.LibMoments

noncomputable section

namespace Cert.Gcn

open Idealize.ShloMosaic Cert.LibMoments
open scoped BigOperators

/-! ## The two spellings of node mixing -/

/-- Aggregating over the edges into n is mixing by row n of the matrix, for every family h of extended reals.
    The sum over the edges into n is written as a sum over all 34 edges of "the term if the edge enters n, else 0"
    and expanded; the tables are read entry by entry; for each of the eight destinations the conditions are decided,
    the zero word is the extended real 0, the zero terms drop, and what is left on the two sides are the same
    products up to the order of the factors and of the terms. The three nonzero weight words are never evaluated. -/
theorem agg_eq_mix (h : Fin 8 → EReal) (n : Fin 8) : agg h n = mix adjE h n := by
  unfold agg mix
  rw [Fin.sum_univ_eight, Finset.sum_filter]
  simp only [Fin.sum_univ_succ, Fin.sum_univ_zero]
  simp only [dstTab, srcTab, normE, normW, adjE, adjW, Matrix.cons_val_succ, Matrix.cons_val_zero]
  fin_cases n <;>
    simp only [Fin.reduceEq, if_true, if_false, Matrix.cons_val, Ideal.ofBits_zero_f32, zero_mul, add_zero, zero_add,
      Fin.zero_eta, Fin.mk_one, Fin.reduceFinMk] <;>
    ac_rfl

/-! ## The weight words are real numbers -/

/-- The zero word is the real 0. -/
theorem isR_word_zero : IsR (Ideal.ofBits .f32 0x00000000#32) := by
  rw [Ideal.ofBits_zero_f32]; exact IsR_zero

/-- 0x3E800000: exponent field 125, fraction 0: 2^23 * 2^(125 - 127 - 23) = 1/4. -/
theorem isR_word_quarter : IsR (Ideal.ofBits .f32 0x3E800000#32) := by
  refine ⟨(8388608 : ℝ) * (2 : ℝ) ^ (-25 : ℤ), ?_⟩
  simp [Ideal.ofBits, Ideal.ieee, -EReal.coe_mul]

/-- 0x3E64F92E: exponent field 124, fraction 6617390: (2^23 + 6617390) * 2^(124 - 127 - 23) = 15005998 * 2^(-26). -/
theorem isR_word_a : IsR (Ideal.ofBits .f32 0x3E64F92E#32) := by
  refine ⟨(15005998 : ℝ) * (2 : ℝ) ^ (-26 : ℤ), ?_⟩
  simp [Ideal.ofBits, Ideal.ieee, -EReal.coe_mul]

/-- 0x3E4CCCCC: exponent field 124, fraction 5033164: (2^23 + 5033164) * 2^(124 - 127 - 23) = 13421772 * 2^(-26). -/
theorem isR_word_b : IsR (Ideal.ofBits .f32 0x3E4CCCCC#32) := by
  refine ⟨(13421772 : ℝ) * (2 : ℝ) ^ (-26 : ℤ), ?_⟩
  simp [Ideal.ofBits, Ideal.ieee, -EReal.coe_mul]

/-- Every entry of the matrix is a real number: it is one of the four words above. -/
theorem isR_adjE (n m : Fin 8) : IsR (adjE n m) := by
  unfold adjE adjW
  fin_cases n <;> fin_cases m <;>
    simp only [Matrix.cons_val, Fin.zero_eta, Fin.mk_one, Fin.reduceFinMk] <;>
    first | exact isR_word_zero | exact isR_word_quarter | exact isR_word_a | exact isR_word_b

/-- Every edge weight is a real number: it is one of the three nonzero words above. -/
theorem isR_normE (e : Fin 34) : IsR (normE e) := by
  unfold normE normW
  fin_cases e <;>
    simp only [Matrix.cons_val, Fin.zero_eta, Fin.mk_one, Fin.reduceFinMk] <;>
    first | exact isR_word_quarter | exact isR_word_a | exact isR_word_b

end Cert.Gcn

end
-- ==== Proof.Algebra.lean ====
/-
  Algebra of the graph layers on real entries: mixing the node rows by a matrix commutes with projecting the
  channels by a weight matrix, so the two arrangements of the network agree when the entries are real numbers.

  For a matrix A, node rows h and weights W,
      sum over m of A(n, m) * (sum over k of h(m, k) * W(k, d))  =  sum over k of (sum over m of A(n, m) * h(m, k)) * W(k, d):
  distribute the products over the sums, exchange the two finite sums, and reassociate the products. On the extended
  reals the product does not distribute over sums of mixed infinities, so every entry is assumed to be a real number
  and the identity is the one of the real numbers carried along the inclusion of the reals into the extended reals.
-/
import Mathlib.Data.EReal.Basic
import Mathlib.Data.EReal.Operations
import Mathlib.Algebra.BigOperators.Fin
import Mathlib.Algebra.BigOperators.Ring.Finset
import proofs.«129694_g13082470383675_cont_sun_m_1195_7_alg».proof.Proof.Spec
import proofs.«129694_g13082470383675_cont_sun_m_1195_7_alg».proof.Proof.GraphLaws
import proofs.«129694_g13082470383675_cont_sun_m_1195_7_alg».proof.Proof.LibMoments

noncomputable section

namespace Cert.Gcn

open Idealize.ShloMosaic Idealize.ShloMosaic.ValueIdx
open Cert.LibMoments (IsR)
open scoped BigOperators

/-! ## Mixing commutes with projecting -/

/-- The identity on the real numbers: distribute, exchange the two sums, reassociate. -/
theorem real_mix_project {K : ℕ} (a : Fin 8 → ℝ) (g : Fin 8 → Fin K → ℝ) (w : Fin K → ℝ) :
    ∑ m, a m * ∑ k, g m k * w k = ∑ k, (∑ m, a m * g m k) * w k := by
  simp only [Finset.mul_sum, Finset.sum_mul]
  rw [Finset.sum_comm]
  simp only [mul_assoc]

/-- The identity on extended reals that are real numbers. -/
theorem mix_project {K : ℕ} (a : Fin 8 → EReal) (ha : ∀ m, IsR (a m)) (g : Fin 8 → Fin K → EReal)
    (hg : ∀ m k, IsR (g m k)) (w : Fin K → EReal) (hw : ∀ k, IsR (w k)) :
    ∑ m, a m * ∑ k, g m k * w k = ∑ k, (∑ m, a m * g m k) * w k := by
  choose a' ha' using ha
  choose g' hg' using hg
  choose w' hw' using hw
  obtain rfl : a = fun m => ((a' m : ℝ) : EReal) := funext ha'
  obtain rfl : g = fun m k => ((g' m k : ℝ) : EReal) := funext fun m => funext fun k => hg' m k
  obtain rfl : w = fun k => ((w' k : ℝ) : EReal) := funext hw'
  simp only [← EReal.coe_mul, Cert.LibMoments.coe_finset_sum]
  exact congrArg _ (real_mix_project a' g' w')

/-- A graph layer that projects first and mixes after is the layer that mixes first and projects after, when the
    matrix, the node rows and the weights are real numbers (the constants b may be any extended reals). -/
theorem layerA_mix_eq_layerB (A : Fin 8 → Fin 8 → EReal) (hA : ∀ n m, IsR (A n m)) {K N : ℕ}
    (h : Fin 8 → Fin K → EReal) (hh : ∀ m k, IsR (h m k)) (W : Fin K → Fin N → EReal) (hW : ∀ k d, IsR (W k d))
    (b : Fin N → EReal) : layerA (mix A) h W b = layerB (mix A) h W b := by
  funext n d
  unfold layerA layerB mix
  rw [mix_project (fun m => A n m) (hA n) h hh (fun k => W k d) (fun k => hW k d)]

/-! ## The layers keep real entries real -/

/-- The rectifier of a real number is a real number. -/
theorem isR_reluE {x : EReal} (hx : IsR x) : IsR (reluE x) := hx.max Cert.LibMoments.IsR_zero

/-- Mixing real rows by a real matrix gives real numbers. -/
theorem isR_mix (A : Fin 8 → Fin 8 → EReal) (hA : ∀ n m, IsR (A n m)) (f : Fin 8 → EReal) (hf : ∀ m, IsR (f m))
    (n : Fin 8) : IsR (mix A f n) :=
  Cert.LibMoments.IsR.sum _ fun m => (hA n m).mul (hf m)

theorem isR_layerA_mix (A : Fin 8 → Fin 8 → EReal) (hA : ∀ n m, IsR (A n m)) {K N : ℕ}
    (h : Fin 8 → Fin K → EReal) (hh : ∀ m k, IsR (h m k)) (W : Fin K → Fin N → EReal) (hW : ∀ k d, IsR (W k d))
    (b : Fin N → EReal) (hb : ∀ d, IsR (b d)) : ∀ n d, IsR (layerA (mix A) h W b n d) := fun n d =>
  isR_reluE ((isR_mix A hA _ (fun m => Cert.LibMoments.IsR.sum _ fun k => (hh m k).mul (hW k d)) n).add (hb d))

theorem isR_layerB_mix (A : Fin 8 → Fin 8 → EReal) (hA : ∀ n m, IsR (A n m)) {K N : ℕ}
    (h : Fin 8 → Fin K → EReal) (hh : ∀ m k, IsR (h m k)) (W : Fin K → Fin N → EReal) (hW : ∀ k d, IsR (W k d))
    (b : Fin N → EReal) (hb : ∀ d, IsR (b d)) : ∀ n d, IsR (layerB (mix A) h W b n d) := fun n d =>
  isR_reluE ((Cert.LibMoments.IsR.sum _ fun k => (isR_mix A hA _ (fun m => hh m k) n).mul (hW k d)).add (hb d))

/-! ## The two arrangements of the network -/

/-- Aggregating over edges is mixing by the matrix of the graph, as functions. -/
theorem agg_eq_mix_adjE : agg = mix adjE := funext fun h => funext fun n => agg_eq_mix h n

/-- The network in the edge arrangement is the network in the matrix arrangement when the node rows, the three
    weight matrices and the first two constants are real numbers: aggregation is mixing by the matrix, whose
    entries are real; the rows after the first and the second layer are then real, so in the second and the third
    layer projecting-then-mixing is mixing-then-projecting. The head is the same function of the third layer's rows. -/
theorem netR_eq_netK (x : Fin 8 → Fin 128 → EReal) (W0 : Fin 128 → Fin 64 → EReal) (b0 : Fin 64 → EReal)
    (W1 : Fin 64 → Fin 96 → EReal) (b1 : Fin 96 → EReal) (W2 : Fin 96 → Fin 128 → EReal) (b2 : Fin 128 → EReal)
    (R0 : Fin 128 → Fin 64 → EReal) (rb0 : Fin 64 → EReal) (R1 : Fin 64 → Fin 32 → EReal) (rb1 : Fin 32 → EReal)
    (r2 : Fin 32 → EReal) (c2 : EReal) (hx : ∀ n k, IsR (x n k)) (hW0 : ∀ k d, IsR (W0 k d)) (hb0 : ∀ d, IsR (b0 d))
    (hW1 : ∀ k d, IsR (W1 k d)) (hb1 : ∀ d, IsR (b1 d)) (hW2 : ∀ k d, IsR (W2 k d)) :
    netR x W0 b0 W1 b1 W2 b2 R0 rb0 R1 rb1 r2 c2 = netK x W0 b0 W1 b1 W2 b2 R0 rb0 R1 rb1 r2 c2 := by
  unfold netR netK
  rw [agg_eq_mix_adjE]
  have h1 : ∀ n d, IsR (layerA (mix adjE) x W0 b0 n d) := isR_layerA_mix adjE isR_adjE x hx W0 hW0 b0 hb0
  rw [layerA_mix_eq_layerB adjE isR_adjE (layerA (mix adjE) x W0 b0) h1 W1 hW1 b1]
  have h2 : ∀ n d, IsR (layerB (mix adjE) (layerA (mix adjE) x W0 b0) W1 b1 n d) :=
    isR_layerB_mix adjE isR_adjE _ h1 W1 hW1 b1 hb1
  rw [layerA_mix_eq_layerB adjE isR_adjE _ h2 W2 hW2 b2]

/-- The same on the argument arrays, batch element by batch element. -/
theorem outR_eq_outK (a0 : (⟨3, ![16384, 8, 128]⟩ : Shape).Idx → EReal) (a1 : (⟨2, ![128, 64]⟩ : Shape).Idx → EReal)
    (a2 : (⟨1, ![64]⟩ : Shape).Idx → EReal) (a3 : (⟨2, ![64, 96]⟩ : Shape).Idx → EReal)
    (a4 : (⟨1, ![96]⟩ : Shape).Idx → EReal) (a5 : (⟨2, ![96, 128]⟩ : Shape).Idx → EReal)
    (a6 : (⟨1, ![128]⟩ : Shape).Idx → EReal) (a7 : (⟨2, ![128, 64]⟩ : Shape).Idx → EReal)
    (a8 : (⟨1, ![64]⟩ : Shape).Idx → EReal) (a9 : (⟨2, ![64, 32]⟩ : Shape).Idx → EReal)
    (a10 : (⟨1, ![32]⟩ : Shape).Idx → EReal) (a11 : (⟨2, ![32, 1]⟩ : Shape).Idx → EReal)
    (a12 : (⟨1, ![1]⟩ : Shape).Idx → EReal)
    (hR : (∀ i, IsR (a0 i)) ∧ (∀ i, IsR (a1 i)) ∧ (∀ i, IsR (a2 i)) ∧ (∀ i, IsR (a3 i)) ∧ (∀ i, IsR (a4 i)) ∧
      (∀ i, IsR (a5 i)) ∧ (∀ i, IsR (a6 i)) ∧ (∀ i, IsR (a7 i)) ∧ (∀ i, IsR (a8 i)) ∧ (∀ i, IsR (a9 i)) ∧
      (∀ i, IsR (a10 i)) ∧ (∀ i, IsR (a11 i)) ∧ (∀ i, IsR (a12 i))) :
    outR a0 a1 a2 a3 a4 a5 a6 a7 a8 a9 a10 a11 a12 = outK a0 a1 a2 a3 a4 a5 a6 a7 a8 a9 a10 a11 a12 := by
  obtain ⟨h0, h1, h2, h3, h4, h5, -⟩ := hR
  funext i
  unfold outR outK
  exact netR_eq_netK _ _ _ _ _ _ _ _ _ _ _ _ _ (fun n k => h0 _) (fun k d => h1 _) (fun d => h2 _)
    (fun k d => h3 _) (fun d => h4 _) (fun k d => h5 _)

end Cert.Gcn

end
-- ==== Proof.lean ====
/-
  The certificate of a graph network on eight nodes, computed by one kernel over blocks of 512 batch elements, against its
  reference on the host.

  Both programs compute, for each of the 16384 batch elements (eight node rows of 128 channels), three graph layers, two
  rectified dense layers, a score per node and the maximum of the eight scores. A graph layer projects the channels by a
  weight matrix and mixes the eight node rows by the normalised adjacency of a fixed graph. The reference projects first and
  then, for each of the graph's 34 directed edges (self-loops included), adds the source node's row times the edge's weight
  into the destination node's row, starting from zero. The kernel holds the same weights as an 8 x 8 matrix (each pair of
  nodes carries at most one edge; the entry is that edge's weight, zero without one) and multiplies by it; in the second
  and third layers it mixes first and projects after.

  On the extended reals:
  * aggregating over edges and multiplying by the matrix agree for EVERY entry (zero times anything is zero, zero plus
    anything is that thing, sums and products commute) — so the first layers agree with no condition;
  * mixing commutes with projecting only where the entries are real numbers (distributivity and an exchange of two finite
    sums fail at the infinities) — the precondition makes every argument entry real, and every layer keeps entries real.
  The kernel's result array, block by block, and the reference's result, operation by operation, are each read as the
  network on every batch element in their own arrangement; the two arrangements agree on real entries.
  The three frames: the kernel's two are the generated ones, the reference's is its run with the result dropped. The
  idealization rewrote nothing, so preserving it is trivial.
-/
import proofs.«129694_g13082470383675_cont_sun_m_1195_7_alg».proof.Defs
import proofs.«129694_g13082470383675_cont_sun_m_1195_7_alg».proof.Proof.Gen.Kernel
import proofs.«129694_g13082470383675_cont_sun_m_1195_7_alg».proof.Proof.Gen.Kernel.Frame
import proofs.«129694_g13082470383675_cont_sun_m_1195_7_alg».proof.Proof.Gen.KernelIdeal
import proofs.«129694_g13082470383675_cont_sun_m_1195_7_alg».proof.Proof.Gen.KernelIdeal.Frame
import proofs.«129694_g13082470383675_cont_sun_m_1195_7_alg».proof.Proof.Gen.ReferenceIdeal
import proofs.«129694_g13082470383675_cont_sun_m_1195_7_alg».proof.Proof.Gen.Pre_finite_inputs
import proofs.«129694_g13082470383675_cont_sun_m_1195_7_alg».proof.Proof.BlockValue
import proofs.«129694_g13082470383675_cont_sun_m_1195_7_alg».proof.Proof.RefRun
import proofs.«129694_g13082470383675_cont_sun_m_1195_7_alg».proof.Proof.RefValue
import proofs.«129694_g13082470383675_cont_sun_m_1195_7_alg».proof.Proof.Finite
import proofs.«129694_g13082470383675_cont_sun_m_1195_7_alg».proof.Proof.Algebra

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefRun.run m ρ)

/-- From memories that agree on the arguments, both idealized programs end with the same result array: the network on
    every batch element, which the kernel computes in the matrix arrangement and the reference in the edge arrangement;
    the arrangements agree because the precondition makes every argument entry a real number. -/
theorem algebraic : Cert.algebraic_KernelIdeal_ReferenceIdeal := by
  intro m ρ m' ρ' hpre hagree
  refine ⟨fun c => Cert.KernelIdeal.BlockValue.G m c, Cert.KernelIdeal.BlockValue.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10, e11, e12⟩ := hagree c
  rw [e0, e1, e2, e3, e4, e5, e6, e7, e8, e9, e10, e11, e12, Cert.ReferenceIdeal.RefValue.out_eq]
  exact Cert.Gcn.outR_eq_outK _ _ _ _ _ _ _ _ _ _ _ _ _ (Cert.Finite.real_of_fn _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
